-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x5000 : Shape := ⟨2, ![10000, 5000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S10000 : Shape := ⟨1, ![10000]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x5000 : S_.BroadcastsInDim S10000x5000 (![] : Fin 0 → Fin S10000x5000.rank)
  reducesTo_S10000x5000_S_d0_1 : S10000x5000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  reducesTo_S10000x5000_S10000_d1 : S10000x5000.ReducesTo [1] S10000
  bcast_S_S10000 : S_.BroadcastsInDim S10000 (![] : Fin 0 → Fin S10000.rank)
  reducesTo_S10000_S_d0 : S10000.ReducesTo [0] S_

variable [Facts]

def fn_part2 {F : FTy → Type} [FloatOps F] (main_v28 : IVec S_ 1) (main_v32 : IVec S_ 1) : IVec S_ 1 :=
  let main_v33 : IVec S_ 1 := andi main_v28 main_v32
  main_v33

def fn_part1 {F : FTy → Type} [FloatOps F] (main_arg1 : FVec F S10000x5000 .f32) (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_cst_10 : FVec F S_ .f32 := constant S_ .f32 0x00000000#32
  let main_v29 : FVec F S10000 .f32 := (fun x v => Host.reduceAdd x v reducesTo_S10000x5000_S10000_d1 h_S_) main_arg1 main_cst_10
  let main_cst_11 : FVec F S_ .f32 := constant S_ .f32 0x00000000#32
  let main_v30 : FVec F S10000 .f32 := broadcastInDim S10000 ![] bcast_S_S10000 main_cst_11
  let main_v31 : IVec S10000 1 := cmpf .oge main_v29 main_v30
  let main_c_12 : IVec S_ 1 := constantI S_ 1 1#1
  let main_v32 : IVec S_ 1 := (fun x v => Host.reduce IntOp.andi x v reducesTo_S10000_S_d0 h_S_) main_v31 main_c_12
  fn_part2 (F := F) main_v28 main_v32

def fn {F : FTy → Type} [FloatOps F] (main_arg0 : FVec F S10000x128 .f32) (main_arg1 : FVec F S10000x5000 .f32) (main_arg2 : FVec F S128x128 .f32) (main_arg3 : FVec F S128 .f32) (main_arg4 : FVec F S128x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x5000 .f32 := Host.absf main_arg1
  let main_cst_0 : FVec F S_ .f32 := constant S_ .f32 0x7F800000#32
  let main_v5 : FVec F S10000x5000 .f32 := broadcastInDim S10000x5000 ![] bcast_S_S10000x5000 main_cst_0
  let main_v6 : IVec S10000x5000 1 := cmpf .olt main_v4 main_v5
  let main_c_1 : IVec S_ 1 := constantI S_ 1 1#1
  let main_v7 : IVec S_ 1 := (fun x v => Host.reduce IntOp.andi x v reducesTo_S10000x5000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg4 main_arg5 main_v13 main_v16
-- ==== Kernel.lean ====
abbrev S10000x128 : Shape := ⟨2, ![10000, 128]⟩
abbrev S10000x5000 : Shape := ⟨2, ![10000, 5000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S128x5000 : Shape := ⟨2, ![128, 5000]⟩
abbrev S1x5000 : Shape := ⟨2, ![1, 5000]⟩
abbrev S400x128 : Shape := ⟨2, ![400, 128]⟩
abbrev S400x5000 : Shape := ⟨2, ![400, 5000]⟩
abbrev S400 : Shape := ⟨1, ![400]⟩
abbrev S400x1 : Shape := ⟨2, ![400, 1]⟩
abbrev S1x400 : Shape := ⟨2, ![1, 400]⟩
abbrev S5000 : Shape := ⟨1, ![5000]⟩
abbrev S_ : Shape := ⟨0, ![]⟩
abbrev S5000x1 : Shape := ⟨2, ![5000, 1]⟩
abbrev S5000x128 : Shape := ⟨2, ![5000, 128]⟩
abbrev S64x5000 : Shape := ⟨2, ![64, 5000]⟩
abbrev S400x64 : Shape := ⟨2, ![400, 64]⟩
abbrev S5000x64 : Shape := ⟨2, ![5000, 64]⟩
abbrev S10000x64 : Shape := ⟨2, ![10000, 64]⟩

abbrev nBuf : Space → Nat
  | .hbm => 29
  | .vmem => 25
  | .smem => 0
  | _ => 0

abbrev bufTy : (tb : Table) → Fin (tcTables nBuf tb) → BufTy
  | .hbm, ⟨0, _⟩ => ⟨S10000x128, .f32⟩
  | .hbm, ⟨1, _⟩ => ⟨S10000x5000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x128, .f32⟩
  | .hbm, ⟨7, _⟩ => ⟨S1x64, .f32⟩
  | .hbm, ⟨8, _⟩ => ⟨S128x5000, .f32⟩
  | .hbm, ⟨9, _⟩ => ⟨S1x5000, .f32⟩
  | .hbm, ⟨10, _⟩ => ⟨S10000x128, .f32⟩
  | .hbm, ⟨11, _⟩ => ⟨S5000, .f32⟩
  | .hbm, ⟨12, _⟩ => ⟨S_, .f32⟩
  | .hbm, ⟨13, _⟩ => ⟨S5000, .f32⟩
  | .hbm, ⟨14, _⟩ => ⟨S5000, .f32⟩
  | .hbm, ⟨15, _⟩ => ⟨S_, .f32⟩
  | .hbm, ⟨16, _⟩ => ⟨S5000, .f32⟩
  | .hbm, ⟨17, _⟩ => ⟨S5000, .f32⟩
  | .hbm, ⟨18, _⟩ => ⟨S5000x1, .f32⟩
  | .hbm, ⟨19, _⟩ => ⟨S5000x128, .f32⟩
  | .hbm, ⟨20, _⟩ => ⟨S5000x128, .f32⟩
  | .hbm, ⟨21, _⟩ => ⟨S5000x128, .f32⟩
  | .hbm, ⟨22, _⟩ => ⟨S5000x128, .bf16⟩
  | .hbm, ⟨23, _⟩ => ⟨S64x5000, .f32⟩
  | .hbm, ⟨24, _⟩ => ⟨S5000x64, .f32⟩
  | .hbm, ⟨25, _⟩ => ⟨S5000x64, .f32⟩
  | .hbm, ⟨26, _⟩ => ⟨S5000x64, .f32⟩
  | .hbm, ⟨27, _⟩ => ⟨S5000x64, .bf16⟩
  | .hbm, ⟨28, _⟩ => ⟨S10000x64, .f32⟩
  | .local _ .vmem, ⟨0, _⟩ => ⟨S400x128, .f32⟩
  | .local _ .vmem, ⟨1, _⟩ => ⟨S400x128, .f32⟩
  | .local _ .vmem, ⟨2, _⟩ => ⟨S128x128, .f32⟩
  | .local _ .vmem, ⟨3, _⟩ => ⟨S1x128, .f32⟩
  | .local _ .vmem, ⟨4, _⟩ => ⟨S400x5000, .f32⟩
  | .local _ .vmem, ⟨5, _⟩ => ⟨S400x5000, .f32⟩
  | .local _ .vmem, ⟨6, _⟩ => ⟨S128x5000, .f32⟩
  | .local _ .vmem, ⟨7, _⟩ => ⟨S1x5000, .f32⟩
  | .local _ .vmem, ⟨8, _⟩ => ⟨S400x128, .f32⟩
  | .local _ .vmem, ⟨9, _⟩ => ⟨S400x128, .f32⟩
  | .local _ .vmem, ⟨10, _⟩ => ⟨S400x5000, .f32⟩
  | .local _ .vmem, ⟨11, _⟩ => ⟨S400x5000, .f32⟩
  | .local _ .vmem, ⟨12, _⟩ => ⟨S400x128, .f32⟩
  | .local _ .vmem, ⟨13, _⟩ => ⟨S400x128, .f32⟩
  | .local _ .vmem, ⟨14, _⟩ => ⟨S5000x128, .bf16⟩
  | .local _ .vmem, ⟨15, _⟩ => ⟨S128x64, .f32⟩
  | .local _ .vmem, ⟨16, _⟩ => ⟨S1x64, .f32⟩
  | .local _ .vmem, ⟨17, _⟩ => ⟨S64x5000, .f32⟩
  | .local _ .vmem, ⟨18, _⟩ => ⟨S400x5000, .f32⟩
  | .local _ .vmem, ⟨19, _⟩ => ⟨S400x5000, .f32⟩
  | .local _ .vmem, ⟨20, _⟩ => ⟨S400x128, .f32⟩
  | .local _ .vmem, ⟨21, _⟩ => ⟨S400x128, .f32⟩
  | .local _ .vmem, ⟨22, _⟩ => ⟨S5000x64, .bf16⟩
  | .local _ .vmem, ⟨23, _⟩ => ⟨S400x64, .f32⟩
  | .local _ .vmem, ⟨24, _⟩ => ⟨S400x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem3_1 : DmaSem sig := 24

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c0_i32 : BitVec 32 := 0#32
  let v23 : BitVec 1 := Scalar.cmpi .eq arg0 c0_i32
  let v24 : BitVec 32 := Scalar.extui v23
  let c0_i32_14 : BitVec 32 := 0#32
  let v25 : BitVec 1 := Scalar.cmpi .ne v24 c0_i32_14
  v25

def k0_cond2 (i : grid0.Coords) : BitVec 1 :=
  let arg0 : BitVec 32 := BitVec.ofNat 32 (i 0).val
  let c0_i32_15 : BitVec 32 := 0#32
  let v26 : BitVec 1 := Scalar.cmpi .sgt arg0 c0_i32_15
  let v27 : BitVec 32 := Scalar.extui v26
  let c0_i32_16 : BitVec 32 := 0#32
  let v28 : BitVec 1 := Scalar.cmpi .ne v27 c0_i32_16
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x5000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x5000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def k1_cond1 (i : grid1.Coords) : BitVec 1 :=
  let arg0 : BitVec 32 := BitVec.ofNat 32 (i 0).val
  let c0_i32 : BitVec 32 := 0#32
  let v21 : BitVec 1 := Scalar.cmpi .eq arg0 c0_i32
  let v22 : BitVec 32 := Scalar.extui v21
  let c0_i32_12 : BitVec 32 := 0#32
  let v23 : BitVec 1 := Scalar.cmpi .ne v22 c0_i32_12
  v23

def k1_cond2 (i : grid1.Coords) : BitVec 1 :=
  let arg0 : BitVec 32 := BitVec.ofNat 32 (i 0).val
  let c0_i32_13 : BitVec 32 := 0#32
  let v24 : BitVec 1 := Scalar.cmpi .sgt arg0 c0_i32_13
  let v25 : BitVec 32 := Scalar.extui v24
  let c0_i32_14 : BitVec 32 := 0#32
  let v26 : BitVec 1 := Scalar.cmpi .ne v25 c0_i32_14
  v26

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S400x5000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S5000x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x5000 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x5000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S400x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S5000x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S128_S1x128 : S128.ShapeCasts S1x128
  shapeCasts_S64_S1x64 : S64.ShapeCasts S1x64
  inb_S400x5000_S400x5000_0_0 : ∀ a, (![0, 0] : Fin 2 → Nat) a + S400x5000.size a ≤ S400x5000.size a
  h_S400x5000 : 0 < S400x5000.numel
  bitsLt_bf16_f32 : FTy.bits .bf16 < FTy.bits .f32
  inb_S400x128_S400x128_0_0 : ∀ a, (![0, 0] : Fin 2 → Nat) a + S400x128.size a ≤ S400x128.size a
  h_S400x128 : 0 < S400x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  reduces_S400x5000_S400 : S400x5000.Reduces [1] S400
  shapeCasts_S400_S400x1 : S400.ShapeCasts S400x1
  shapeCasts_S400x1_S400x1 : S400x1.ShapeCasts S400x1
  broadcasts_S400x1_S400x128 : S400x1.Broadcasts S400x128
  inb_S128x5000_S128x5000_0_0 : ∀ a, (![0, 0] : Fin 2 → Nat) a + S128x5000.size a ≤ S128x5000.size a
  h_S128x5000 : 0 < S128x5000.numel
  inb_S1x5000_S1x5000_0_0 : ∀ a, (![0, 0] : Fin 2 → Nat) a + S1x5000.size a ≤ S1x5000.size a
  h_S1x5000 : 0 < S1x5000.numel
  shapeCasts_S128x5000_S128x5000 : S128x5000.ShapeCasts S128x5000
  shapeCasts_S1x5000_S1x5000 : S1x5000.ShapeCasts S1x5000
  shapeCasts_S1x5000_S5000 : S1x5000.ShapeCasts S5000
  bcast_S_S5000 : S_.BroadcastsInDim S5000 (![] : Fin 0 → Fin S5000.rank)
  bcast_S5000_S5000x1_0 : S5000.BroadcastsInDim S5000x1 (![0] : Fin 1 → Fin S5000x1.rank)
  transposes_S128x5000_S5000x128_1_0 : S128x5000.Transposes [1, 0] S5000x128
  bcast_S5000x1_S5000x128_0_1 : S5000x1.BroadcastsInDim S5000x128 (![0, 1] : Fin 2 → Fin S5000x128.rank)
  inb_S400x128_S400x1_0_0 : ∀ a, (![0, 0] : Fin 2 → Nat) a + S400x1.size a ≤ S400x128.size a
  h_S400x1 : 0 < S400x1.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  broadcasts_S400x1_S400x64 : S400x1.Broadcasts S400x64
  inb_S64x5000_S64x5000_0_0 : ∀ a, (![0, 0] : Fin 2 → Nat) a + S64x5000.size a ≤ S64x5000.size a
  h_S64x5000 : 0 < S64x5000.numel
  shapeCasts_S64x5000_S64x5000 : S64x5000.ShapeCasts S64x5000
  transposes_S64x5000_S5000x64_1_0 : S64x5000.Transposes [1, 0] S5000x64
  bcast_S5000x1_S5000x64_0_1 : S5000x1.BroadcastsInDim S5000x64 (![0, 1] : Fin 2 → Fin S5000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S400x64_S400x64_0_0 : ∀ a, (![0, 0] : Fin 2 → Nat) a + S400x64.size a ≤ S400x64.size a
  h_S400x64 : 0 < S400x64.numel
  dot_S400x128_S128x128_S400x128_1_0_0_1_n_n_wf : DotDims.WF S400x128 S128x128 S400x128 [1] [0] [0] [1] [] []
  dot_S400x128_S400x5000_S128x5000_0_0_1_1_n_n_wf : DotDims.WF S400x128 S400x5000 S128x5000 [0] [0] [1] [1] [] []
  dot_S1x400_S400x5000_S1x5000_1_0_0_1_n_n_wf : DotDims.WF S1x400 S400x5000 S1x5000 [1] [0] [0] [1] [] []
  dot_S400x5000_S5000x128_S400x128_1_0_0_1_n_n_wf : DotDims.WF S400x5000 S5000x128 S400x128 [1] [0] [0] [1] [] []
  dot_S400x128_S128x64_S400x64_1_0_0_1_n_n_wf : DotDims.WF S400x128 S128x64 S400x64 [1] [0] [0] [1] [] []
  dot_S400x64_S400x5000_S64x5000_0_0_1_1_n_n_wf : DotDims.WF S400x64 S400x5000 S64x5000 [0] [0] [1] [1] [] []
  dot_S400x5000_S5000x64_S400x64_1_0_0_1_n_n_wf : DotDims.WF S400x5000 S5000x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x128.size a ≤ S10000x128.size a
  hwx0_0 : ∀ i : grid0.Coords, EltTy.bits .f32 = 32 ∨ (Rect.block (s := S10000x128) S400x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x5000.size a ≤ S10000x5000.size a
  hwx0_3 : ∀ i : grid0.Coords, EltTy.bits .f32 = 32 ∨ (Rect.block (s := S10000x5000) S400x5000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x5000.size a ≤ S128x5000.size a
  hwx0_4 : ∀ i : grid0.Coords, EltTy.bits .f32 = 32 ∨ (Rect.block (s := S128x5000) S128x5000.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x5000.size a ≤ S1x5000.size a
  hwx0_5 : ∀ i : grid0.Coords, EltTy.bits .f32 = 32 ∨ (Rect.block (s := S1x5000) S1x5000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x5000.size a ≤ S10000x5000.size a
  hwx1_0 : ∀ i : grid1.Coords, EltTy.bits .f32 = 32 ∨ (Rect.block (s := S10000x5000) S400x5000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x128.size a ≤ S10000x128.size a
  hwx1_1 : ∀ i : grid1.Coords, EltTy.bits .f32 = 32 ∨ (Rect.block (s := S10000x128) S400x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S5000x128.size a
  hwx1_2 : ∀ i : grid1.Coords, EltTy.bits .bf16 = 32 ∨ (Rect.block (s := S5000x128) S5000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x5000.size a ≤ S64x5000.size a
  hwx1_5 : ∀ i : grid1.Coords, EltTy.bits .f32 = 32 ∨ (Rect.block (s := S64x5000) S64x5000.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x5000.size a ≤ S10000x5000.size a
  hwx2_0 : ∀ i : grid2.Coords, EltTy.bits .f32 = 32 ∨ (Rect.block (s := S10000x5000) S400x5000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S400x128.size a ≤ S10000x128.size a
  hwx2_1 : ∀ i : grid2.Coords, EltTy.bits .f32 = 32 ∨ (Rect.block (s := S10000x128) S400x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S5000x64.size a
  hwx2_2 : ∀ i : grid2.Coords, EltTy.bits .bf16 = 32 ∨ (Rect.block (s := S5000x64) S5000x64.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x64.size a ≤ S10000x64.size a
  hwx2_3 : ∀ i : grid2.Coords, EltTy.bits .f32 = 32 ∨ (Rect.block (s := S10000x64) S400x64.size (cc2_transform_3 i) (hinb2_3 i)).WholeWords (EltTy.packing .f32)

variable [Facts₀]

def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x128_S400x5000_S128x5000_0_0_1_1_n_n : DotDims S400x128 S400x5000 S128x5000 where
  lhsContracting := [0]
  rhsContracting := [0]
  lhsNonContracting := [1]
  rhsNonContracting := [1]
  lhsBatch := []
  rhsBatch := []
  wf := dot_S400x128_S400x5000_S128x5000_0_0_1_1_n_n_wf
def dot_S1x400_S400x5000_S1x5000_1_0_0_1_n_n : DotDims S1x400 S400x5000 S1x5000 where
  lhsContracting := [1]
  rhsContracting := [0]
  lhsNonContracting := [0]
  rhsNonContracting := [1]
  lhsBatch := []
  rhsBatch := []
  wf := dot_S1x400_S400x5000_S1x5000_1_0_0_1_n_n_wf
def dot_S400x5000_S5000x128_S400x128_1_0_0_1_n_n : DotDims S400x5000 S5000x128 S400x128 where
  lhsContracting := [1]
  rhsContracting := [0]
  lhsNonContracting := [0]
  rhsNonContracting := [1]
  lhsBatch := []
  rhsBatch := []
  wf := dot_S400x5000_S5000x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x64_S400x5000_S64x5000_0_0_1_1_n_n : DotDims S400x64 S400x5000 S64x5000 where
  lhsContracting := [0]
  rhsContracting := [0]
  lhsNonContracting := [1]
  rhsNonContracting := [1]
  lhsBatch := []
  rhsBatch := []
  wf := dot_S400x64_S400x5000_S64x5000_0_0_1_1_n_n_wf
def dot_S400x5000_S5000x64_S400x64_1_0_0_1_n_n : DotDims S400x5000 S5000x64 S400x64 where
  lhsContracting := [1]
  rhsContracting := [0]
  lhsNonContracting := [0]
  rhsNonContracting := [1]
  lhsBatch := []
  rhsBatch := []
  wf := dot_S400x5000_S5000x64_S400x64_1_0_0_1_n_n_wf

abbrev win0_0 : Pipeline.Window sig grid0 :=
  Pipeline.Window.ofSpec (Memref.whole main_arg0) S400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S400x5000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S128x5000.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x5000.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond1 i == 1#1) && !(k0_cond2 i == 1#1) | 5 => fun i => !(k0_cond1 i == 1#1) && !(k0_cond2 i == 1#1) | 6 => fun _ => false | ⟨_ + 7, h⟩ => absurd h (Nat.not_lt.2 (Nat.le_add_left _ _))

abbrev win1_0 : Pipeline.Window sig grid1 :=
  Pipeline.Window.ofSpec (Memref.whole main_arg1) S400x5000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_2) S400x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S64x5000.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond1 i == 1#1) && !(k1_cond2 i == 1#1) | ⟨_ + 6, h⟩ => absurd h (Nat.not_lt.2 (Nat.le_add_left _ _))

abbrev win2_0 : Pipeline.Window sig grid2 :=
  Pipeline.Window.ofSpec (Memref.whole main_arg1) S400x5000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_2) S400x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S5000x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S400x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x5000 : Shape := ⟨2, ![10000, 5000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000 : Shape := ⟨1, ![10000]⟩
abbrev S5000 : Shape := ⟨1, ![5000]⟩
abbrev S10000x1 : Shape := ⟨2, ![10000, 1]⟩
abbrev S5000x10000 : Shape := ⟨2, ![5000, 10000]⟩
abbrev S5000x128 : Shape := ⟨2, ![5000, 128]⟩
abbrev S5000x1 : Shape := ⟨2, ![5000, 1]⟩
abbrev S10000x64 : Shape := ⟨2, ![10000, 64]⟩
abbrev S1x64 : Shape := ⟨2, ![1, 64]⟩
abbrev S5000x64 : Shape := ⟨2, ![5000, 64]⟩

abbrev nBuf : Space → Nat
  | .hbm => 75
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x5000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S10000x128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S_, .f32⟩
  | .hbm, ⟨11, _⟩ => ⟨S10000, .f32⟩
  | .hbm, ⟨12, _⟩ => ⟨S_, .f32⟩
  | .hbm, ⟨13, _⟩ => ⟨S5000, .f32⟩
  | .hbm, ⟨14, _⟩ => ⟨S_, .f32⟩
  | .hbm, ⟨15, _⟩ => ⟨S10000, .f32⟩
  | .hbm, ⟨16, _⟩ => ⟨S10000, .f32⟩
  | .hbm, ⟨17, _⟩ => ⟨S10000, .f32⟩
  | .hbm, ⟨18, _⟩ => ⟨S_, .f32⟩
  | .hbm, ⟨19, _⟩ => ⟨S10000, .f32⟩
  | .hbm, ⟨20, _⟩ => ⟨S10000, .f32⟩
  | .hbm, ⟨21, _⟩ => ⟨S_, .f32⟩
  | .hbm, ⟨22, _⟩ => ⟨S5000, .f32⟩
  | .hbm, ⟨23, _⟩ => ⟨S5000, .f32⟩
  | .hbm, ⟨24, _⟩ => ⟨S_, .f32⟩
  | .hbm, ⟨25, _⟩ => ⟨S5000, .f32⟩
  | .hbm, ⟨26, _⟩ => ⟨S5000, .f32⟩
  | .hbm, ⟨27, _⟩ => ⟨S10000x1, .f32⟩
  | .hbm, ⟨28, _⟩ => ⟨S10000x128, .f32⟩
  | .hbm, ⟨29, _⟩ => ⟨S10000x128, .f32⟩
  | .hbm, ⟨30, _⟩ => ⟨S5000x10000, .f32⟩
  | .hbm, ⟨31, _⟩ => ⟨S5000x128, .f32⟩
  | .hbm, ⟨32, _⟩ => ⟨S5000x1, .f32⟩
  | .hbm, ⟨33, _⟩ => ⟨S5000x128, .f32⟩
  | .hbm, ⟨34, _⟩ => ⟨S5000x128, .f32⟩
  | .hbm, ⟨35, _⟩ => ⟨S10000x128, .f32⟩
  | .hbm, ⟨36, _⟩ => ⟨S10000x1, .f32⟩
  | .hbm, ⟨37, _⟩ => ⟨S10000x128, .f32⟩
  | .hbm, ⟨38, _⟩ => ⟨S10000x128, .f32⟩
  | .hbm, ⟨39, _⟩ => ⟨S_, .f32⟩
  | .hbm, ⟨40, _⟩ => ⟨S10000x128, .f32⟩
  | .hbm, ⟨41, _⟩ => ⟨S10000x128, .f32⟩
  | .hbm, ⟨42, _⟩ => ⟨S10000x64, .f32⟩
  | .hbm, ⟨43, _⟩ => ⟨S1x64, .f32⟩
  | .hbm, ⟨44, _⟩ => ⟨S10000x64, .f32⟩
  | .hbm, ⟨45, _⟩ => ⟨S10000x64, .f32⟩
  | .hbm, ⟨46, _⟩ => ⟨S_, .f32⟩
  | .hbm, ⟨47, _⟩ => ⟨S10000, .f32⟩
  | .hbm, ⟨48, _⟩ => ⟨S_, .f32⟩
  | .hbm, ⟨49, _⟩ => ⟨S5000, .f32⟩
  | .hbm, ⟨50, _⟩ => ⟨S_, .f32⟩
  | .hbm, ⟨51, _⟩ => ⟨S10000, .f32⟩
  | .hbm, ⟨52, _⟩ => ⟨S10000, .f32⟩
  | .hbm, ⟨53, _⟩ => ⟨S10000, .f32⟩
  | .hbm, ⟨54, _⟩ => ⟨S_, .f32⟩
  | .hbm, ⟨55, _⟩ => ⟨S10000, .f32⟩
  | .hbm, ⟨56, _⟩ => ⟨S10000, .f32⟩
  | .hbm, ⟨57, _⟩ => ⟨S_, .f32⟩
  | .hbm, ⟨58, _⟩ => ⟨S5000, .f32⟩
  | .hbm, ⟨59, _⟩ => ⟨S5000, .f32⟩
  | .hbm, ⟨60, _⟩ => ⟨S_, .f32⟩
  | .hbm, ⟨61, _⟩ => ⟨S5000, .f32⟩
  | .hbm, ⟨62, _⟩ => ⟨S5000, .f32⟩
  | .hbm, ⟨63, _⟩ => ⟨S10000x1, .f32⟩
  | .hbm, ⟨64, _⟩ => ⟨S10000x64, .f32⟩
  | .hbm, ⟨65, _⟩ => ⟨S10000x64, .f32⟩
  | .hbm, ⟨66, _⟩ => ⟨S5000x10000, .f32⟩
  | .hbm, ⟨67, _⟩ => ⟨S5000x64, .f32⟩
  | .hbm, ⟨68, _⟩ => ⟨S5000x1, .f32⟩
  | .hbm, ⟨69, _⟩ => ⟨S5000x64, .f32⟩
  | .hbm, ⟨70, _⟩ => ⟨S5000x64, .f32⟩
  | .hbm, ⟨71, _⟩ => ⟨S10000x64, .f32⟩
  | .hbm, ⟨72, _⟩ => ⟨S10000x1, .f32⟩
  | .hbm, ⟨73, _⟩ => ⟨S10000x64, .f32⟩
  | .hbm, ⟨74, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_cst : Ref sig .tc := ⟨.hbm, 39, rfl⟩
abbrev main_call0_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_cst_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x5000_S10000_d1 : S10000x5000.ReducesTo [1] S10000
  h_S_ : 0 < S_.numel
  reducesTo_S10000x5000_S5000_d0 : S10000x5000.ReducesTo [0] S5000
  bcast_S_S10000 : S_.BroadcastsInDim S10000 (![] : Fin 0 → Fin S10000.rank)
  bcast_S_S5000 : S_.BroadcastsInDim S5000 (![] : Fin 0 → Fin S5000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  transposes_S10000x5000_S5000x10000_1_0 : S10000x5000.Transposes [1, 0] S5000x10000
  bcast_S5000_S5000x1_0 : S5000.BroadcastsInDim S5000x1 (![0] : Fin 1 → Fin S5000x1.rank)
  bcast_S5000x1_S5000x128_0_1 : S5000x1.BroadcastsInDim S5000x128 (![0, 1] : Fin 2 → Fin S5000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S10000x1_S10000x64_0_1 : S10000x1.BroadcastsInDim S10000x64 (![0, 1] : Fin 2 → Fin S10000x64.rank)
  bcast_S5000x1_S5000x64_0_1 : S5000x1.BroadcastsInDim S5000x64 (![0, 1] : Fin 2 → Fin S5000x64.rank)
  dot_S10000x128_S128x128_S10000x128_1_0_0_1_n_n_wf : DotDims.WF S10000x128 S128x128 S10000x128 [1] [0] [0] [1] [] []
  dot_S5000x10000_S10000x128_S5000x128_1_0_0_1_n_n_wf : DotDims.WF S5000x10000 S10000x128 S5000x128 [1] [0] [0] [1] [] []
  dot_S10000x5000_S5000x128_S10000x128_1_0_0_1_n_n_wf : DotDims.WF S10000x5000 S5000x128 S10000x128 [1] [0] [0] [1] [] []
  dot_S10000x128_S128x64_S10000x64_1_0_0_1_n_n_wf : DotDims.WF S10000x128 S128x64 S10000x64 [1] [0] [0] [1] [] []
  dot_S5000x10000_S10000x64_S5000x64_1_0_0_1_n_n_wf : DotDims.WF S5000x10000 S10000x64 S5000x64 [1] [0] [0] [1] [] []
  dot_S10000x5000_S5000x64_S10000x64_1_0_0_1_n_n_wf : DotDims.WF S10000x5000 S5000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S5000x10000_S10000x128_S5000x128_1_0_0_1_n_n : DotDims S5000x10000 S10000x128 S5000x128 where
  lhsContracting := [1]
  rhsContracting := [0]
  lhsNonContracting := [0]
  rhsNonContracting := [1]
  lhsBatch := []
  rhsBatch := []
  wf := dot_S5000x10000_S10000x128_S5000x128_1_0_0_1_n_n_wf
def dot_S10000x5000_S5000x128_S10000x128_1_0_0_1_n_n : DotDims S10000x5000 S5000x128 S10000x128 where
  lhsContracting := [1]
  rhsContracting := [0]
  lhsNonContracting := [0]
  rhsNonContracting := [1]
  lhsBatch := []
  rhsBatch := []
  wf := dot_S10000x5000_S5000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S5000x10000_S10000x64_S5000x64_1_0_0_1_n_n : DotDims S5000x10000 S10000x64 S5000x64 where
  lhsContracting := [1]
  rhsContracting := [0]
  lhsNonContracting := [0]
  rhsNonContracting := [1]
  lhsBatch := []
  rhsBatch := []
  wf := dot_S5000x10000_S10000x64_S5000x64_1_0_0_1_n_n_wf
def dot_S10000x5000_S5000x64_S10000x64_1_0_0_1_n_n : DotDims S10000x5000 S5000x64 S10000x64 where
  lhsContracting := [1]
  rhsContracting := [0]
  lhsNonContracting := [0]
  rhsNonContracting := [1]
  lhsBatch := []
  rhsBatch := []
  wf := dot_S10000x5000_S5000x64_S10000x64_1_0_0_1_n_n_wf

class Facts : Prop extends Facts₀ where

variable [Facts]
-- ==== Proof.Dats.lean ====
/-
  The proof data of the three kernel regions, each at the contents `V` its region is entered from.

  Pass A (grid of 25 row blocks of 400 rows): at block `t` the body reads the X block, W1, the bias row and the H block;
  it leaves in the row-scale window the broadcast of rsqrt(row sums of the H block + eps), and in the two accumulator
  windows (the transposed product and the column sums) the block's contribution at the first block and the running value
  plus the contribution at every later one. Pass B accumulates its transposed product the same way; pass C writes one
  output block per row block. The accumulators are therefore defined by recursion on the block number.
-/
import proofs.«142963_g18348100288549_rerun558fix_267_53_alg».proof.Proof.Gen.KernelIdeal.Launch
import proofs.«142963_g18348100288549_rerun558fix_267_53_alg».proof.Proof.Gen.KernelIdeal.Skeleton
import proofs.«142963_g18348100288549_rerun558fix_267_53_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## Pass A -/

/-- Window `w`'s block at row block `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The transposed-product accumulator after row block `n`: the block's product at the first block, the running value
    plus the block's product afterwards. -/
def acc0_4 (c : Dev nD) : (n : ℕ) → n < cfg0.N → Vec F S128x5000 .f32
  | 0, hn => k0_pay4 (iblk0 V c 3 ⟨0, hn⟩) (iblk0 V c 0 ⟨0, hn⟩) (iblk0 V c 1 ⟨0, hn⟩) (iblk0 V c 2 ⟨0, hn⟩)
  | n + 1, hn => k0_pay6 (iblk0 V c 3 ⟨n + 1, hn⟩) (iblk0 V c 0 ⟨n + 1, hn⟩) (iblk0 V c 1 ⟨n + 1, hn⟩) (iblk0 V c 2 ⟨n + 1, hn⟩)
      (acc0_4 c n (Nat.lt_of_succ_lt hn))

/-- The column-sum accumulator after row block `n`. -/
def acc0_5 (c : Dev nD) : (n : ℕ) → n < cfg0.N → Vec F S1x5000 .f32
  | 0, hn => k0_pay5 (iblk0 V c 3 ⟨0, hn⟩)
  | n + 1, hn => k0_pay7 (iblk0 V c 3 ⟨n + 1, hn⟩) (acc0_5 c n (Nat.lt_of_succ_lt hn))

/-- Pass A's proof data: inputs stay at their blocks; the accumulators at their running values; the row-scale window at
    the block's broadcast scale. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => acc0_4 V c t.val t.isLt
    | ⟨5, _⟩ => acc0_5 V c t.val t.isLt
    | ⟨6, _⟩ => k0_pay3 (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = acc0_4 V c t.val t.isLt := by dsimp only [dat0]
theorem after0_5 (c : Dev nD) (t : Fin cfg0.N) : (dat0 V c).after 5 t = acc0_5 V c t.val t.isLt := by dsimp only [dat0]
theorem after0_6 (c : Dev nD) (t : Fin cfg0.N) : (dat0 V c).after 6 t = k0_pay3 (iblk0 V c 3 t) := by dsimp only [dat0]

/-! ## Pass B -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first column of a 400×128 block: where the row scale is read back from. -/
abbrev rcol : Rect S400x128 := Rect.unit (s := S400x128) ![0, 0] S400x1.size inb_S400x128_S400x1_0_0

/-- Pass B's transposed-product accumulator after row block `n`. -/
def acc1_5 (c : Dev nD) : (n : ℕ) → n < cfg1.N → Vec F S64x5000 .f32
  | 0, hn => k1_pay1 (iblk1 V c 0 ⟨0, hn⟩) (View.ld (iblk1 V c 1 ⟨0, hn⟩) rcol) (iblk1 V c 2 ⟨0, hn⟩) (iblk1 V c 3 ⟨0, hn⟩) (iblk1 V c 4 ⟨0, hn⟩)
  | n + 1, hn => k1_pay2 (iblk1 V c 0 ⟨n + 1, hn⟩) (View.ld (iblk1 V c 1 ⟨n + 1, hn⟩) rcol) (iblk1 V c 2 ⟨n + 1, hn⟩) (iblk1 V c 3 ⟨n + 1, hn⟩) (iblk1 V c 4 ⟨n + 1, hn⟩)
      (acc1_5 c n (Nat.lt_of_succ_lt hn))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => acc1_5 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = acc1_5 V c t.val t.isLt := by dsimp only [dat1]

/-! ## Pass C -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay1 (iblk2 V c 0 t) (View.ld (iblk2 V c 1 t) rcol) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay1 (iblk2 V c 0 t) (View.ld (iblk2 V c 1 t) rcol) (iblk2 V c 2 t) := by dsimp only [dat2]

end

end Cert.KernelIdeal.Hand

end
-- ==== Proof.Body0.lean ====
/-
  Pass A's body as Hoare triples, one per control case: on whole staging memrefs holding the X block, W1, the bias row
  and the H block, the body leaves the row-scale buffer at the broadcast of rsqrt(row sums + eps) and
  * at the first row block (case A) the two accumulators at the block's transposed product and column sums,
  * at a later row block (case B) each accumulator at what it held plus the block's contribution.
-/
import proofs.«142963_g18348100288549_rerun558fix_267_53_alg».proof.Proof.Dats
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer rectangle of rank two, as a function. -/
theorem zeroOff2 : (![0, 0] : Fin 2 → Nat) = fun _ => 0 := by
  funext a; match a with | ⟨0, _⟩ => rfl | ⟨1, _⟩ => rfl

section WholeBuffer
variable {sig' : RefSig} {κ : Kind} {sp : Space} (S : Shape) {e : EltTy} {Val : EltTy → Type} [∀ e, Nonempty (Val e)]

/-- One store through the whole-shape rectangle at zero offsets leaves its payload. -/
theorem read_store_whole (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩),
    View.canon_unit_zero h]

/-- A load through the whole-shape rectangle at zero offsets reads the contents. -/
theorem readAt_whole (v : View sig' κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld]; exact View.ld_unit_zero h inb _

end WholeBuffer

set_option maxHeartbeats 4000000 in
/-- Case A of pass A's body (the first row block). -/
theorem run0_A (c : Dev nD) (i : grid0.Coords)
    (arg1 : Memref sig .tc .vmem S400x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S400x5000 .f32) (harg4 : arg4.IsWhole)
    (arg5 : Memref sig .tc .vmem S128x5000 .f32) (harg5 : arg5.IsWhole) (arg6 : Memref sig .tc .vmem S1x5000 .f32) (harg6 : arg6.IsWhole)
    (arg7 : Memref sig .tc .vmem S400x128 .f32) (harg7 : arg7.IsWhole)
    (h1 : k0_cond1 i = 1#1) (h2 : ¬ k0_cond2 i = 1#1)
    (x0 : Vec F S400x128 .f32) (x1 : Vec F S128x128 .f32) (x2 : Vec F S1x128 .f32) (x3 : Vec F S400x5000 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (k0_pay4 x3 x0 x1 x2) ∗ owns (c : Thread nD τ) arg6 fullShare (k0_pay5 x3)
            ∗ owns (c : Thread nD τ) arg7 fullShare (k0_pay3 x3)) -∗ K ⟨⟩))
      ⊢ wp frame (wpE (defs₀ (F := F)) Variants.none c none) E
          (cc0__pass_a i arg1 harg1 arg2 harg2 arg3 harg3 arg4 harg4 arg5 harg5 arg6 harg6 arg7 harg7) K := by
  simp only [cc0__pass_a_eq_skeleton]; unfold cc0__pass_a_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    simp only [read_store_whole S400x5000 _ _ zeroOff2, readAt_whole S400x5000 _ _ zeroOff2, read_store_whole S400x128 _ _ zeroOff2, readAt_whole S400x128 _ _ zeroOff2, read_store_whole S128x128 _ _ zeroOff2, readAt_whole S128x128 _ _ zeroOff2, read_store_whole S1x128 _ _ zeroOff2, readAt_whole S1x128 _ _ zeroOff2, read_store_whole S128x5000 _ _ zeroOff2, readAt_whole S128x5000 _ _ zeroOff2, read_store_whole S1x5000 _ _ zeroOff2, readAt_whole S1x5000 _ _ zeroOff2]
  isplitl [H5]
  · iexists _; isplitr
    swap; · iexact H5
    ipureintro
    simp only [read_store_whole S400x5000 _ _ zeroOff2, readAt_whole S400x5000 _ _ zeroOff2, read_store_whole S400x128 _ _ zeroOff2, readAt_whole S400x128 _ _ zeroOff2, read_store_whole S128x128 _ _ zeroOff2, readAt_whole S128x128 _ _ zeroOff2, read_store_whole S1x128 _ _ zeroOff2, readAt_whole S1x128 _ _ zeroOff2, read_store_whole S128x5000 _ _ zeroOff2, readAt_whole S128x5000 _ _ zeroOff2, read_store_whole S1x5000 _ _ zeroOff2, readAt_whole S1x5000 _ _ zeroOff2]
  iexists _; isplitr
  swap; · iexact H6
  ipureintro
  simp only [read_store_whole S400x5000 _ _ zeroOff2, readAt_whole S400x5000 _ _ zeroOff2, read_store_whole S400x128 _ _ zeroOff2, readAt_whole S400x128 _ _ zeroOff2, read_store_whole S128x128 _ _ zeroOff2, readAt_whole S128x128 _ _ zeroOff2, read_store_whole S1x128 _ _ zeroOff2, readAt_whole S1x128 _ _ zeroOff2, read_store_whole S128x5000 _ _ zeroOff2, readAt_whole S128x5000 _ _ zeroOff2, read_store_whole S1x5000 _ _ zeroOff2, readAt_whole S1x5000 _ _ zeroOff2]

set_option maxHeartbeats 4000000 in
/-- Case B of pass A's body (a later row block: the accumulators hold `xo4`, `xo5`). -/
theorem run0_B (c : Dev nD) (i : grid0.Coords)
    (arg1 : Memref sig .tc .vmem S400x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S400x5000 .f32) (harg4 : arg4.IsWhole)
    (arg5 : Memref sig .tc .vmem S128x5000 .f32) (harg5 : arg5.IsWhole) (arg6 : Memref sig .tc .vmem S1x5000 .f32) (harg6 : arg6.IsWhole)
    (arg7 : Memref sig .tc .vmem S400x128 .f32) (harg7 : arg7.IsWhole)
    (h1 : ¬ k0_cond1 i = 1#1) (h2 : k0_cond2 i = 1#1)
    (x0 : Vec F S400x128 .f32) (x1 : Vec F S128x128 .f32) (x2 : Vec F S1x128 .f32) (x3 : Vec F S400x5000 .f32) (xo4 : Vec F S128x5000 .f32) (xo5 : Vec F S1x5000 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ owns (c : Thread nD τ) arg5 fullShare xo4 ∗ owns (c : Thread nD τ) arg6 fullShare xo5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (k0_pay6 x3 x0 x1 x2 xo4) ∗ owns (c : Thread nD τ) arg6 fullShare (k0_pay7 x3 xo5)
            ∗ owns (c : Thread nD τ) arg7 fullShare (k0_pay3 x3)) -∗ K ⟨⟩))
      ⊢ wp frame (wpE (defs₀ (F := F)) Variants.none c none) E
          (cc0__pass_a i arg1 harg1 arg2 harg2 arg3 harg3 arg4 harg4 arg5 harg5 arg6 harg6 arg7 harg7) K := by
  simp only [cc0__pass_a_eq_skeleton]; unfold cc0__pass_a_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    simp only [read_store_whole S400x5000 _ _ zeroOff2, readAt_whole S400x5000 _ _ zeroOff2, read_store_whole S400x128 _ _ zeroOff2, readAt_whole S400x128 _ _ zeroOff2, read_store_whole S128x128 _ _ zeroOff2, readAt_whole S128x128 _ _ zeroOff2, read_store_whole S1x128 _ _ zeroOff2, readAt_whole S1x128 _ _ zeroOff2, read_store_whole S128x5000 _ _ zeroOff2, readAt_whole S128x5000 _ _ zeroOff2, read_store_whole S1x5000 _ _ zeroOff2, readAt_whole S1x5000 _ _ zeroOff2]
  isplitl [H5]
  · iexists _; isplitr
    swap; · iexact H5
    ipureintro
    simp only [read_store_whole S400x5000 _ _ zeroOff2, readAt_whole S400x5000 _ _ zeroOff2, read_store_whole S400x128 _ _ zeroOff2, readAt_whole S400x128 _ _ zeroOff2, read_store_whole S128x128 _ _ zeroOff2, readAt_whole S128x128 _ _ zeroOff2, read_store_whole S1x128 _ _ zeroOff2, readAt_whole S1x128 _ _ zeroOff2, read_store_whole S128x5000 _ _ zeroOff2, readAt_whole S128x5000 _ _ zeroOff2, read_store_whole S1x5000 _ _ zeroOff2, readAt_whole S1x5000 _ _ zeroOff2]
  iexists _; isplitr
  swap; · iexact H6
  ipureintro
  simp only [read_store_whole S400x5000 _ _ zeroOff2, readAt_whole S400x5000 _ _ zeroOff2, read_store_whole S400x128 _ _ zeroOff2, readAt_whole S400x128 _ _ zeroOff2, read_store_whole S128x128 _ _ zeroOff2, readAt_whole S128x128 _ _ zeroOff2, read_store_whole S1x128 _ _ zeroOff2, readAt_whole S1x128 _ _ zeroOff2, read_store_whole S128x5000 _ _ zeroOff2, readAt_whole S128x5000 _ _ zeroOff2, read_store_whole S1x5000 _ _ zeroOff2, readAt_whole S1x5000 _ _ zeroOff2]

end Cert.KernelIdeal.Hand

end
-- ==== Proof.Region0.lean ====
/-
  Pass A's body obligation: at every row block the body, handed its seven staging buffers as the pipeline leaves them,
  returns them at the proof data's contents. The four inputs hold their blocks whether fetched at the block or kept
  from an earlier one; the two accumulators hold, after the first block, what the block before left (they are written
  back only after the last block); the first block is the case that overwrites them, every later block the case that adds.
-/
import proofs.«142963_g18348100288549_rerun558fix_267_53_alg».proof.Proof.Body0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The inputs' buffers hold their blocks -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## The two conditions over the grid, and the accumulators' windows never idle -/

theorem hc1 : ∀ t : Fin cfg0.N, k0_cond1 (grid0.coords t) = 1#1 ↔ t.val % 25 = 0 :=
  (by decide +kernel : ∀ t : Fin grid0.N, k0_cond1 (grid0.coords t) = 1#1 ↔ t.val % 25 = 0)
theorem hc2 : ∀ t : Fin cfg0.N, k0_cond2 (grid0.coords t) = 1#1 ↔ ¬ t.val % 25 = 0 :=
  (by decide +kernel : ∀ t : Fin grid0.N, k0_cond2 (grid0.coords t) = 1#1 ↔ ¬ t.val % 25 = 0)

/-- At every grid coordinate one of the two stores into the accumulators fires (the coordinate is zero or positive). -/
theorem fires0 : ∀ n : Fin 25,
    (!((Scalar.cmpi .ne (Scalar.extui (Scalar.cmpi .eq (BitVec.ofNat 32 n.val) 0#32) : BitVec 32) 0#32) == 1#1)
      && !((Scalar.cmpi .ne (Scalar.extui (Scalar.cmpi .sgt (BitVec.ofNat 32 n.val) 0#32) : BitVec 32) 0#32) == 1#1)) = false := by
  decide +kernel
theorem idle0_4 (i : grid0.Coords) : cfg0.idle (4 : Fin 7) i = false :=
  fires0 ⟨(i 0).val, (i 0).isLt⟩
theorem idle0_5 (i : grid0.Coords) : cfg0.idle (5 : Fin 7) i = false :=
  fires0 ⟨(i 0).val, (i 0).isLt⟩

/-! ## The accumulators, block by block -/

theorem acc0_4_A (c : Dev nD) (t : Fin cfg0.N) (h0 : t.val % 25 = 0) :
    acc0_4 V c t.val t.isLt = k0_pay4 (iblk0 V c 3 t) (iblk0 V c 0 t) (iblk0 V c 1 t) (iblk0 V c 2 t) := by
  obtain ⟨n, hn⟩ := t
  cases n with
  | zero => rfl
  | succ n => exact absurd h0 (by have : n + 1 < 25 := lt_of_lt_of_eq hn N_0; dsimp only; omega)
theorem acc0_4_B (c : Dev nD) (t : Fin cfg0.N) (h0 : ¬ t.val % 25 = 0) :
    acc0_4 V c t.val t.isLt = k0_pay6 (iblk0 V c 3 t) (iblk0 V c 0 t) (iblk0 V c 1 t) (iblk0 V c 2 t)
      (acc0_4 V c (t.val - 1) (Nat.lt_of_le_of_lt (Nat.sub_le _ _) t.isLt)) := by
  obtain ⟨n, hn⟩ := t
  cases n with
  | zero => exact absurd (Nat.zero_mod _) h0
  | succ n => rfl
theorem acc0_5_A (c : Dev nD) (t : Fin cfg0.N) (h0 : t.val % 25 = 0) :
    acc0_5 V c t.val t.isLt = k0_pay5 (iblk0 V c 3 t) := by
  obtain ⟨n, hn⟩ := t
  cases n with
  | zero => rfl
  | succ n => exact absurd h0 (by have : n + 1 < 25 := lt_of_lt_of_eq hn N_0; dsimp only; omega)
theorem acc0_5_B (c : Dev nD) (t : Fin cfg0.N) (h0 : ¬ t.val % 25 = 0) :
    acc0_5 V c t.val t.isLt = k0_pay7 (iblk0 V c 3 t) (acc0_5 V c (t.val - 1) (Nat.lt_of_le_of_lt (Nat.sub_le _ _) t.isLt)) := by
  obtain ⟨n, hn⟩ := t
  cases n with
  | zero => exact absurd (Nat.zero_mod _) h0
  | succ n => rfl

/-- After the first block an accumulator's buffer holds what the block before left: it is not written back in between. -/
theorem before0_4_B (c : Dev nD) (t : Fin cfg0.N) (h0 : ¬ t.val % 25 = 0) (d) :
    (dat0 V c).before 4 t d = acc0_4 V c (t.val - 1) (Nat.lt_of_le_of_lt (Nat.sub_le _ _) t.isLt) := by
  have hN : t.val < 25 := lt_of_lt_of_eq t.isLt (show cfg0.N = 25 from N_0)
  rw [Dat.before_out_kept _ 4 rfl t (by omega) (Bool.eq_false_iff.mpr fun h => by have := (flush0_4 _).mp h; dsimp only at this; omega)
    idle0_4 (fun _ _ => rfl)]
  dsimp only [dat0]
theorem before0_5_B (c : Dev nD) (t : Fin cfg0.N) (h0 : ¬ t.val % 25 = 0) (d) :
    (dat0 V c).before 5 t d = acc0_5 V c (t.val - 1) (Nat.lt_of_le_of_lt (Nat.sub_le _ _) t.isLt) := by
  have hN : t.val < 25 := lt_of_lt_of_eq t.isLt (show cfg0.N = 25 from N_0)
  rw [Dat.before_out_kept _ 5 rfl t (by omega) (Bool.eq_false_iff.mpr fun h => by have := (flush0_5 _).mp h; dsimp only at this; omega)
    idle0_5 (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  by_cases h0 : t.val % 25 = 0
  · rw [acc0_4_A V c t h0, acc0_5_A V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run0_A c (grid0.coords t) _ _ _ _ _ _ _ _ _ _ _ _ _ _ ((hc1 t).mpr h0) (fun h => ((hc2 t).mp h) h0)
      (iblk0 V c 0 t) (iblk0 V c 1 t) (iblk0 V c 2 t) (iblk0 V c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [acc0_4_B V c t h0, acc0_5_B V c t h0]
    simp only [before0_4_B V c t h0, before0_5_B V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run0_B c (grid0.coords t) _ _ _ _ _ _ _ _ _ _ _ _ _ _ (fun h => h0 ((hc1 t).mp h)) ((hc2 t).mpr h0)
      (iblk0 V c 0 t) (iblk0 V c 1 t) (iblk0 V c 2 t) (iblk0 V c 3 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

set_option maxHeartbeats 4000000 in
theorem body_obligation0 (c : Dev nD) : BodyObligation (dat0 (F := F) V c) (defs₀ (F := F)) Variants.none () Set.univ := fun t => by
  rw [bigSep_W0, bigSep_W0]
  have e4 : cfg0.idle (4 : Fin 7) (cfg0.grid.coords t) = false := idle0_4 _
  have e5 : cfg0.idle (5 : Fin 7) (cfg0.grid.coords t) = false := idle0_5 _
  rw [e4]
  try rw [e5]
  exact sound_body0 V c t

end

end Cert.KernelIdeal.Hand

end
-- ==== Proof.Region2.lean ====
/-
  Pass C at a generic row block. The body reads the H block (whole), the first column of the row-scale block and
  the bf16 matrix (whole), and stores  scale ⊙ (bf16(H block) · matrix)  over its whole output block. The three
  inputs stay in place, so each input's staging buffer holds its block at every row block, fetched there or not.
-/
import proofs.«142963_g18348100288549_rerun558fix_267_53_alg».proof.Proof.Dats
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 rectangle, spelt as a constant function. -/
theorem hz2 : (![0, 0] : Fin 2 → Nat) = fun _ => 0 := funext fun a => by fin_cases a <;> rfl

section
variable (V : (c : Dev nD) → (b : Ref sig .tc) → Buf (Elt F) ((c : Thread nD τ).loc b))

/-! ## The inputs' buffers hold their blocks -/

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

end

/-! ## The body's triple -/

set_option maxHeartbeats 1000000 in
/-- The body on whole staging memrefs, the inputs' at read contents and the output's at anything, runs to the
    continuation holding the inputs' as they were and the output's at the scaled product of the inputs. -/
theorem sound_kernel2 (c : Dev nD) (E : Set ℕ) (i : grid2.Coords)
    (arg1 : Memref sig .tc .vmem S400x5000 .f32) (harg1 : arg1.IsWhole)
    (arg2 : Memref sig .tc .vmem S400x128 .f32) (harg2 : arg2.IsWhole)
    (arg3 : Memref sig .tc .vmem S5000x64 .bf16) (harg3 : arg3.IsWhole)
    (arg4 : Memref sig .tc .vmem S400x64 .f32) (harg4 : arg4.IsWhole)
    (x0 : Vec F S400x5000 .f32) (x1 : Vec F S400x128 .f32) (x2 : Vec F S5000x64 .bf16) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (k2_pay1 x0 (View.ld x1 rcol) x2)) -∗ K ⟨⟩))
      ⊢ wp frame (wpE (defs₀ (F := F)) Variants.none c none) E (cc2__pass_c i arg1 harg1 arg2 harg2 arg3 harg3 arg4 harg4) K := by
  simp only [cc2__pass_c_eq_skeleton]; unfold cc2__pass_c_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- one store over the whole block: the buffer reads back the payload; the whole-buffer loads read the contents
  refine (View.read_writes_eq_canon _ _ _ (fun y => ⟨_, List.mem_singleton_self _, View.mem_set_unit_zero hz2 inb_S400x64_S400x64_0_0 y⟩)).trans ?_
  refine (View.canon_unit_zero hz2 inb_S400x64_S400x64_0_0 _).trans ?_
  have e0 : View.readAt (Elt F) arg1.view (Rect.unit ![0, 0] S400x5000.size inb_S400x5000_S400x5000_0_0).toLoadRect f0
      = View.read (Elt F) arg1.view f0 :=
    View.ld_unit_zero (Val := Elt F) (S := S400x5000) hz2 inb_S400x5000_S400x5000_0_0 (View.read (Elt F) arg1.view f0)
  have e1 : View.readAt (Elt F) arg2.view (Rect.unit (s := S400x128) ![0, 0] S400x1.size inb_S400x128_S400x1_0_0).toLoadRect f1
      = View.ld (View.read (Elt F) arg2.view f1) rcol := rfl
  have e2 : View.readAt (Elt F) arg3.view (Rect.unit ![0, 0] S5000x64.size inb_S5000x64_S5000x64_0_0).toLoadRect f2
      = View.read (Elt F) arg3.view f2 :=
    View.ld_unit_zero (Val := Elt F) (S := S5000x64) hz2 inb_S5000x64_S5000x64_0_0 (View.read (Elt F) arg3.view f2)
  rw [e0, e1, e2]

section
variable (V : (c : Dev nD) → (b : Ref sig .tc) → Buf (Elt F) ((c : Thread nD τ).loc b))

/-! ## The body obligation, at a generic row block -/

/-- What the body is called with at row block `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any row block: the inputs' buffers hold their blocks, so the triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for pass C, at every row block. -/
theorem body_obligation2 (c : Dev nD) : BodyObligation (dat2 (F := F) V c) (defs₀ (F := F)) Variants.none () Set.univ := fun t => by
  rw [bigSep_W2, bigSep_W2]
  exact sound_body2 V c t

end

end Cert.KernelIdeal.Hand

end
-- ==== Proof.Region1.lean ====
/-
  Pass B at a generic row block. The body reads the H block, the first column of the row-scale block, the bf16
  matrix, W2 and the bias row; its output is an accumulator: at row block 0 it stores the block's transposed
  product over the whole output buffer, at every later row block it stores the buffer's running value plus the
  block's transposed product. The buffer is written back after the last row block only, so at a later row block it
  still holds what the row block before left.
-/
import proofs.«142963_g18348100288549_rerun558fix_267_53_alg».proof.Proof.Region2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditionals, in closed form over the grid -/

/-- The first conditional (initialise) is taken at row block 0 only; -/
theorem hcond1_1 : ∀ t : Fin cfg1.N, k1_cond1 (grid1.coords t) = 1#1 ↔ t.val = 0 :=
  (by decide +kernel : ∀ t : Fin grid1.N, k1_cond1 (grid1.coords t) = 1#1 ↔ t.val = 0)

/-- the second (accumulate) at every later row block. -/
theorem hcond1_2 : ∀ t : Fin cfg1.N, k1_cond2 (grid1.coords t) = 1#1 ↔ t.val ≠ 0 :=
  (by decide +kernel : ∀ t : Fin grid1.N, k1_cond2 (grid1.coords t) = 1#1 ↔ t.val ≠ 0)

/-- One of the two conditionals is taken at every coordinate, so the output window is never idle: both conditions
    read the coordinate's value only, and the 25 values are decided. -/
theorem hlive1_5 : ∀ i : cfg1.grid.Coords, cfg1.idle 5 i = false := by
  intro i
  have key : ∀ n : Fin 25,
      (!(Scalar.cmpi .ne (Scalar.extui (Scalar.cmpi .eq (BitVec.ofNat 32 n.val) 0#32)) 0#32 == 1#1)
        && !(Scalar.cmpi .ne (Scalar.extui (Scalar.cmpi .sgt (BitVec.ofNat 32 n.val) 0#32)) 0#32 == 1#1)) = false := by
    decide +kernel
  exact key (i 0)

/-! ## The body's triple, one per case -/

set_option maxHeartbeats 1000000 in
/-- At row block 0 (the first conditional taken, the second not): the body on whole staging memrefs, the inputs' at
    read contents and the output's at anything, leaves the inputs' as they were and the output's at the block's
    transposed product. -/
theorem sound_kernel1_A (c : Dev nD) (E : Set ℕ) (i : grid1.Coords) (h1 : k1_cond1 i = 1#1) (h2 : ¬ k1_cond2 i = 1#1)
    (arg1 : Memref sig .tc .vmem S400x5000 .f32) (harg1 : arg1.IsWhole)
    (arg2 : Memref sig .tc .vmem S400x128 .f32) (harg2 : arg2.IsWhole)
    (arg3 : Memref sig .tc .vmem S5000x128 .bf16) (harg3 : arg3.IsWhole)
    (arg4 : Memref sig .tc .vmem S128x64 .f32) (harg4 : arg4.IsWhole)
    (arg5 : Memref sig .tc .vmem S1x64 .f32) (harg5 : arg5.IsWhole)
    (arg6 : Memref sig .tc .vmem S64x5000 .f32) (harg6 : arg6.IsWhole)
    (x0 : Vec F S400x5000 .f32) (x1 : Vec F S400x128 .f32) (x2 : Vec F S5000x128 .bf16)
    (x3 : Vec F S128x64 .f32) (x4 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
            ∗ owns (c : Thread nD τ) arg6 fullShare (k1_pay1 x0 (View.ld x1 rcol) x2 x3 x4)) -∗ K ⟨⟩))
      ⊢ wp frame (wpE (defs₀ (F := F)) Variants.none c none) E
          (cc1__pass_b i arg1 harg1 arg2 harg2 arg3 harg3 arg4 harg4 arg5 harg5 arg6 harg6) K := by
  simp only [cc1__pass_b_eq_skeleton]; unfold cc1__pass_b_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  -- one store over the whole buffer: it reads back the payload; the whole-buffer loads read the contents
  refine (View.read_writes_eq_canon _ _ _ (fun y => ⟨_, List.mem_singleton_self _, View.mem_set_unit_zero hz2 inb_S64x5000_S64x5000_0_0 y⟩)).trans ?_
  refine (View.canon_unit_zero hz2 inb_S64x5000_S64x5000_0_0 _).trans ?_
  have e0 : View.readAt (Elt F) arg1.view (Rect.unit ![0, 0] S400x5000.size inb_S400x5000_S400x5000_0_0).toLoadRect f0
      = View.read (Elt F) arg1.view f0 :=
    View.ld_unit_zero (Val := Elt F) (S := S400x5000) hz2 inb_S400x5000_S400x5000_0_0 (View.read (Elt F) arg1.view f0)
  have e1 : View.readAt (Elt F) arg2.view (Rect.unit (s := S400x128) ![0, 0] S400x1.size inb_S400x128_S400x1_0_0).toLoadRect f1
      = View.ld (View.read (Elt F) arg2.view f1) rcol := rfl
  have e2 : View.readAt (Elt F) arg3.view (Rect.unit ![0, 0] S5000x128.size inb_S5000x128_S5000x128_0_0).toLoadRect f2
      = View.read (Elt F) arg3.view f2 :=
    View.ld_unit_zero (Val := Elt F) (S := S5000x128) hz2 inb_S5000x128_S5000x128_0_0 (View.read (Elt F) arg3.view f2)
  have e3 : View.readAt (Elt F) arg4.view (Rect.unit ![0, 0] S128x64.size inb_S128x64_S128x64_0_0).toLoadRect f3
      = View.read (Elt F) arg4.view f3 :=
    View.ld_unit_zero (Val := Elt F) (S := S128x64) hz2 inb_S128x64_S128x64_0_0 (View.read (Elt F) arg4.view f3)
  have e4 : View.readAt (Elt F) arg5.view (Rect.unit ![0, 0] S1x64.size inb_S1x64_S1x64_0_0).toLoadRect f4
      = View.read (Elt F) arg5.view f4 :=
    View.ld_unit_zero (Val := Elt F) (S := S1x64) hz2 inb_S1x64_S1x64_0_0 (View.read (Elt F) arg5.view f4)
  rw [e0, e1, e2, e3, e4]

set_option maxHeartbeats 1000000 in
/-- At a later row block (the first conditional not taken, the second taken): the output's buffer at its running
    value `x5`, the body leaves it at the running value plus the block's transposed product. -/
theorem sound_kernel1_B (c : Dev nD) (E : Set ℕ) (i : grid1.Coords) (h1 : ¬ k1_cond1 i = 1#1) (h2 : k1_cond2 i = 1#1)
    (arg1 : Memref sig .tc .vmem S400x5000 .f32) (harg1 : arg1.IsWhole)
    (arg2 : Memref sig .tc .vmem S400x128 .f32) (harg2 : arg2.IsWhole)
    (arg3 : Memref sig .tc .vmem S5000x128 .bf16) (harg3 : arg3.IsWhole)
    (arg4 : Memref sig .tc .vmem S128x64 .f32) (harg4 : arg4.IsWhole)
    (arg5 : Memref sig .tc .vmem S1x64 .f32) (harg5 : arg5.IsWhole)
    (arg6 : Memref sig .tc .vmem S64x5000 .f32) (harg6 : arg6.IsWhole)
    (x0 : Vec F S400x5000 .f32) (x1 : Vec F S400x128 .f32) (x2 : Vec F S5000x128 .bf16)
    (x3 : Vec F S128x64 .f32) (x4 : Vec F S1x64 .f32) (x5 : Vec F S64x5000 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
            ∗ owns (c : Thread nD τ) arg6 fullShare (k1_pay2 x0 (View.ld x1 rcol) x2 x3 x4 x5)) -∗ K ⟨⟩))
      ⊢ wp frame (wpE (defs₀ (F := F)) Variants.none c none) E
          (cc1__pass_b i arg1 harg1 arg2 harg2 arg3 harg3 arg4 harg4 arg5 harg5 arg6 harg6) K := by
  simp only [cc1__pass_b_eq_skeleton]; unfold cc1__pass_b_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (fun y => ⟨_, List.mem_singleton_self _, View.mem_set_unit_zero hz2 inb_S64x5000_S64x5000_0_0 y⟩)).trans ?_
  refine (View.canon_unit_zero hz2 inb_S64x5000_S64x5000_0_0 _).trans ?_
  have e0 : View.readAt (Elt F) arg1.view (Rect.unit ![0, 0] S400x5000.size inb_S400x5000_S400x5000_0_0).toLoadRect f0
      = View.read (Elt F) arg1.view f0 :=
    View.ld_unit_zero (Val := Elt F) (S := S400x5000) hz2 inb_S400x5000_S400x5000_0_0 (View.read (Elt F) arg1.view f0)
  have e1 : View.readAt (Elt F) arg2.view (Rect.unit (s := S400x128) ![0, 0] S400x1.size inb_S400x128_S400x1_0_0).toLoadRect f1
      = View.ld (View.read (Elt F) arg2.view f1) rcol := rfl
  have e2 : View.readAt (Elt F) arg3.view (Rect.unit ![0, 0] S5000x128.size inb_S5000x128_S5000x128_0_0).toLoadRect f2
      = View.read (Elt F) arg3.view f2 :=
    View.ld_unit_zero (Val := Elt F) (S := S5000x128) hz2 inb_S5000x128_S5000x128_0_0 (View.read (Elt F) arg3.view f2)
  have e3 : View.readAt (Elt F) arg4.view (Rect.unit ![0, 0] S128x64.size inb_S128x64_S128x64_0_0).toLoadRect f3
      = View.read (Elt F) arg4.view f3 :=
    View.ld_unit_zero (Val := Elt F) (S := S128x64) hz2 inb_S128x64_S128x64_0_0 (View.read (Elt F) arg4.view f3)
  have e4 : View.readAt (Elt F) arg5.view (Rect.unit ![0, 0] S1x64.size inb_S1x64_S1x64_0_0).toLoadRect f4
      = View.read (Elt F) arg5.view f4 :=
    View.ld_unit_zero (Val := Elt F) (S := S1x64) hz2 inb_S1x64_S1x64_0_0 (View.read (Elt F) arg5.view f4)
  have e5 : View.readAt (Elt F) arg6.view (Rect.unit ![0, 0] S64x5000.size inb_S64x5000_S64x5000_0_0).toLoadRect f5
      = View.read (Elt F) arg6.view f5 :=
    View.ld_unit_zero (Val := Elt F) (S := S64x5000) hz2 inb_S64x5000_S64x5000_0_0 (View.read (Elt F) arg6.view f5)
  rw [e0, e1, e2, e3, e4, e5]

section
variable (V : (c : Dev nD) → (b : Ref sig .tc) → Buf (Elt F) ((c : Thread nD τ).loc b))

/-! ## The inputs' buffers hold their blocks -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The accumulator, row block by row block -/

/-- At row block 0 the accumulator is the block's transposed product. -/
theorem acc1_5_first (c : Dev nD) (t : Fin cfg1.N) (h0 : t.val = 0) :
    acc1_5 V c t.val t.isLt
      = k1_pay1 (iblk1 V c 0 t) (View.ld (iblk1 V c 1 t) rcol) (iblk1 V c 2 t) (iblk1 V c 3 t) (iblk1 V c 4 t) := by
  obtain ⟨n, hn⟩ := t
  cases n with
  | zero => rfl
  | succ n => exact absurd h0 (Nat.succ_ne_zero n)

/-- At a later row block it is the value after the row block before plus the block's transposed product. -/
theorem acc1_5_later (c : Dev nD) (t : Fin cfg1.N) (h0 : t.val ≠ 0) :
    acc1_5 V c t.val t.isLt
      = k1_pay2 (iblk1 V c 0 t) (View.ld (iblk1 V c 1 t) rcol) (iblk1 V c 2 t) (iblk1 V c 3 t) (iblk1 V c 4 t)
          (acc1_5 V c (t.val - 1) (Nat.lt_of_le_of_lt (Nat.sub_le _ _) t.isLt)) := by
  obtain ⟨n, hn⟩ := t
  cases n with
  | zero => exact absurd rfl h0
  | succ n => rfl

/-- At a later row block the output's buffer holds what the body left at the row block before: the buffer is
    written back after the last row block only, and the window is never idle and uncut. -/
theorem before1_5_B (c : Dev nD) (t : Fin cfg1.N) (h0 : t.val ≠ 0) (d) :
    (dat1 V c).before 5 t d = acc1_5 V c (t.val - 1) (Nat.lt_of_le_of_lt (Nat.sub_le _ _) t.isLt) := by
  have hN : t.val < 25 := lt_of_lt_of_eq t.isLt (show cfg1.N = 25 from N_1)
  rw [Dat.before_out_kept _ 5 rfl t h0
    (Bool.eq_false_iff.mpr fun h => by have := (flush1_5 _).mp h; dsimp only at this; omega)
    hlive1_5 (fun _ _ => rfl)]
  dsimp only [dat1]

/-- The output window is never idle, so the body must leave its buffer at the accumulator's value. -/
theorem leaves1_5 (c : Dev nD) (t : Fin cfg1.N) :
    (dat1 V c).leavesExact 5 t = owns (c : Thread nD τ) (st1_5 t) fullShare ((dat1 V c).after 5 t) := by
  unfold Dat.leavesExact; rw [hlive1_5 (cfg1.grid.coords t)]

/-! ## The body obligation, at a generic row block -/

/-- What the body is called with at row block `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns (the output window's part as the obligation states it, by cases on idleness). -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ (dat1 V c).leavesExact 5 t)

set_option maxHeartbeats 800000 in
/-- The body at any row block: the inputs' buffers hold their blocks; the closed forms say which case the row block
    is in; at a later row block the output's buffer holds the accumulator's value after the row block before; so the
    case's triple applies. The invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    leaves1_5, after1_0, after1_1, after1_2, after1_3, after1_4, after1_5]
  by_cases h0 : t.val = 0
  · rw [acc1_5_first V c t h0]
    iintro ⟨HΦ, Ho, ⟨%d0, H0⟩, ⟨%d1, H1⟩, ⟨%d2, H2⟩, ⟨%d3, H3⟩, ⟨%d4, H4⟩, ⟨%d5, H5⟩⟩
    iapply (sound_kernel1_A c Set.univ (grid1.coords t) ((hcond1_1 t).mpr h0) (fun h => (hcond1_2 t).mp h h0)
      _ _ _ _ _ _ _ _ _ _ _ _ (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc1_5_later V c t h0]
    simp only [before1_5_B V c t h0]
    iintro ⟨HΦ, Ho, ⟨%d0, H0⟩, ⟨%d1, H1⟩, ⟨%d2, H2⟩, ⟨%d3, H3⟩, ⟨%d4, H4⟩, ⟨%d5, H5⟩⟩
    iapply (sound_kernel1_B c Set.univ (grid1.coords t) (fun h => h0 ((hcond1_1 t).mp h)) ((hcond1_2 t).mpr h0)
      _ _ _ _ _ _ _ _ _ _ _ _ (iblk1 V c 0 t) (iblk1 V c 1 t) (iblk1 V c 2 t) (iblk1 V c 3 t) (iblk1 V c 4 t)
      (acc1_5 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation for pass B, at every row block. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.FrameOfRun.lean ====
/-
  From the run of @main to its frame: each argument array's buffer, read back through the fold of boundary contents,
  holds its launch contents at the end (no host operation writes an argument; a kernel region reads it through an input
  window, whose array is never written back, or leaves it alone), and the result buffer holds what pass C's write-backs
  leave in its output window's array.
-/import proofs.«142963_g18348100288549_rerun558fix_267_53_alg».proof.Proof.Run
import proofs.«142963_g18348100288549_rerun558fix_267_53_alg».proof.Proof.Gen.KernelIdeal.Launch
import proofs.«142963_g18348100288549_rerun558fix_267_53_alg».proof.Proof.Gen.KernelIdeal.Skeleton
import proofs.«142963_g18348100288549_rerun558fix_267_53_alg».proof.Proof.Gen.KernelIdeal.Points
import proofs.«142963_g18348100288549_rerun558fix_267_53_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What a stretch of host operations leaves alone -/

/-- A reference none of the first stretch's operations writes keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The same for the second stretch, -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- and for the third. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-! # The arguments end as launched -/

/-- `main_arg0` ends as launched: no host operation writes it, and each kernel region either reads it through an input
    window or does not touch it. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl

/-- `main_arg1` ends as launched: no host operation writes it, and each kernel region either reads it through an input
    window or does not touch it. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := (W6_arr m ρ c 0).trans (((dat2 (V5 m ρ) c).arrAt_in 0 rfl _).trans (A_eq2 (V5 m ρ) c 0))
    _ = W4 m ρ c (Proc.devRef .tc main_arg1) := W5_of m ρ c main_arg1 (by decide)
    _ = W3 m ρ c (Proc.devRef .tc main_arg1) := (W4_arr m ρ c 0).trans (((dat1 (V3 m ρ) c).arrAt_in 0 rfl _).trans (A_eq1 (V3 m ρ) c 0))
    _ = W2 m ρ c (Proc.devRef .tc main_arg1) := W3_of m ρ c main_arg1 (by decide)
    _ = W1 m ρ c (Proc.devRef .tc main_arg1) := (W2_arr m ρ c 3).trans (((dat0 (V1 m ρ) c).arrAt_in 3 rfl _).trans (A_eq0 (V1 m ρ) c 3))
    _ = W0 m ρ c (Proc.devRef .tc main_arg1) := W1_of m ρ c main_arg1 (by decide)
    _ = m ((c : Thread nD τ).loc main_arg1) := rfl

/-- `main_arg2` ends as launched: no host operation writes it, and each kernel region either reads it through an input
    window or does not touch it. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := W1_of m ρ c main_arg2 (by decide)
    _ = m ((c : Thread nD τ).loc main_arg2) := rfl

/-- `main_arg3` ends as launched: no host operation writes it, and each kernel region either reads it through an input
    window or does not touch it. -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

/-- `main_arg4` ends as launched: no host operation writes it, and each kernel region either reads it through an input
    window or does not touch it. -/
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := (W4_arr m ρ c 3).trans (((dat1 (V3 m ρ) c).arrAt_in 3 rfl _).trans (A_eq1 (V3 m ρ) c 3))
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

/-- `main_arg5` ends as launched: no host operation writes it, and each kernel region either reads it through an input
    window or does not touch it. -/
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

/-! # The result buffer -/

/-- The result `main_v18` is pass C's output window's array: at the end it holds what the pipeline's write-backs leave there. -/
theorem W6_main_v18 (c : Dev nD) : W6 m ρ c (Proc.devRef .tc main_v18) = (dat2 (V5 m ρ) c).arrAt 3 cfg2.N :=
  W6_arr m ρ c 3

/-! # The frame -/

variable (hb0 : ∀ (V : (c : Dev nD) → (b : Ref sig .tc) → Buf (Elt F) ((c : Thread nD τ).loc b)) (c : Dev nD),
    BodyObligation (dat0 (F := F) V c) (defs₀ (F := F)) Variants.none () Set.univ)
  (hb1 : ∀ (V : (c : Dev nD) → (b : Ref sig .tc) → Buf (Elt F) ((c : Thread nD τ).loc b)) (c : Dev nD),
    BodyObligation (dat1 (F := F) V c) (defs₀ (F := F)) Variants.none () Set.univ)
  (hb2 : ∀ (V : (c : Dev nD) → (b : Ref sig .tc) → Buf (Elt F) ((c : Thread nD τ).loc b)) (c : Dev nD),
    BodyObligation (dat2 (F := F) V c) (defs₀ (F := F)) Variants.none () Set.univ)

include hb0 hb1 hb2 in
/-- THE FRAME at any `F`: at the compiled mesh, from any memory with zero counters, every weakly fair execution of @main
    on the TensorCores terminates, nothing faulting, and every final state has the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c)⟩) (run m ρ hb0 hb1 hb2)

end Cert.KernelIdeal.Hand

end
-- ==== Proof.KDats.lean ====
/-
  The proof data of the three kernel regions, each at the contents `V` its region is entered from.

  Pass A (grid of 25 row blocks of 400 rows): at block `t` the body reads the X block, W1, the bias row and the H block;
  it leaves in the row-scale window the broadcast of rsqrt(row sums of the H block + eps), and in the two accumulator
  windows (the transposed product and the column sums) the block's contribution at the first block and the running value
  plus the contribution at every later one. Pass B accumulates its transposed product the same way; pass C writes one
  output block per row block. The accumulators are therefore defined by recursion on the block number.
-/
import proofs.«142963_g18348100288549_rerun558fix_267_53_alg».proof.Proof.Gen.Kernel.Launch
import proofs.«142963_g18348100288549_rerun558fix_267_53_alg».proof.Proof.Gen.Kernel.Skeleton
import proofs.«142963_g18348100288549_rerun558fix_267_53_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## Pass A -/

/-- Window `w`'s block at row block `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The transposed-product accumulator after row block `n`: the block's product at the first block, the running value
    plus the block's product afterwards. -/
def acc0_4 (c : Dev nD) : (n : ℕ) → n < cfg0.N → Vec F S128x5000 .f32
  | 0, hn => k0_pay4 (iblk0 V c 3 ⟨0, hn⟩) (iblk0 V c 0 ⟨0, hn⟩) (iblk0 V c 1 ⟨0, hn⟩) (iblk0 V c 2 ⟨0, hn⟩)
  | n + 1, hn => k0_pay6 (iblk0 V c 3 ⟨n + 1, hn⟩) (iblk0 V c 0 ⟨n + 1, hn⟩) (iblk0 V c 1 ⟨n + 1, hn⟩) (iblk0 V c 2 ⟨n + 1, hn⟩)
      (acc0_4 c n (Nat.lt_of_succ_lt hn))

/-- The column-sum accumulator after row block `n`. -/
def acc0_5 (c : Dev nD) : (n : ℕ) → n < cfg0.N → Vec F S1x5000 .f32
  | 0, hn => k0_pay5 (iblk0 V c 3 ⟨0, hn⟩)
  | n + 1, hn => k0_pay7 (iblk0 V c 3 ⟨n + 1, hn⟩) (acc0_5 c n (Nat.lt_of_succ_lt hn))

/-- Pass A's proof data: inputs stay at their blocks; the accumulators at their running values; the row-scale window at
    the block's broadcast scale. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => acc0_4 V c t.val t.isLt
    | ⟨5, _⟩ => acc0_5 V c t.val t.isLt
    | ⟨6, _⟩ => k0_pay3 (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = acc0_4 V c t.val t.isLt := by dsimp only [dat0]
theorem after0_5 (c : Dev nD) (t : Fin cfg0.N) : (dat0 V c).after 5 t = acc0_5 V c t.val t.isLt := by dsimp only [dat0]
theorem after0_6 (c : Dev nD) (t : Fin cfg0.N) : (dat0 V c).after 6 t = k0_pay3 (iblk0 V c 3 t) := by dsimp only [dat0]

/-! ## Pass B -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first column of a 400×128 block: where the row scale is read back from. -/
abbrev rcol : Rect S400x128 := Rect.unit (s := S400x128) ![0, 0] S400x1.size inb_S400x128_S400x1_0_0

/-- Pass B's transposed-product accumulator after row block `n`. -/
def acc1_5 (c : Dev nD) : (n : ℕ) → n < cfg1.N → Vec F S64x5000 .f32
  | 0, hn => k1_pay1 (iblk1 V c 0 ⟨0, hn⟩) (View.ld (iblk1 V c 1 ⟨0, hn⟩) rcol) (iblk1 V c 2 ⟨0, hn⟩) (iblk1 V c 3 ⟨0, hn⟩) (iblk1 V c 4 ⟨0, hn⟩)
  | n + 1, hn => k1_pay2 (iblk1 V c 0 ⟨n + 1, hn⟩) (View.ld (iblk1 V c 1 ⟨n + 1, hn⟩) rcol) (iblk1 V c 2 ⟨n + 1, hn⟩) (iblk1 V c 3 ⟨n + 1, hn⟩) (iblk1 V c 4 ⟨n + 1, hn⟩)
      (acc1_5 c n (Nat.lt_of_succ_lt hn))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => acc1_5 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = acc1_5 V c t.val t.isLt := by dsimp only [dat1]

/-! ## Pass C -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay1 (iblk2 V c 0 t) (View.ld (iblk2 V c 1 t) rcol) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay1 (iblk2 V c 0 t) (View.ld (iblk2 V c 1 t) rcol) (iblk2 V c 2 t) := by dsimp only [dat2]

end

end Cert.Kernel.Hand

end
-- ==== Proof.KBody0.lean ====
/-
  Pass A's body as Hoare triples, one per control case: on whole staging memrefs holding the X block, W1, the bias row
  and the H block, the body leaves the row-scale buffer at the broadcast of rsqrt(row sums + eps) and
  * at the first row block (case A) the two accumulators at the block's transposed product and column sums,
  * at a later row block (case B) each accumulator at what it held plus the block's contribution.
-/
import proofs.«142963_g18348100288549_rerun558fix_267_53_alg».proof.Proof.KDats
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer rectangle of rank two, as a function. -/
theorem zeroOff2 : (![0, 0] : Fin 2 → Nat) = fun _ => 0 := by
  funext a; match a with | ⟨0, _⟩ => rfl | ⟨1, _⟩ => rfl

section WholeBuffer
variable {sig' : RefSig} {κ : Kind} {sp : Space} (S : Shape) {e : EltTy} {Val : EltTy → Type} [∀ e, Nonempty (Val e)]

/-- One store through the whole-shape rectangle at zero offsets leaves its payload. -/
theorem read_store_whole (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩),
    View.canon_unit_zero h]

/-- A load through the whole-shape rectangle at zero offsets reads the contents. -/
theorem readAt_whole (v : View sig' κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld]; exact View.ld_unit_zero h inb _

end WholeBuffer

set_option maxHeartbeats 4000000 in
/-- Case A of pass A's body (the first row block). -/
theorem run0_A (c : Dev nD) (i : grid0.Coords)
    (arg1 : Memref sig .tc .vmem S400x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S400x5000 .f32) (harg4 : arg4.IsWhole)
    (arg5 : Memref sig .tc .vmem S128x5000 .f32) (harg5 : arg5.IsWhole) (arg6 : Memref sig .tc .vmem S1x5000 .f32) (harg6 : arg6.IsWhole)
    (arg7 : Memref sig .tc .vmem S400x128 .f32) (harg7 : arg7.IsWhole)
    (h1 : k0_cond1 i = 1#1) (h2 : ¬ k0_cond2 i = 1#1)
    (x0 : Vec F S400x128 .f32) (x1 : Vec F S128x128 .f32) (x2 : Vec F S1x128 .f32) (x3 : Vec F S400x5000 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (k0_pay4 x3 x0 x1 x2) ∗ owns (c : Thread nD τ) arg6 fullShare (k0_pay5 x3)
            ∗ owns (c : Thread nD τ) arg7 fullShare (k0_pay3 x3)) -∗ K ⟨⟩))
      ⊢ wp frame (wpE (defs₀ (F := F)) Variants.none c none) E
          (cc0__pass_a i arg1 harg1 arg2 harg2 arg3 harg3 arg4 harg4 arg5 harg5 arg6 harg6 arg7 harg7) K := by
  simp only [cc0__pass_a_eq_skeleton]; unfold cc0__pass_a_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    simp only [read_store_whole S400x5000 _ _ zeroOff2, readAt_whole S400x5000 _ _ zeroOff2, read_store_whole S400x128 _ _ zeroOff2, readAt_whole S400x128 _ _ zeroOff2, read_store_whole S128x128 _ _ zeroOff2, readAt_whole S128x128 _ _ zeroOff2, read_store_whole S1x128 _ _ zeroOff2, readAt_whole S1x128 _ _ zeroOff2, read_store_whole S128x5000 _ _ zeroOff2, readAt_whole S128x5000 _ _ zeroOff2, read_store_whole S1x5000 _ _ zeroOff2, readAt_whole S1x5000 _ _ zeroOff2]
  isplitl [H5]
  · iexists _; isplitr
    swap; · iexact H5
    ipureintro
    simp only [read_store_whole S400x5000 _ _ zeroOff2, readAt_whole S400x5000 _ _ zeroOff2, read_store_whole S400x128 _ _ zeroOff2, readAt_whole S400x128 _ _ zeroOff2, read_store_whole S128x128 _ _ zeroOff2, readAt_whole S128x128 _ _ zeroOff2, read_store_whole S1x128 _ _ zeroOff2, readAt_whole S1x128 _ _ zeroOff2, read_store_whole S128x5000 _ _ zeroOff2, readAt_whole S128x5000 _ _ zeroOff2, read_store_whole S1x5000 _ _ zeroOff2, readAt_whole S1x5000 _ _ zeroOff2]
  iexists _; isplitr
  swap; · iexact H6
  ipureintro
  simp only [read_store_whole S400x5000 _ _ zeroOff2, readAt_whole S400x5000 _ _ zeroOff2, read_store_whole S400x128 _ _ zeroOff2, readAt_whole S400x128 _ _ zeroOff2, read_store_whole S128x128 _ _ zeroOff2, readAt_whole S128x128 _ _ zeroOff2, read_store_whole S1x128 _ _ zeroOff2, readAt_whole S1x128 _ _ zeroOff2, read_store_whole S128x5000 _ _ zeroOff2, readAt_whole S128x5000 _ _ zeroOff2, read_store_whole S1x5000 _ _ zeroOff2, readAt_whole S1x5000 _ _ zeroOff2]

set_option maxHeartbeats 4000000 in
/-- Case B of pass A's body (a later row block: the accumulators hold `xo4`, `xo5`). -/
theorem run0_B (c : Dev nD) (i : grid0.Coords)
    (arg1 : Memref sig .tc .vmem S400x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S400x5000 .f32) (harg4 : arg4.IsWhole)
    (arg5 : Memref sig .tc .vmem S128x5000 .f32) (harg5 : arg5.IsWhole) (arg6 : Memref sig .tc .vmem S1x5000 .f32) (harg6 : arg6.IsWhole)
    (arg7 : Memref sig .tc .vmem S400x128 .f32) (harg7 : arg7.IsWhole)
    (h1 : ¬ k0_cond1 i = 1#1) (h2 : k0_cond2 i = 1#1)
    (x0 : Vec F S400x128 .f32) (x1 : Vec F S128x128 .f32) (x2 : Vec F S1x128 .f32) (x3 : Vec F S400x5000 .f32) (xo4 : Vec F S128x5000 .f32) (xo5 : Vec F S1x5000 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ owns (c : Thread nD τ) arg5 fullShare xo4 ∗ owns (c : Thread nD τ) arg6 fullShare xo5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (k0_pay6 x3 x0 x1 x2 xo4) ∗ owns (c : Thread nD τ) arg6 fullShare (k0_pay7 x3 xo5)
            ∗ owns (c : Thread nD τ) arg7 fullShare (k0_pay3 x3)) -∗ K ⟨⟩))
      ⊢ wp frame (wpE (defs₀ (F := F)) Variants.none c none) E
          (cc0__pass_a i arg1 harg1 arg2 harg2 arg3 harg3 arg4 harg4 arg5 harg5 arg6 harg6 arg7 harg7) K := by
  simp only [cc0__pass_a_eq_skeleton]; unfold cc0__pass_a_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    simp only [read_store_whole S400x5000 _ _ zeroOff2, readAt_whole S400x5000 _ _ zeroOff2, read_store_whole S400x128 _ _ zeroOff2, readAt_whole S400x128 _ _ zeroOff2, read_store_whole S128x128 _ _ zeroOff2, readAt_whole S128x128 _ _ zeroOff2, read_store_whole S1x128 _ _ zeroOff2, readAt_whole S1x128 _ _ zeroOff2, read_store_whole S128x5000 _ _ zeroOff2, readAt_whole S128x5000 _ _ zeroOff2, read_store_whole S1x5000 _ _ zeroOff2, readAt_whole S1x5000 _ _ zeroOff2]
  isplitl [H5]
  · iexists _; isplitr
    swap; · iexact H5
    ipureintro
    simp only [read_store_whole S400x5000 _ _ zeroOff2, readAt_whole S400x5000 _ _ zeroOff2, read_store_whole S400x128 _ _ zeroOff2, readAt_whole S400x128 _ _ zeroOff2, read_store_whole S128x128 _ _ zeroOff2, readAt_whole S128x128 _ _ zeroOff2, read_store_whole S1x128 _ _ zeroOff2, readAt_whole S1x128 _ _ zeroOff2, read_store_whole S128x5000 _ _ zeroOff2, readAt_whole S128x5000 _ _ zeroOff2, read_store_whole S1x5000 _ _ zeroOff2, readAt_whole S1x5000 _ _ zeroOff2]
  iexists _; isplitr
  swap; · iexact H6
  ipureintro
  simp only [read_store_whole S400x5000 _ _ zeroOff2, readAt_whole S400x5000 _ _ zeroOff2, read_store_whole S400x128 _ _ zeroOff2, readAt_whole S400x128 _ _ zeroOff2, read_store_whole S128x128 _ _ zeroOff2, readAt_whole S128x128 _ _ zeroOff2, read_store_whole S1x128 _ _ zeroOff2, readAt_whole S1x128 _ _ zeroOff2, read_store_whole S128x5000 _ _ zeroOff2, readAt_whole S128x5000 _ _ zeroOff2, read_store_whole S1x5000 _ _ zeroOff2, readAt_whole S1x5000 _ _ zeroOff2]

end Cert.Kernel.Hand

end
-- ==== Proof.KRegion0.lean ====
/-
  Pass A's body obligation: at every row block the body, handed its seven staging buffers as the pipeline leaves them,
  returns them at the proof data's contents. The four inputs hold their blocks whether fetched at the block or kept
  from an earlier one; the two accumulators hold, after the first block, what the block before left (they are written
  back only after the last block); the first block is the case that overwrites them, every later block the case that adds.
-/
import proofs.«142963_g18348100288549_rerun558fix_267_53_alg».proof.Proof.KBody0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The inputs' buffers hold their blocks -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## The two conditions over the grid, and the accumulators' windows never idle -/

theorem hc1 : ∀ t : Fin cfg0.N, k0_cond1 (grid0.coords t) = 1#1 ↔ t.val % 25 = 0 :=
  (by decide +kernel : ∀ t : Fin grid0.N, k0_cond1 (grid0.coords t) = 1#1 ↔ t.val % 25 = 0)
theorem hc2 : ∀ t : Fin cfg0.N, k0_cond2 (grid0.coords t) = 1#1 ↔ ¬ t.val % 25 = 0 :=
  (by decide +kernel : ∀ t : Fin grid0.N, k0_cond2 (grid0.coords t) = 1#1 ↔ ¬ t.val % 25 = 0)

/-- At every grid coordinate one of the two stores into the accumulators fires (the coordinate is zero or positive). -/
theorem fires0 : ∀ n : Fin 25,
    (!((Scalar.cmpi .ne (Scalar.extui (Scalar.cmpi .eq (BitVec.ofNat 32 n.val) 0#32) : BitVec 32) 0#32) == 1#1)
      && !((Scalar.cmpi .ne (Scalar.extui (Scalar.cmpi .sgt (BitVec.ofNat 32 n.val) 0#32) : BitVec 32) 0#32) == 1#1)) = false := by
  decide +kernel
theorem idle0_4 (i : grid0.Coords) : cfg0.idle (4 : Fin 7) i = false :=
  fires0 ⟨(i 0).val, (i 0).isLt⟩
theorem idle0_5 (i : grid0.Coords) : cfg0.idle (5 : Fin 7) i = false :=
  fires0 ⟨(i 0).val, (i 0).isLt⟩

/-! ## The accumulators, block by block -/

theorem acc0_4_A (c : Dev nD) (t : Fin cfg0.N) (h0 : t.val % 25 = 0) :
    acc0_4 V c t.val t.isLt = k0_pay4 (iblk0 V c 3 t) (iblk0 V c 0 t) (iblk0 V c 1 t) (iblk0 V c 2 t) := by
  obtain ⟨n, hn⟩ := t
  cases n with
  | zero => rfl
  | succ n => exact absurd h0 (by have : n + 1 < 25 := lt_of_lt_of_eq hn N_0; dsimp only; omega)
theorem acc0_4_B (c : Dev nD) (t : Fin cfg0.N) (h0 : ¬ t.val % 25 = 0) :
    acc0_4 V c t.val t.isLt = k0_pay6 (iblk0 V c 3 t) (iblk0 V c 0 t) (iblk0 V c 1 t) (iblk0 V c 2 t)
      (acc0_4 V c (t.val - 1) (Nat.lt_of_le_of_lt (Nat.sub_le _ _) t.isLt)) := by
  obtain ⟨n, hn⟩ := t
  cases n with
  | zero => exact absurd (Nat.zero_mod _) h0
  | succ n => rfl
theorem acc0_5_A (c : Dev nD) (t : Fin cfg0.N) (h0 : t.val % 25 = 0) :
    acc0_5 V c t.val t.isLt = k0_pay5 (iblk0 V c 3 t) := by
  obtain ⟨n, hn⟩ := t
  cases n with
  | zero => rfl
  | succ n => exact absurd h0 (by have : n + 1 < 25 := lt_of_lt_of_eq hn N_0; dsimp only; omega)
theorem acc0_5_B (c : Dev nD) (t : Fin cfg0.N) (h0 : ¬ t.val % 25 = 0) :
    acc0_5 V c t.val t.isLt = k0_pay7 (iblk0 V c 3 t) (acc0_5 V c (t.val - 1) (Nat.lt_of_le_of_lt (Nat.sub_le _ _) t.isLt)) := by
  obtain ⟨n, hn⟩ := t
  cases n with
  | zero => exact absurd (Nat.zero_mod _) h0
  | succ n => rfl

/-- After the first block an accumulator's buffer holds what the block before left: it is not written back in between. -/
theorem before0_4_B (c : Dev nD) (t : Fin cfg0.N) (h0 : ¬ t.val % 25 = 0) (d) :
    (dat0 V c).before 4 t d = acc0_4 V c (t.val - 1) (Nat.lt_of_le_of_lt (Nat.sub_le _ _) t.isLt) := by
  have hN : t.val < 25 := lt_of_lt_of_eq t.isLt (show cfg0.N = 25 from N_0)
  rw [Dat.before_out_kept _ 4 rfl t (by omega) (Bool.eq_false_iff.mpr fun h => by have := (flush0_4 _).mp h; dsimp only at this; omega)
    idle0_4 (fun _ _ => rfl)]
  dsimp only [dat0]
theorem before0_5_B (c : Dev nD) (t : Fin cfg0.N) (h0 : ¬ t.val % 25 = 0) (d) :
    (dat0 V c).before 5 t d = acc0_5 V c (t.val - 1) (Nat.lt_of_le_of_lt (Nat.sub_le _ _) t.isLt) := by
  have hN : t.val < 25 := lt_of_lt_of_eq t.isLt (show cfg0.N = 25 from N_0)
  rw [Dat.before_out_kept _ 5 rfl t (by omega) (Bool.eq_false_iff.mpr fun h => by have := (flush0_5 _).mp h; dsimp only at this; omega)
    idle0_5 (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  by_cases h0 : t.val % 25 = 0
  · rw [acc0_4_A V c t h0, acc0_5_A V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run0_A c (grid0.coords t) _ _ _ _ _ _ _ _ _ _ _ _ _ _ ((hc1 t).mpr h0) (fun h => ((hc2 t).mp h) h0)
      (iblk0 V c 0 t) (iblk0 V c 1 t) (iblk0 V c 2 t) (iblk0 V c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [acc0_4_B V c t h0, acc0_5_B V c t h0]
    simp only [before0_4_B V c t h0, before0_5_B V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run0_B c (grid0.coords t) _ _ _ _ _ _ _ _ _ _ _ _ _ _ (fun h => h0 ((hc1 t).mp h)) ((hc2 t).mpr h0)
      (iblk0 V c 0 t) (iblk0 V c 1 t) (iblk0 V c 2 t) (iblk0 V c 3 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

set_option maxHeartbeats 4000000 in
theorem body_obligation0 (c : Dev nD) : BodyObligation (dat0 (F := F) V c) (defs₀ (F := F)) Variants.none () Set.univ := fun t => by
  rw [bigSep_W0, bigSep_W0]
  have e4 : cfg0.idle (4 : Fin 7) (cfg0.grid.coords t) = false := idle0_4 _
  have e5 : cfg0.idle (5 : Fin 7) (cfg0.grid.coords t) = false := idle0_5 _
  rw [e4]
  try rw [e5]
  exact sound_body0 V c t

end

end Cert.Kernel.Hand

end
-- ==== Proof.KRegion2.lean ====
/-
  Pass C at a generic row block. The body reads the H block (whole), the first column of the row-scale block and
  the bf16 matrix (whole), and stores  scale ⊙ (bf16(H block) · matrix)  over its whole output block. The three
  inputs stay in place, so each input's staging buffer holds its block at every row block, fetched there or not.
-/
import proofs.«142963_g18348100288549_rerun558fix_267_53_alg».proof.Proof.KDats
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 rectangle, spelt as a constant function. -/
theorem hz2 : (![0, 0] : Fin 2 → Nat) = fun _ => 0 := funext fun a => by fin_cases a <;> rfl

section
variable (V : (c : Dev nD) → (b : Ref sig .tc) → Buf (Elt F) ((c : Thread nD τ).loc b))

/-! ## The inputs' buffers hold their blocks -/

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

end

/-! ## The body's triple -/

set_option maxHeartbeats 1000000 in
/-- The body on whole staging memrefs, the inputs' at read contents and the output's at anything, runs to the
    continuation holding the inputs' as they were and the output's at the scaled product of the inputs. -/
theorem sound_kernel2 (c : Dev nD) (E : Set ℕ) (i : grid2.Coords)
    (arg1 : Memref sig .tc .vmem S400x5000 .f32) (harg1 : arg1.IsWhole)
    (arg2 : Memref sig .tc .vmem S400x128 .f32) (harg2 : arg2.IsWhole)
    (arg3 : Memref sig .tc .vmem S5000x64 .bf16) (harg3 : arg3.IsWhole)
    (arg4 : Memref sig .tc .vmem S400x64 .f32) (harg4 : arg4.IsWhole)
    (x0 : Vec F S400x5000 .f32) (x1 : Vec F S400x128 .f32) (x2 : Vec F S5000x64 .bf16) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (k2_pay1 x0 (View.ld x1 rcol) x2)) -∗ K ⟨⟩))
      ⊢ wp frame (wpE (defs₀ (F := F)) Variants.none c none) E (cc2__pass_c i arg1 harg1 arg2 harg2 arg3 harg3 arg4 harg4) K := by
  simp only [cc2__pass_c_eq_skeleton]; unfold cc2__pass_c_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- one store over the whole block: the buffer reads back the payload; the whole-buffer loads read the contents
  refine (View.read_writes_eq_canon _ _ _ (fun y => ⟨_, List.mem_singleton_self _, View.mem_set_unit_zero hz2 inb_S400x64_S400x64_0_0 y⟩)).trans ?_
  refine (View.canon_unit_zero hz2 inb_S400x64_S400x64_0_0 _).trans ?_
  have e0 : View.readAt (Elt F) arg1.view (Rect.unit ![0, 0] S400x5000.size inb_S400x5000_S400x5000_0_0).toLoadRect f0
      = View.read (Elt F) arg1.view f0 :=
    View.ld_unit_zero (Val := Elt F) (S := S400x5000) hz2 inb_S400x5000_S400x5000_0_0 (View.read (Elt F) arg1.view f0)
  have e1 : View.readAt (Elt F) arg2.view (Rect.unit (s := S400x128) ![0, 0] S400x1.size inb_S400x128_S400x1_0_0).toLoadRect f1
      = View.ld (View.read (Elt F) arg2.view f1) rcol := rfl
  have e2 : View.readAt (Elt F) arg3.view (Rect.unit ![0, 0] S5000x64.size inb_S5000x64_S5000x64_0_0).toLoadRect f2
      = View.read (Elt F) arg3.view f2 :=
    View.ld_unit_zero (Val := Elt F) (S := S5000x64) hz2 inb_S5000x64_S5000x64_0_0 (View.read (Elt F) arg3.view f2)
  rw [e0, e1, e2]

section
variable (V : (c : Dev nD) → (b : Ref sig .tc) → Buf (Elt F) ((c : Thread nD τ).loc b))

/-! ## The body obligation, at a generic row block -/

/-- What the body is called with at row block `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any row block: the inputs' buffers hold their blocks, so the triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for pass C, at every row block. -/
theorem body_obligation2 (c : Dev nD) : BodyObligation (dat2 (F := F) V c) (defs₀ (F := F)) Variants.none () Set.univ := fun t => by
  rw [bigSep_W2, bigSep_W2]
  exact sound_body2 V c t

end

end Cert.Kernel.Hand

end
-- ==== Proof.KRegion1.lean ====
/-
  Pass B at a generic row block. The body reads the H block, the first column of the row-scale block, the bf16
  matrix, W2 and the bias row; its output is an accumulator: at row block 0 it stores the block's transposed
  product over the whole output buffer, at every later row block it stores the buffer's running value plus the
  block's transposed product. The buffer is written back after the last row block only, so at a later row block it
  still holds what the row block before left.
-/
import proofs.«142963_g18348100288549_rerun558fix_267_53_alg».proof.Proof.KRegion2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditionals, in closed form over the grid -/

/-- The first conditional (initialise) is taken at row block 0 only; -/
theorem hcond1_1 : ∀ t : Fin cfg1.N, k1_cond1 (grid1.coords t) = 1#1 ↔ t.val = 0 :=
  (by decide +kernel : ∀ t : Fin grid1.N, k1_cond1 (grid1.coords t) = 1#1 ↔ t.val = 0)

/-- the second (accumulate) at every later row block. -/
theorem hcond1_2 : ∀ t : Fin cfg1.N, k1_cond2 (grid1.coords t) = 1#1 ↔ t.val ≠ 0 :=
  (by decide +kernel : ∀ t : Fin grid1.N, k1_cond2 (grid1.coords t) = 1#1 ↔ t.val ≠ 0)

/-- One of the two conditionals is taken at every coordinate, so the output window is never idle: both conditions
    read the coordinate's value only, and the 25 values are decided. -/
theorem hlive1_5 : ∀ i : cfg1.grid.Coords, cfg1.idle 5 i = false := by
  intro i
  have key : ∀ n : Fin 25,
      (!(Scalar.cmpi .ne (Scalar.extui (Scalar.cmpi .eq (BitVec.ofNat 32 n.val) 0#32)) 0#32 == 1#1)
        && !(Scalar.cmpi .ne (Scalar.extui (Scalar.cmpi .sgt (BitVec.ofNat 32 n.val) 0#32)) 0#32 == 1#1)) = false := by
    decide +kernel
  exact key (i 0)

/-! ## The body's triple, one per case -/

set_option maxHeartbeats 1000000 in
/-- At row block 0 (the first conditional taken, the second not): the body on whole staging memrefs, the inputs' at
    read contents and the output's at anything, leaves the inputs' as they were and the output's at the block's
    transposed product. -/
theorem sound_kernel1_A (c : Dev nD) (E : Set ℕ) (i : grid1.Coords) (h1 : k1_cond1 i = 1#1) (h2 : ¬ k1_cond2 i = 1#1)
    (arg1 : Memref sig .tc .vmem S400x5000 .f32) (harg1 : arg1.IsWhole)
    (arg2 : Memref sig .tc .vmem S400x128 .f32) (harg2 : arg2.IsWhole)
    (arg3 : Memref sig .tc .vmem S5000x128 .bf16) (harg3 : arg3.IsWhole)
    (arg4 : Memref sig .tc .vmem S128x64 .f32) (harg4 : arg4.IsWhole)
    (arg5 : Memref sig .tc .vmem S1x64 .f32) (harg5 : arg5.IsWhole)
    (arg6 : Memref sig .tc .vmem S64x5000 .f32) (harg6 : arg6.IsWhole)
    (x0 : Vec F S400x5000 .f32) (x1 : Vec F S400x128 .f32) (x2 : Vec F S5000x128 .bf16)
    (x3 : Vec F S128x64 .f32) (x4 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
            ∗ owns (c : Thread nD τ) arg6 fullShare (k1_pay1 x0 (View.ld x1 rcol) x2 x3 x4)) -∗ K ⟨⟩))
      ⊢ wp frame (wpE (defs₀ (F := F)) Variants.none c none) E
          (cc1__pass_b i arg1 harg1 arg2 harg2 arg3 harg3 arg4 harg4 arg5 harg5 arg6 harg6) K := by
  simp only [cc1__pass_b_eq_skeleton]; unfold cc1__pass_b_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  -- one store over the whole buffer: it reads back the payload; the whole-buffer loads read the contents
  refine (View.read_writes_eq_canon _ _ _ (fun y => ⟨_, List.mem_singleton_self _, View.mem_set_unit_zero hz2 inb_S64x5000_S64x5000_0_0 y⟩)).trans ?_
  refine (View.canon_unit_zero hz2 inb_S64x5000_S64x5000_0_0 _).trans ?_
  have e0 : View.readAt (Elt F) arg1.view (Rect.unit ![0, 0] S400x5000.size inb_S400x5000_S400x5000_0_0).toLoadRect f0
      = View.read (Elt F) arg1.view f0 :=
    View.ld_unit_zero (Val := Elt F) (S := S400x5000) hz2 inb_S400x5000_S400x5000_0_0 (View.read (Elt F) arg1.view f0)
  have e1 : View.readAt (Elt F) arg2.view (Rect.unit (s := S400x128) ![0, 0] S400x1.size inb_S400x128_S400x1_0_0).toLoadRect f1
      = View.ld (View.read (Elt F) arg2.view f1) rcol := rfl
  have e2 : View.readAt (Elt F) arg3.view (Rect.unit ![0, 0] S5000x128.size inb_S5000x128_S5000x128_0_0).toLoadRect f2
      = View.read (Elt F) arg3.view f2 :=
    View.ld_unit_zero (Val := Elt F) (S := S5000x128) hz2 inb_S5000x128_S5000x128_0_0 (View.read (Elt F) arg3.view f2)
  have e3 : View.readAt (Elt F) arg4.view (Rect.unit ![0, 0] S128x64.size inb_S128x64_S128x64_0_0).toLoadRect f3
      = View.read (Elt F) arg4.view f3 :=
    View.ld_unit_zero (Val := Elt F) (S := S128x64) hz2 inb_S128x64_S128x64_0_0 (View.read (Elt F) arg4.view f3)
  have e4 : View.readAt (Elt F) arg5.view (Rect.unit ![0, 0] S1x64.size inb_S1x64_S1x64_0_0).toLoadRect f4
      = View.read (Elt F) arg5.view f4 :=
    View.ld_unit_zero (Val := Elt F) (S := S1x64) hz2 inb_S1x64_S1x64_0_0 (View.read (Elt F) arg5.view f4)
  rw [e0, e1, e2, e3, e4]

set_option maxHeartbeats 1000000 in
/-- At a later row block (the first conditional not taken, the second taken): the output's buffer at its running
    value `x5`, the body leaves it at the running value plus the block's transposed product. -/
theorem sound_kernel1_B (c : Dev nD) (E : Set ℕ) (i : grid1.Coords) (h1 : ¬ k1_cond1 i = 1#1) (h2 : k1_cond2 i = 1#1)
    (arg1 : Memref sig .tc .vmem S400x5000 .f32) (harg1 : arg1.IsWhole)
    (arg2 : Memref sig .tc .vmem S400x128 .f32) (harg2 : arg2.IsWhole)
    (arg3 : Memref sig .tc .vmem S5000x128 .bf16) (harg3 : arg3.IsWhole)
    (arg4 : Memref sig .tc .vmem S128x64 .f32) (harg4 : arg4.IsWhole)
    (arg5 : Memref sig .tc .vmem S1x64 .f32) (harg5 : arg5.IsWhole)
    (arg6 : Memref sig .tc .vmem S64x5000 .f32) (harg6 : arg6.IsWhole)
    (x0 : Vec F S400x5000 .f32) (x1 : Vec F S400x128 .f32) (x2 : Vec F S5000x128 .bf16)
    (x3 : Vec F S128x64 .f32) (x4 : Vec F S1x64 .f32) (x5 : Vec F S64x5000 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
            ∗ owns (c : Thread nD τ) arg6 fullShare (k1_pay2 x0 (View.ld x1 rcol) x2 x3 x4 x5)) -∗ K ⟨⟩))
      ⊢ wp frame (wpE (defs₀ (F := F)) Variants.none c none) E
          (cc1__pass_b i arg1 harg1 arg2 harg2 arg3 harg3 arg4 harg4 arg5 harg5 arg6 harg6) K := by
  simp only [cc1__pass_b_eq_skeleton]; unfold cc1__pass_b_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (fun y => ⟨_, List.mem_singleton_self _, View.mem_set_unit_zero hz2 inb_S64x5000_S64x5000_0_0 y⟩)).trans ?_
  refine (View.canon_unit_zero hz2 inb_S64x5000_S64x5000_0_0 _).trans ?_
  have e0 : View.readAt (Elt F) arg1.view (Rect.unit ![0, 0] S400x5000.size inb_S400x5000_S400x5000_0_0).toLoadRect f0
      = View.read (Elt F) arg1.view f0 :=
    View.ld_unit_zero (Val := Elt F) (S := S400x5000) hz2 inb_S400x5000_S400x5000_0_0 (View.read (Elt F) arg1.view f0)
  have e1 : View.readAt (Elt F) arg2.view (Rect.unit (s := S400x128) ![0, 0] S400x1.size inb_S400x128_S400x1_0_0).toLoadRect f1
      = View.ld (View.read (Elt F) arg2.view f1) rcol := rfl
  have e2 : View.readAt (Elt F) arg3.view (Rect.unit ![0, 0] S5000x128.size inb_S5000x128_S5000x128_0_0).toLoadRect f2
      = View.read (Elt F) arg3.view f2 :=
    View.ld_unit_zero (Val := Elt F) (S := S5000x128) hz2 inb_S5000x128_S5000x128_0_0 (View.read (Elt F) arg3.view f2)
  have e3 : View.readAt (Elt F) arg4.view (Rect.unit ![0, 0] S128x64.size inb_S128x64_S128x64_0_0).toLoadRect f3
      = View.read (Elt F) arg4.view f3 :=
    View.ld_unit_zero (Val := Elt F) (S := S128x64) hz2 inb_S128x64_S128x64_0_0 (View.read (Elt F) arg4.view f3)
  have e4 : View.readAt (Elt F) arg5.view (Rect.unit ![0, 0] S1x64.size inb_S1x64_S1x64_0_0).toLoadRect f4
      = View.read (Elt F) arg5.view f4 :=
    View.ld_unit_zero (Val := Elt F) (S := S1x64) hz2 inb_S1x64_S1x64_0_0 (View.read (Elt F) arg5.view f4)
  have e5 : View.readAt (Elt F) arg6.view (Rect.unit ![0, 0] S64x5000.size inb_S64x5000_S64x5000_0_0).toLoadRect f5
      = View.read (Elt F) arg6.view f5 :=
    View.ld_unit_zero (Val := Elt F) (S := S64x5000) hz2 inb_S64x5000_S64x5000_0_0 (View.read (Elt F) arg6.view f5)
  rw [e0, e1, e2, e3, e4, e5]

section
variable (V : (c : Dev nD) → (b : Ref sig .tc) → Buf (Elt F) ((c : Thread nD τ).loc b))

/-! ## The inputs' buffers hold their blocks -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The accumulator, row block by row block -/

/-- At row block 0 the accumulator is the block's transposed product. -/
theorem acc1_5_first (c : Dev nD) (t : Fin cfg1.N) (h0 : t.val = 0) :
    acc1_5 V c t.val t.isLt
      = k1_pay1 (iblk1 V c 0 t) (View.ld (iblk1 V c 1 t) rcol) (iblk1 V c 2 t) (iblk1 V c 3 t) (iblk1 V c 4 t) := by
  obtain ⟨n, hn⟩ := t
  cases n with
  | zero => rfl
  | succ n => exact absurd h0 (Nat.succ_ne_zero n)

/-- At a later row block it is the value after the row block before plus the block's transposed product. -/
theorem acc1_5_later (c : Dev nD) (t : Fin cfg1.N) (h0 : t.val ≠ 0) :
    acc1_5 V c t.val t.isLt
      = k1_pay2 (iblk1 V c 0 t) (View.ld (iblk1 V c 1 t) rcol) (iblk1 V c 2 t) (iblk1 V c 3 t) (iblk1 V c 4 t)
          (acc1_5 V c (t.val - 1) (Nat.lt_of_le_of_lt (Nat.sub_le _ _) t.isLt)) := by
  obtain ⟨n, hn⟩ := t
  cases n with
  | zero => exact absurd rfl h0
  | succ n => rfl

/-- At a later row block the output's buffer holds what the body left at the row block before: the buffer is
    written back after the last row block only, and the window is never idle and uncut. -/
theorem before1_5_B (c : Dev nD) (t : Fin cfg1.N) (h0 : t.val ≠ 0) (d) :
    (dat1 V c).before 5 t d = acc1_5 V c (t.val - 1) (Nat.lt_of_le_of_lt (Nat.sub_le _ _) t.isLt) := by
  have hN : t.val < 25 := lt_of_lt_of_eq t.isLt (show cfg1.N = 25 from N_1)
  rw [Dat.before_out_kept _ 5 rfl t h0
    (Bool.eq_false_iff.mpr fun h => by have := (flush1_5 _).mp h; dsimp only at this; omega)
    hlive1_5 (fun _ _ => rfl)]
  dsimp only [dat1]

/-- The output window is never idle, so the body must leave its buffer at the accumulator's value. -/
theorem leaves1_5 (c : Dev nD) (t : Fin cfg1.N) :
    (dat1 V c).leavesExact 5 t = owns (c : Thread nD τ) (st1_5 t) fullShare ((dat1 V c).after 5 t) := by
  unfold Dat.leavesExact; rw [hlive1_5 (cfg1.grid.coords t)]

/-! ## The body obligation, at a generic row block -/

/-- What the body is called with at row block `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns (the output window's part as the obligation states it, by cases on idleness). -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ (dat1 V c).leavesExact 5 t)

set_option maxHeartbeats 800000 in
/-- The body at any row block: the inputs' buffers hold their blocks; the closed forms say which case the row block
    is in; at a later row block the output's buffer holds the accumulator's value after the row block before; so the
    case's triple applies. The invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    leaves1_5, after1_0, after1_1, after1_2, after1_3, after1_4, after1_5]
  by_cases h0 : t.val = 0
  · rw [acc1_5_first V c t h0]
    iintro ⟨HΦ, Ho, ⟨%d0, H0⟩, ⟨%d1, H1⟩, ⟨%d2, H2⟩, ⟨%d3, H3⟩, ⟨%d4, H4⟩, ⟨%d5, H5⟩⟩
    iapply (sound_kernel1_A c Set.univ (grid1.coords t) ((hcond1_1 t).mpr h0) (fun h => (hcond1_2 t).mp h h0)
      _ _ _ _ _ _ _ _ _ _ _ _ (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc1_5_later V c t h0]
    simp only [before1_5_B V c t h0]
    iintro ⟨HΦ, Ho, ⟨%d0, H0⟩, ⟨%d1, H1⟩, ⟨%d2, H2⟩, ⟨%d3, H3⟩, ⟨%d4, H4⟩, ⟨%d5, H5⟩⟩
    iapply (sound_kernel1_B c Set.univ (grid1.coords t) (fun h => h0 ((hcond1_1 t).mp h)) ((hcond1_2 t).mpr h0)
      _ _ _ _ _ _ _ _ _ _ _ _ (iblk1 V c 0 t) (iblk1 V c 1 t) (iblk1 V c 2 t) (iblk1 V c 3 t) (iblk1 V c 4 t)
      (acc1_5 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation for pass B, at every row block. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.KFrameOfRun.lean ====
/-
  From the run of @main to its frame: each argument array's buffer, read back through the fold of boundary contents,
  holds its launch contents at the end (no host operation writes an argument; a kernel region reads it through an input
  window, whose array is never written back, or leaves it alone), and the result buffer holds what pass C's write-backs
  leave in its output window's array.
-/import proofs.«142963_g18348100288549_rerun558fix_267_53_alg».proof.Proof.KRun
import proofs.«142963_g18348100288549_rerun558fix_267_53_alg».proof.Proof.Gen.Kernel.Launch
import proofs.«142963_g18348100288549_rerun558fix_267_53_alg».proof.Proof.Gen.Kernel.Skeleton
import proofs.«142963_g18348100288549_rerun558fix_267_53_alg».proof.Proof.Gen.Kernel.Points
import proofs.«142963_g18348100288549_rerun558fix_267_53_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What a stretch of host operations leaves alone -/

/-- A reference none of the first stretch's operations writes keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The same for the second stretch, -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- and for the third. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-! # The arguments end as launched -/

/-- `main_arg0` ends as launched: no host operation writes it, and each kernel region either reads it through an input
    window or does not touch it. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl

/-- `main_arg1` ends as launched: no host operation writes it, and each kernel region either reads it through an input
    window or does not touch it. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := (W6_arr m ρ c 0).trans (((dat2 (V5 m ρ) c).arrAt_in 0 rfl _).trans (A_eq2 (V5 m ρ) c 0))
    _ = W4 m ρ c (Proc.devRef .tc main_arg1) := W5_of m ρ c main_arg1 (by decide)
    _ = W3 m ρ c (Proc.devRef .tc main_arg1) := (W4_arr m ρ c 0).trans (((dat1 (V3 m ρ) c).arrAt_in 0 rfl _).trans (A_eq1 (V3 m ρ) c 0))
    _ = W2 m ρ c (Proc.devRef .tc main_arg1) := W3_of m ρ c main_arg1 (by decide)
    _ = W1 m ρ c (Proc.devRef .tc main_arg1) := (W2_arr m ρ c 3).trans (((dat0 (V1 m ρ) c).arrAt_in 3 rfl _).trans (A_eq0 (V1 m ρ) c 3))
    _ = W0 m ρ c (Proc.devRef .tc main_arg1) := W1_of m ρ c main_arg1 (by decide)
    _ = m ((c : Thread nD τ).loc main_arg1) := rfl

/-- `main_arg2` ends as launched: no host operation writes it, and each kernel region either reads it through an input
    window or does not touch it. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := W1_of m ρ c main_arg2 (by decide)
    _ = m ((c : Thread nD τ).loc main_arg2) := rfl

/-- `main_arg3` ends as launched: no host operation writes it, and each kernel region either reads it through an input
    window or does not touch it. -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

/-- `main_arg4` ends as launched: no host operation writes it, and each kernel region either reads it through an input
    window or does not touch it. -/
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := (W4_arr m ρ c 3).trans (((dat1 (V3 m ρ) c).arrAt_in 3 rfl _).trans (A_eq1 (V3 m ρ) c 3))
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

/-- `main_arg5` ends as launched: no host operation writes it, and each kernel region either reads it through an input
    window or does not touch it. -/
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

/-! # The result buffer -/

/-- The result `main_v18` is pass C's output window's array: at the end it holds what the pipeline's write-backs leave there. -/
theorem W6_main_v18 (c : Dev nD) : W6 m ρ c (Proc.devRef .tc main_v18) = (dat2 (V5 m ρ) c).arrAt 3 cfg2.N :=
  W6_arr m ρ c 3

/-! # The frame -/

variable (hb0 : ∀ (V : (c : Dev nD) → (b : Ref sig .tc) → Buf (Elt F) ((c : Thread nD τ).loc b)) (c : Dev nD),
    BodyObligation (dat0 (F := F) V c) (defs₀ (F := F)) Variants.none () Set.univ)
  (hb1 : ∀ (V : (c : Dev nD) → (b : Ref sig .tc) → Buf (Elt F) ((c : Thread nD τ).loc b)) (c : Dev nD),
    BodyObligation (dat1 (F := F) V c) (defs₀ (F := F)) Variants.none () Set.univ)
  (hb2 : ∀ (V : (c : Dev nD) → (b : Ref sig .tc) → Buf (Elt F) ((c : Thread nD τ).loc b)) (c : Dev nD),
    BodyObligation (dat2 (F := F) V c) (defs₀ (F := F)) Variants.none () Set.univ)

include hb0 hb1 hb2 in
/-- THE FRAME at any `F`: at the compiled mesh, from any memory with zero counters, every weakly fair execution of @main
    on the TensorCores terminates, nothing faulting, and every final state has the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c)⟩) (run m ρ hb0 hb1 hb2)

end Cert.Kernel.Hand

end
-- ==== Proof.Claims.lean ====
/-
  The three frame claims and the idealization claim. The word-level kernel and its idealization are one printed text read
  at two instances, and one proof, generic in the instance, gives each its frame: @main is six segments (host operations,
  pass A, host operations, pass B, host operations, pass C), every kernel body meets its obligation at every row block,
  and no segment writes an argument array. The reference has no kernel: its frame is its run with the result dropped.
  The idealization rewrote no operation, so there is nothing to preserve.
-/
import proofs.«142963_g18348100288549_rerun558fix_267_53_alg».proof.Defs
import proofs.«142963_g18348100288549_rerun558fix_267_53_alg».proof.Proof.Region0
import proofs.«142963_g18348100288549_rerun558fix_267_53_alg».proof.Proof.Region1
import proofs.«142963_g18348100288549_rerun558fix_267_53_alg».proof.Proof.Region2
import proofs.«142963_g18348100288549_rerun558fix_267_53_alg».proof.Proof.FrameOfRun
import proofs.«142963_g18348100288549_rerun558fix_267_53_alg».proof.Proof.KRegion0
import proofs.«142963_g18348100288549_rerun558fix_267_53_alg».proof.Proof.KRegion1
import proofs.«142963_g18348100288549_rerun558fix_267_53_alg».proof.Proof.KRegion2
import proofs.«142963_g18348100288549_rerun558fix_267_53_alg».proof.Proof.KFrameOfRun
import proofs.«142963_g18348100288549_rerun558fix_267_53_alg».proof.Proof.Gen.Kernel
import proofs.«142963_g18348100288549_rerun558fix_267_53_alg».proof.Proof.Gen.KernelIdeal
import proofs.«142963_g18348100288549_rerun558fix_267_53_alg».proof.Proof.Gen.ReferenceIdeal
import proofs.«142963_g18348100288549_rerun558fix_267_53_alg».proof.Proof.Gen.Pre_finite_inputs
import proofs.«142963_g18348100288549_rerun558fix_267_53_alg».proof.Proof.Gen.ReferenceIdeal.Run

noncomputable section

namespace Cert.Proof.Claims

open Idealize.ShloMosaic Idealize.ShloMosaic.TcCoe Idealize.SL.Sem

theorem frame_k : Cert.frame_Kernel := fun m ρ _ =>
  Cert.Kernel.Hand.frame m ρ Cert.Kernel.Hand.body_obligation0 Cert.Kernel.Hand.body_obligation1 Cert.Kernel.Hand.body_obligation2

theorem frame_ki : Cert.frame_KernelIdeal := fun m ρ _ =>
  Cert.KernelIdeal.Hand.frame m ρ Cert.KernelIdeal.Hand.body_obligation0 Cert.KernelIdeal.Hand.body_obligation1
    Cert.KernelIdeal.Hand.body_obligation2

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

end Cert.Proof.Claims

end
-- ==== Proof.Spec.lean ====
/-
  The hypergraph convolution network this certificate is about, as ONE function of its six argument arrays.

  Inputs: node features X (10000 × 128), an incidence matrix H (10000 nodes × 5000 hyperedges), and two dense layers
  (W1, b1 : 128 → 128 and W2, b2 : 128 → 64). With the node degrees dv i = Σ_e H(i,e), the edge degrees
  de e = Σ_i H(i,e), a row scaling s i (the inverse square root of dv i + ε) and the edge scaling dei e = 1 / (de e + ε),
  one smoothing step sends a feature matrix x to
      i, c  ↦  s i · Σ_e H(i,e) · ( dei e · Σ_i' H(i',e) · ( s i' · x i' c ) ),
  that is D_v^(-1/2) H D_e^(-1) Hᵀ D_v^(-1/2) x. The network is: dense layer, smoothing, relu, dense layer, smoothing.

  The row scaling is a PARAMETER of the function, because the two programs compared spell it differently: one as
  1 / sqrt(dv + ε) (`sRef`), the other as rsqrt(dv + ε) (`sKer`). On the extended reals the two agree wherever
  dv + ε is not negative (`rsqrt_eq_div_sqrt`): at +∞ both are 0, at 0 both are +∞, at a positive real both are
  the reciprocal of the root. Below zero they differ: there the root is ⊥, whose inverse is 0, so 1 / sqrt is 0, while
  rsqrt is ⊥. This is why row sums of H that are not negative are asked for (`sKer_eq_sRef`).
-/
import Idealize.ShloMosaic.PureOps.Ideal
import Idealize.ShloMosaic.PureOps.Ideal.Laws
import Idealize.ShloMosaic.Lib.ValueIdx
import Idealize.ShloMosaic.Lib.IdealHost

noncomputable section

namespace Cert.Hgnn

open Idealize.ShloMosaic Idealize.ShloMosaic.ValueIdx
open scoped BigOperators

/-! ## The argument arrays, over literal shapes -/

/-- Node features, 10000 × 128. -/
abbrev ArrX : Type := (⟨2, ![10000, 128]⟩ : Shape).Idx → EReal
/-- The incidence matrix, 10000 nodes × 5000 hyperedges. -/
abbrev ArrH : Type := (⟨2, ![10000, 5000]⟩ : Shape).Idx → EReal
/-- The first layer's weights, 128 × 128. -/
abbrev ArrW1 : Type := (⟨2, ![128, 128]⟩ : Shape).Idx → EReal
/-- The first layer's bias, 128. -/
abbrev ArrB1 : Type := (⟨1, ![128]⟩ : Shape).Idx → EReal
/-- The second layer's weights, 128 × 64. -/
abbrev ArrW2 : Type := (⟨2, ![128, 64]⟩ : Shape).Idx → EReal
/-- The second layer's bias, 64. -/
abbrev ArrB2 : Type := (⟨1, ![64]⟩ : Shape).Idx → EReal
/-- The result, 10000 × 64. -/
abbrev ArrOut : Type := (⟨2, ![10000, 64]⟩ : Shape).Idx → EReal

/-! ## The two constants -/

/-- ε, the f32 nearest 1e-12. -/
def eps : EReal := Ideal.ofBits .f32 0x2B8CBCCC#32
/-- The f32 one. -/
def one : EReal := Ideal.ofBits .f32 0x3F800000#32

theorem one_eq : one = 1 := Ideal.ofBits_one_f32

/-! ## Degrees and scalings -/

/-- The degree of node `i`: the sum of row `i` of H. -/
def dv (H : ArrH) (i : Fin 10000) : EReal := ∑ e : Fin 5000, H (ix2 i e)
/-- The degree of hyperedge `e`: the sum of column `e` of H. -/
def de (H : ArrH) (e : Fin 5000) : EReal := ∑ i : Fin 10000, H (ix2 i e)
/-- The edge scaling 1 / (de e + ε). -/
def dei (H : ArrH) (e : Fin 5000) : EReal := Ideal.div one (de H e + eps)
/-- The row scaling spelt 1 / sqrt (dv i + ε). -/
def sRef (H : ArrH) (i : Fin 10000) : EReal := Ideal.div one (Ideal.sqrt (dv H i + eps))
/-- The row scaling spelt rsqrt (dv i + ε). -/
def sKer (H : ArrH) (i : Fin 10000) : EReal := Ideal.rsqrt (dv H i + eps)

/-! ## The network, stage by stage, for a given row scaling `s` -/

section Stages
variable (s : Fin 10000 → EReal) (X : ArrX) (H : ArrH) (W1 : ArrW1) (b1 : ArrB1) (W2 : ArrW2) (b2 : ArrB2)

/-- First dense layer: X · W1 + b1. -/
def x1 (i : Fin 10000) (c : Fin 128) : EReal := (∑ k : Fin 128, X (ix2 i k) * W1 (ix2 k c)) + b1 (ix1 c)
/-- Gathered onto hyperedges: Σ_i H(i,e) · (s i · x1 i c). -/
def g1 (e : Fin 5000) (c : Fin 128) : EReal := ∑ i : Fin 10000, H (ix2 i e) * (s i * x1 X W1 b1 i c)
/-- Scaled by the edge degree. -/
def m1 (e : Fin 5000) (c : Fin 128) : EReal := dei H e * g1 s X H W1 b1 e c
/-- Scattered back to nodes: Σ_e H(i,e) · m1 e c. -/
def y1 (i : Fin 10000) (c : Fin 128) : EReal := ∑ e : Fin 5000, H (ix2 i e) * m1 s X H W1 b1 e c
/-- Row scaling, then relu. -/
def z (i : Fin 10000) (c : Fin 128) : EReal := max (s i * y1 s X H W1 b1 i c) 0
/-- Second dense layer: z · W2 + b2. -/
def x2 (i : Fin 10000) (d : Fin 64) : EReal := (∑ c : Fin 128, z s X H W1 b1 i c * W2 (ix2 c d)) + b2 (ix1 d)
/-- Gathered onto hyperedges: Σ_i H(i,e) · (s i · x2 i d). -/
def g2 (e : Fin 5000) (d : Fin 64) : EReal := ∑ i : Fin 10000, H (ix2 i e) * (s i * x2 s X H W1 b1 W2 b2 i d)
/-- Scaled by the edge degree. -/
def m2 (e : Fin 5000) (d : Fin 64) : EReal := dei H e * g2 s X H W1 b1 W2 b2 e d
/-- Scattered back to nodes: Σ_e H(i,e) · m2 e d. -/
def y2 (i : Fin 10000) (d : Fin 64) : EReal := ∑ e : Fin 5000, H (ix2 i e) * m2 s X H W1 b1 W2 b2 e d

/-- The result array: the second smoothing's row scaling applied to `y2`. -/
def G : ArrOut := fun j => s (j 0) * y2 s X H W1 b1 W2 b2 (j 0) (j 1)

/-- The result at the index with coordinates `i`, `d`. -/
theorem G_apply (i : Fin 10000) (d : Fin 64) :
    G s X H W1 b1 W2 b2 (ix2 i d) = s i * y2 s X H W1 b1 W2 b2 i d := rfl

end Stages

/-! ## The two spellings of the row scaling -/

/-- Where `x` is not negative, rsqrt x = 1 / sqrt x on the extended reals: at +∞ both are 0 (the root is +∞ and its
    inverse 0), at 0 both are +∞ (a positive numerator over zero), at a positive real both are the reciprocal of the
    root. -/
theorem rsqrt_eq_div_sqrt (x : EReal) (hx : 0 ≤ x) : Ideal.rsqrt x = Ideal.div one (Ideal.sqrt x) := by
  rw [one_eq]
  induction x using EReal.rec with
  | bot => exact absurd hx (by simp)
  | top =>
    rw [Ideal.rsqrt_top, Ideal.sqrt_top, Ideal.div, if_neg (by simp), EReal.inv_top, mul_zero]
  | coe r =>
    have hr : 0 ≤ r := by exact_mod_cast hx
    rw [Ideal.rsqrt_coe, Ideal.sqrt_coe, if_neg (not_lt.mpr hr), if_neg (not_lt.mpr hr), Ideal.div]
    by_cases h0 : r = 0
    · subst h0
      rw [if_pos rfl, Real.sqrt_zero, EReal.coe_zero, if_pos rfl, if_pos (by norm_num)]
    · have hs : Real.sqrt r ≠ 0 := by
        rw [Ne, Real.sqrt_eq_zero hr]; exact h0
      rw [if_neg h0, if_neg (by exact_mod_cast hs), one_mul, EReal.coe_inv]

/-- ε is a positive real, in particular not negative. -/
theorem eps_nonneg : 0 ≤ eps := by
  unfold eps
  simp [Ideal.ofBits, Ideal.ieee, -EReal.coe_mul]

/-- With row sums of H that are not negative, the two spellings of the row scaling are one function. -/
theorem sKer_eq_sRef (H : ArrH) (h : ∀ i : Fin 10000, 0 ≤ dv H i) : sKer H = sRef H :=
  funext fun i => rsqrt_eq_div_sqrt _ (add_nonneg (h i) eps_nonneg)

end Cert.Hgnn

end
-- ==== Proof.Glue.lean ====
/-
  The host operations between the kernel regions, read at an index (extended reals): the bias rows are the bias vectors
  with a unit axis added; after pass A the inverse edge degree is 1 / (column sum + eps) and the matrix handed to pass B
  is the transposed accumulator scaled by it row by row; after pass B the matrix handed to pass C is pass B's
  transposed accumulator scaled the same way.
-/
import proofs.«142963_g18348100288549_rerun558fix_267_53_alg».proof.Proof.FrameOfRun
import proofs.«142963_g18348100288549_rerun558fix_267_53_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Hand Cert.Hgnn Idealize.ShloMosaic.ValueIdx

variable (m : (ℓ : Loc nD τ sig) → Buf (Elt Ideal) ℓ) (ρ : Dev nD → PrngReg)

/-- A buffer of extended reals of a rank-two shape, as the function on its indices that it is. -/
abbrev rd2 {n k : Nat} (f : (⟨2, ![n, k]⟩ : Shape).Idx → EReal) : (⟨2, ![n, k]⟩ : Shape).Idx → EReal := f
/-- The same for a rank-one shape. -/
abbrev rd1 {n : Nat} (f : (⟨1, ![n]⟩ : Shape).Idx → EReal) : (⟨1, ![n]⟩ : Shape).Idx → EReal := f

/-- The first bias row: the bias vector with a leading unit axis. -/
theorem glue_b1 (c : Dev nD) (c' : Fin 128) :
    (W1 m ρ c (Proc.devRef .tc main_v0) : S1x128.Idx → EReal) (ix2 (0 : Fin 1) c') = m ((c : Thread nD τ).loc main_arg3) (ix1 c') := by
  have h : (W1 m ρ c (Proc.devRef .tc main_v0) : S1x128.Idx → EReal)
      = shapeCast S1x128 (m ((c : Thread nD τ).loc main_arg3) : S128.Idx → EReal) shapeCasts_S128_S1x128 := by
    show StableHlo.after hostOps0 _ (Proc.devRef .tc main_v0) = _
    after_results
    rfl
  rw [h]
  exact shapeCast_a_1a_apply _ _ 0 c'

/-- The second bias row. -/
theorem glue_b2 (c : Dev nD) (d : Fin 64) :
    (W1 m ρ c (Proc.devRef .tc main_v1) : S1x64.Idx → EReal) (ix2 (0 : Fin 1) d) = m ((c : Thread nD τ).loc main_arg5) (ix1 d) := by
  have h : (W1 m ρ c (Proc.devRef .tc main_v1) : S1x64.Idx → EReal)
      = shapeCast S1x64 (m ((c : Thread nD τ).loc main_arg5) : S64.Idx → EReal) shapeCasts_S64_S1x64 := by
    show StableHlo.after hostOps0 _ (Proc.devRef .tc main_v1) = _
    after_results
    rfl
  rw [h]
  exact shapeCast_a_1a_apply _ _ 0 d

/-- The inverse edge degree column: 1 / (column sum + eps). -/
theorem glue_dei (c : Dev nD) (e : Fin 5000) :
    (W3 m ρ c (Proc.devRef .tc main_v8) : S5000x1.Idx → EReal) (ix2 e (0 : Fin 1))
      = Ideal.div one (rd2 (n := 1) (k := 5000) (W2 m ρ c (Proc.devRef .tc main_v2_1)) (ix2 (0 : Fin 1) e) + eps) := by
  have h : (W3 m ρ c (Proc.devRef .tc main_v8) : S5000x1.Idx → EReal)
      = broadcastInDim S5000x1 ![0] bcast_S5000_S5000x1_0
            (Host.divf (broadcastInDim S5000 ![] bcast_S_S5000 (constant (F := Ideal) S_ .f32 0x3F800000#32))
              (addf (shapeCast S5000 (W2 m ρ c (Proc.devRef .tc main_v2_1) : S1x5000.Idx → EReal) shapeCasts_S1x5000_S5000)
                (broadcastInDim S5000 ![] bcast_S_S5000 (constant (F := Ideal) S_ .f32 0x2B8CBCCC#32)))) := by
    show StableHlo.after hostOps1 _ (Proc.devRef .tc main_v8) = _
    after_results
    rfl
  rw [h]
  refine (broadcastInDim_apply _ _ _ (ix2 e (0 : Fin 1)) (ix1 e) (fun a => match a with | ⟨0, _⟩ => rfl)).trans ?_
  show Ideal.div _ (_ + _) = _
  congr 1
  congr 1
  exact shapeCast_1a_a_apply _ _ e

/-- The matrix handed to pass B: pass A's transposed accumulator, row `e` scaled by the inverse edge degree. -/
theorem glue_b1m (c : Dev nD) (e : Fin 5000) (c' : Fin 128) :
    rd2 (n := 5000) (k := 128) (W3 m ρ c (Proc.devRef .tc main_v12)) (ix2 e c')
      = rd2 (n := 128) (k := 5000) (W2 m ρ c (Proc.devRef .tc main_v2_0)) (ix2 c' e)
        * Ideal.div one (rd2 (n := 1) (k := 5000) (W2 m ρ c (Proc.devRef .tc main_v2_1)) (ix2 (0 : Fin 1) e) + eps) := by
  have h : (W3 m ρ c (Proc.devRef .tc main_v12) : S5000x128.Idx → EReal)
      = truncf .bf16 (mulf (transpose S5000x128 [1, 0] (W2 m ρ c (Proc.devRef .tc main_v2_0) : S128x5000.Idx → EReal) transposes_S128x5000_S5000x128_1_0)
          (broadcastInDim S5000x128 ![0, 1] bcast_S5000x1_S5000x128_0_1
            (broadcastInDim S5000x1 ![0] bcast_S5000_S5000x1_0
              (Host.divf (broadcastInDim S5000 ![] bcast_S_S5000 (constant (F := Ideal) S_ .f32 0x3F800000#32))
                (addf (shapeCast S5000 (W2 m ρ c (Proc.devRef .tc main_v2_1) : S1x5000.Idx → EReal) shapeCasts_S1x5000_S5000)
                  (broadcastInDim S5000 ![] bcast_S_S5000 (constant (F := Ideal) S_ .f32 0x2B8CBCCC#32))))))) bitsLt_bf16_f32 := by
    show StableHlo.after hostOps1 _ (Proc.devRef .tc main_v12) = _
    after_results
    rfl
  unfold rd2
  rw [h]
  show (_ : EReal) * (_ : EReal) = _
  refine congrArg₂ (· * ·) ?_ ?_
  · exact transpose_ix2_apply _ _ e c'
  · refine (broadcastInDim_apply _ _ _ (ix2 e c') (ix2 e (0 : Fin 1)) (fun a => match a with | ⟨0, _⟩ => rfl | ⟨1, _⟩ => rfl)).trans ?_
    refine (broadcastInDim_apply _ _ _ (ix2 e (0 : Fin 1)) (ix1 e) (fun a => match a with | ⟨0, _⟩ => rfl)).trans ?_
    show Ideal.div _ (_ + _) = _
    congr 1
    congr 1
    exact shapeCast_1a_a_apply _ _ e

/-- The matrix handed to pass C: pass B's transposed accumulator, row `e` scaled by the inverse edge degree column. -/
theorem glue_b2m (c : Dev nD) (e : Fin 5000) (d : Fin 64) :
    rd2 (n := 5000) (k := 64) (W5 m ρ c (Proc.devRef .tc main_v17)) (ix2 e d)
      = rd2 (n := 64) (k := 5000) (W4 m ρ c (Proc.devRef .tc main_v13)) (ix2 d e)
        * rd2 (n := 5000) (k := 1) (W4 m ρ c (Proc.devRef .tc main_v8)) (ix2 e (0 : Fin 1)) := by
  have h : (W5 m ρ c (Proc.devRef .tc main_v17) : S5000x64.Idx → EReal)
      = truncf (F := Ideal) .bf16 (mulf (transpose S5000x64 [1, 0] (W4 m ρ c (Proc.devRef .tc main_v13) : S64x5000.Idx → EReal) transposes_S64x5000_S5000x64_1_0)
          (broadcastInDim S5000x64 ![0, 1] bcast_S5000x1_S5000x64_0_1 (W4 m ρ c (Proc.devRef .tc main_v8) : S5000x1.Idx → EReal))) bitsLt_bf16_f32 := by
    show StableHlo.after hostOps2 _ (Proc.devRef .tc main_v17) = _
    after_results
  unfold rd2
  rw [h]
  show (_ : EReal) * (_ : EReal) = _
  refine congrArg₂ (· * ·) ?_ ?_
  · exact transpose_ix2_apply _ _ e d
  · exact broadcastInDim_apply _ _ _ (ix2 e d) (ix2 e (0 : Fin 1)) (fun a => match a with | ⟨0, _⟩ => rfl | ⟨1, _⟩ => rfl)

end Cert.KernelIdeal.Glue

end
-- ==== Proof.Walk.lean ====
/-
  Which boundary contents each later segment reads: an argument array reaches every region as launched; pass A's three
  result arrays reach passes B and C (and the host operations between) as pass A left them; pass B's result and the
  inverse edge degree column reach the last host stretch as left.
-/
import proofs.«142963_g18348100288549_rerun558fix_267_53_alg».proof.Proof.FrameOfRun

set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Hand

variable (m : (ℓ : Loc nD τ sig) → Buf (Elt F) ℓ) (ρ : Dev nD → PrngReg) (c : Dev nD)

/-! ## At pass A's entry -/
theorem W1_arg0 : W1 m ρ c (Proc.devRef .tc main_arg0) = m ((c : Thread nD τ).loc main_arg0) := (W1_of m ρ c main_arg0 (by decide)).trans rfl
theorem W1_arg1 : W1 m ρ c (Proc.devRef .tc main_arg1) = m ((c : Thread nD τ).loc main_arg1) := (W1_of m ρ c main_arg1 (by decide)).trans rfl
theorem W1_arg2 : W1 m ρ c (Proc.devRef .tc main_arg2) = m ((c : Thread nD τ).loc main_arg2) := (W1_of m ρ c main_arg2 (by decide)).trans rfl

/-! ## Pass A's results -/
theorem W2_v2_0 : W2 m ρ c (Proc.devRef .tc main_v2_0) = (dat0 (V1 m ρ) c).arrAt 4 cfg0.N := W2_arr m ρ c 4
theorem W2_v2_1 : W2 m ρ c (Proc.devRef .tc main_v2_1) = (dat0 (V1 m ρ) c).arrAt 5 cfg0.N := W2_arr m ρ c 5
theorem W2_v2_2 : W2 m ρ c (Proc.devRef .tc main_v2_2) = (dat0 (V1 m ρ) c).arrAt 6 cfg0.N := W2_arr m ρ c 6

/-! ## At pass B's entry -/
theorem W3_arg1 : W3 m ρ c (Proc.devRef .tc main_arg1) = m ((c : Thread nD τ).loc main_arg1) :=
  calc W3 m ρ c (Proc.devRef .tc main_arg1)
    _ = W2 m ρ c (Proc.devRef .tc main_arg1) := W3_of m ρ c main_arg1 (by decide)
    _ = W1 m ρ c (Proc.devRef .tc main_arg1) := (W2_arr m ρ c 3).trans (((dat0 (V1 m ρ) c).arrAt_in 3 rfl _).trans (A_eq0 (V1 m ρ) c 3))
    _ = m ((c : Thread nD τ).loc main_arg1) := W1_arg1 m ρ c
theorem W3_arg4 : W3 m ρ c (Proc.devRef .tc main_arg4) = m ((c : Thread nD τ).loc main_arg4) :=
  calc W3 m ρ c (Proc.devRef .tc main_arg4)
    _ = W2 m ρ c (Proc.devRef .tc main_arg4) := W3_of m ρ c main_arg4 (by decide)
    _ = W1 m ρ c (Proc.devRef .tc main_arg4) := W2_of_ne m ρ c main_arg4 (by decide)
    _ = m ((c : Thread nD τ).loc main_arg4) := (W1_of m ρ c main_arg4 (by decide)).trans rfl
theorem W3_v1 : W3 m ρ c (Proc.devRef .tc main_v1) = W1 m ρ c (Proc.devRef .tc main_v1) :=
  (W3_of m ρ c main_v1 (by decide)).trans (W2_of_ne m ρ c main_v1 (by decide))
theorem W3_v2_2 : W3 m ρ c (Proc.devRef .tc main_v2_2) = (dat0 (V1 m ρ) c).arrAt 6 cfg0.N :=
  (W3_of m ρ c main_v2_2 (by decide)).trans (W2_v2_2 m ρ c)

/-! ## Pass B's result, and what reaches pass C -/
theorem W4_v13 : W4 m ρ c (Proc.devRef .tc main_v13) = (dat1 (V3 m ρ) c).arrAt 5 cfg1.N := W4_arr m ρ c 5
theorem W4_v8 : W4 m ρ c (Proc.devRef .tc main_v8) = W3 m ρ c (Proc.devRef .tc main_v8) := W4_of_ne m ρ c main_v8 (by decide)
theorem W5_arg1 : W5 m ρ c (Proc.devRef .tc main_arg1) = m ((c : Thread nD τ).loc main_arg1) :=
  calc W5 m ρ c (Proc.devRef .tc main_arg1)
    _ = W4 m ρ c (Proc.devRef .tc main_arg1) := W5_of m ρ c main_arg1 (by decide)
    _ = W3 m ρ c (Proc.devRef .tc main_arg1) := (W4_arr m ρ c 0).trans (((dat1 (V3 m ρ) c).arrAt_in 0 rfl _).trans (A_eq1 (V3 m ρ) c 0))
    _ = m ((c : Thread nD τ).loc main_arg1) := W3_arg1 m ρ c
theorem W5_v2_2 : W5 m ρ c (Proc.devRef .tc main_v2_2) = (dat0 (V1 m ρ) c).arrAt 6 cfg0.N :=
  calc W5 m ρ c (Proc.devRef .tc main_v2_2)
    _ = W4 m ρ c (Proc.devRef .tc main_v2_2) := W5_of m ρ c main_v2_2 (by decide)
    _ = W3 m ρ c (Proc.devRef .tc main_v2_2) := (W4_arr m ρ c 1).trans (((dat1 (V3 m ρ) c).arrAt_in 1 rfl _).trans (A_eq1 (V3 m ρ) c 1))
    _ = (dat0 (V1 m ρ) c).arrAt 6 cfg0.N := W3_v2_2 m ρ c

end Cert.KernelIdeal.Walk

end
-- ==== Proof.KerSpec.lean ====
/-
  The same network, arranged the way a blocked computation takes it, and the theorem that this arrangement is the
  function G of Proof/Spec.lean.

  The 10000 rows are cut into 25 blocks of 400 consecutive rows (`blk t r` is row 400·t + r). Whatever is summed over
  all rows is summed block by block, the first block's sum kept and each later block's sum added to the running value
  (`accum`). Every product of matrices is written as zero plus the sum of the products; the column sums of H are written
  as the product of a row of ones with H; and the scalings multiply from the right where Spec.lean has them on the left.
  None of this changes the value: zero is neutral for addition, one for multiplication, multiplication of extended reals
  commutes, addition is associative and commutative so the accumulated block sums are the sum over the blocks, and
  (t, r) ↦ 400·t + r is a bijection from pairs onto rows (`sum_blocks`). No distributivity is used, and nothing about
  the entries being finite. The row scaling `s` stays a parameter, as in G.
-/
import proofs.«142963_g18348100288549_rerun558fix_267_53_alg».proof.Proof.Spec

noncomputable section

namespace Cert.Hgnn

open Idealize.ShloMosaic Idealize.ShloMosaic.ValueIdx
open scoped BigOperators

/-! ## Ones, blocks, accumulation -/

/-- The bf16 one. -/
def oneB : EReal := Ideal.ofBits .bf16 0x3F80#16

theorem oneB_eq : oneB = 1 := Ideal.ofBits_one_bf16

/-- Row `r` of block `t`: row 400·t + r. -/
def blk (t : Fin 25) (r : Fin 400) : Fin 10000 := ⟨400 * t.val + r.val, by have := t.isLt; have := r.isLt; omega⟩

theorem blk_val (t : Fin 25) (r : Fin 400) : (blk t r).val = 400 * t.val + r.val := rfl

/-- The block a row lies in. -/
def blkT (i : Fin 10000) : Fin 25 := ⟨i.val / 400, by have := i.isLt; omega⟩
/-- A row's place inside its block. -/
def blkR (i : Fin 10000) : Fin 400 := ⟨i.val % 400, Nat.mod_lt _ (by norm_num)⟩

theorem blkT_val (i : Fin 10000) : (blkT i).val = i.val / 400 := rfl
theorem blkR_val (i : Fin 10000) : (blkR i).val = i.val % 400 := rfl

/-- Every row is row `i % 400` of block `i / 400`. -/
theorem blk_blkT_blkR (i : Fin 10000) : blk (blkT i) (blkR i) = i :=
  Fin.ext (Nat.div_add_mod i.val 400)

theorem blk_surj (i : Fin 10000) : ∃ (t : Fin 25) (r : Fin 400), i = blk t r :=
  ⟨blkT i, blkR i, (blk_blkT_blkR i).symm⟩

theorem blkT_blk (t : Fin 25) (r : Fin 400) : blkT (blk t r) = t :=
  Fin.ext (by show (400 * t.val + r.val) / 400 = t.val; have := r.isLt; omega)

theorem blkR_blk (t : Fin 25) (r : Fin 400) : blkR (blk t r) = r :=
  Fin.ext (by show (400 * t.val + r.val) % 400 = r.val; have := r.isLt; omega)

/-- The running value after blocks 0 … n: the first block's value, then each later block's added on the right. -/
def accum {α : Type} [Add α] (P : Fin 25 → α) : (n : ℕ) → n < 25 → α
  | 0, _ => P 0
  | n + 1, h => accum P n (by omega) + P ⟨n + 1, h⟩

/-- The running value after blocks 0 … n is the sum of their values. -/
theorem accum_eq_sum_le {α : Type} [AddCommMonoid α] (P : Fin 25 → α) :
    ∀ (n : ℕ) (h : n < 25), accum P n h = ∑ i : Fin (n + 1), P ⟨i.val, by have := i.isLt; omega⟩
  | 0, _ => by rw [accum, Fin.sum_univ_one]; rfl
  | n + 1, h => by
    rw [accum, accum_eq_sum_le P n (by omega)]
    exact (Fin.sum_univ_castSucc (fun i : Fin (n + 1 + 1) => P ⟨i.val, by have := i.isLt; omega⟩)).symm

/-- After the last block the running value is the sum over all 25 blocks. -/
theorem accum_eq_sum {α : Type} [AddCommMonoid α] (P : Fin 25 → α) (h : 24 < 25) : accum P 24 h = ∑ t : Fin 25, P t :=
  accum_eq_sum_le P 24 h

/-- A sum over the rows, taken block by block. -/
theorem sum_blocks {α : Type} [AddCommMonoid α] (f : Fin 10000 → α) :
    ∑ t : Fin 25, ∑ r : Fin 400, f (blk t r) = ∑ i : Fin 10000, f i := by
  rw [← Fintype.sum_prod_type' (f := fun (t : Fin 25) (r : Fin 400) => f (blk t r))]
  refine Fintype.sum_equiv (finProdFinEquiv (m := 25) (n := 400)) _ _ fun p => ?_
  refine congrArg f (Fin.ext ?_)
  show 400 * p.1.val + p.2.val = p.2.val + 400 * p.1.val
  omega

/-! ## The blocked arrangement -/

/-- The row scaling as a block forms it: rsqrt of (zero plus the row's sum, plus ε). -/
def rowScale (H : ArrH) (t : Fin 25) (r : Fin 400) : EReal :=
  Ideal.rsqrt ((0 + ∑ e : Fin 5000, H (ix2 (blk t r) e)) + eps)

theorem rowScale_eq (H : ArrH) (t : Fin 25) (r : Fin 400) : rowScale H t r = sKer H (blk t r) := by
  unfold rowScale sKer dv
  rw [zero_add]

section Arrangement
variable (s : Fin 10000 → EReal) (X : ArrX) (H : ArrH) (W1 : ArrW1) (b1 : ArrB1) (W2 : ArrW2) (b2 : ArrB2)

/-- First sweep, block `t`: the first dense layer's row, scaled from the right. -/
def a1B (t : Fin 25) (r : Fin 400) (c : Fin 128) : EReal :=
  ((0 + ∑ k : Fin 128, X (ix2 (blk t r) k) * W1 (ix2 k c)) + b1 (ix1 c)) * s (blk t r)
/-- First sweep, block `t`: the block's share of the gather onto hyperedges (transposed layout: feature, then edge). -/
def g1B (t : Fin 25) (c : Fin 128) (e : Fin 5000) : EReal :=
  0 + ∑ r : Fin 400, a1B s X W1 b1 t r c * H (ix2 (blk t r) e)
/-- First sweep, block `t`: the block's share of the edge degrees, as ones times H. -/
def deB (t : Fin 25) (e : Fin 5000) : EReal := 0 + ∑ r : Fin 400, oneB * H (ix2 (blk t r) e)
/-- The gather onto hyperedges, accumulated over the blocks. -/
def g1K (c : Fin 128) (e : Fin 5000) : EReal := accum (fun t => g1B s X H W1 b1 t c e) 24 (by omega)
/-- The edge degrees, accumulated over the blocks. -/
def deK (e : Fin 5000) : EReal := accum (fun t => deB H t e) 24 (by omega)
/-- The edge scaling from the accumulated degrees. -/
def deiK (e : Fin 5000) : EReal := Ideal.div one (deK H e + eps)
/-- The gathered features scaled by the edge degree, from the right. -/
def b1mK (e : Fin 5000) (c : Fin 128) : EReal := g1K s X H W1 b1 c e * deiK H e

/-- Second sweep, block `t`: scatter back to the block's rows, row scaling from the right, relu. -/
def zB (t : Fin 25) (r : Fin 400) (c : Fin 128) : EReal :=
  max ((0 + ∑ e : Fin 5000, H (ix2 (blk t r) e) * b1mK s X H W1 b1 e c) * s (blk t r)) 0
/-- Second sweep, block `t`: the second dense layer's row, scaled from the right. -/
def a2B (t : Fin 25) (r : Fin 400) (d : Fin 64) : EReal :=
  ((0 + ∑ c : Fin 128, zB s X H W1 b1 t r c * W2 (ix2 c d)) + b2 (ix1 d)) * s (blk t r)
/-- Second sweep, block `t`: the block's share of the second gather onto hyperedges. -/
def g2B (t : Fin 25) (d : Fin 64) (e : Fin 5000) : EReal :=
  0 + ∑ r : Fin 400, a2B s X H W1 b1 W2 b2 t r d * H (ix2 (blk t r) e)
/-- The second gather, accumulated over the blocks. -/
def g2K (d : Fin 64) (e : Fin 5000) : EReal := accum (fun t => g2B s X H W1 b1 W2 b2 t d e) 24 (by omega)
/-- The second gather scaled by the edge degree, from the right. -/
def b2mK (e : Fin 5000) (d : Fin 64) : EReal := g2K s X H W1 b1 W2 b2 d e * deiK H e

/-- Third sweep, block `t`: scatter back to the block's rows and scale them. -/
def outK (t : Fin 25) (r : Fin 400) (d : Fin 64) : EReal :=
  s (blk t r) * (0 + ∑ e : Fin 5000, H (ix2 (blk t r) e) * b2mK s X H W1 b1 W2 b2 e d)

/-! ## Each piece is the corresponding stage of G -/

theorem a1B_eq (t : Fin 25) (r : Fin 400) (c : Fin 128) :
    a1B s X W1 b1 t r c = s (blk t r) * x1 X W1 b1 (blk t r) c := by
  unfold a1B x1
  rw [zero_add, mul_comm]

theorem g1B_eq (t : Fin 25) (c : Fin 128) (e : Fin 5000) :
    g1B s X H W1 b1 t c e = ∑ r : Fin 400, H (ix2 (blk t r) e) * (s (blk t r) * x1 X W1 b1 (blk t r) c) := by
  unfold g1B
  rw [zero_add]
  exact Finset.sum_congr rfl fun r _ => by rw [a1B_eq, mul_comm]

theorem g1K_eq (c : Fin 128) (e : Fin 5000) : g1K s X H W1 b1 c e = g1 s X H W1 b1 e c := by
  unfold g1K g1
  rw [accum_eq_sum]
  exact (Finset.sum_congr rfl fun t _ => g1B_eq s X H W1 b1 t c e).trans
    (sum_blocks fun i => H (ix2 i e) * (s i * x1 X W1 b1 i c))

theorem deB_eq (t : Fin 25) (e : Fin 5000) : deB H t e = ∑ r : Fin 400, H (ix2 (blk t r) e) := by
  unfold deB
  rw [zero_add, oneB_eq]
  exact Finset.sum_congr rfl fun r _ => one_mul _

theorem deK_eq (e : Fin 5000) : deK H e = de H e := by
  unfold deK de
  rw [accum_eq_sum]
  exact (Finset.sum_congr rfl fun t _ => deB_eq H t e).trans (sum_blocks fun i => H (ix2 i e))

theorem deiK_eq (e : Fin 5000) : deiK H e = dei H e := by
  unfold deiK dei
  rw [deK_eq]

theorem b1mK_eq (e : Fin 5000) (c : Fin 128) : b1mK s X H W1 b1 e c = m1 s X H W1 b1 e c := by
  unfold b1mK m1
  rw [g1K_eq, deiK_eq, mul_comm]

theorem zB_eq (t : Fin 25) (r : Fin 400) (c : Fin 128) :
    zB s X H W1 b1 t r c = z s X H W1 b1 (blk t r) c := by
  unfold zB z y1
  rw [zero_add, mul_comm]
  refine congrArg (fun v => max (s (blk t r) * v) 0) ?_
  exact Finset.sum_congr rfl fun e _ => by rw [b1mK_eq]

theorem a2B_eq (t : Fin 25) (r : Fin 400) (d : Fin 64) :
    a2B s X H W1 b1 W2 b2 t r d = s (blk t r) * x2 s X H W1 b1 W2 b2 (blk t r) d := by
  unfold a2B x2
  rw [zero_add, mul_comm]
  refine congrArg (fun v => s (blk t r) * (v + b2 (ix1 d))) ?_
  exact Finset.sum_congr rfl fun c _ => by rw [zB_eq]

theorem g2B_eq (t : Fin 25) (d : Fin 64) (e : Fin 5000) :
    g2B s X H W1 b1 W2 b2 t d e
      = ∑ r : Fin 400, H (ix2 (blk t r) e) * (s (blk t r) * x2 s X H W1 b1 W2 b2 (blk t r) d) := by
  unfold g2B
  rw [zero_add]
  exact Finset.sum_congr rfl fun r _ => by rw [a2B_eq, mul_comm]

theorem g2K_eq (d : Fin 64) (e : Fin 5000) : g2K s X H W1 b1 W2 b2 d e = g2 s X H W1 b1 W2 b2 e d := by
  unfold g2K g2
  rw [accum_eq_sum]
  exact (Finset.sum_congr rfl fun t _ => g2B_eq s X H W1 b1 W2 b2 t d e).trans
    (sum_blocks fun i => H (ix2 i e) * (s i * x2 s X H W1 b1 W2 b2 i d))

theorem b2mK_eq (e : Fin 5000) (d : Fin 64) : b2mK s X H W1 b1 W2 b2 e d = m2 s X H W1 b1 W2 b2 e d := by
  unfold b2mK m2
  rw [g2K_eq, deiK_eq, mul_comm]

/-- The blocked arrangement's result at row `r` of block `t` is G there, for every row scaling. -/
theorem outK_eq_G (t : Fin 25) (r : Fin 400) (d : Fin 64) :
    outK s X H W1 b1 W2 b2 t r d = G s X H W1 b1 W2 b2 (ix2 (blk t r) d) := by
  rw [G_apply]
  unfold outK y2
  rw [zero_add]
  refine congrArg (fun v => s (blk t r) * v) ?_
  exact Finset.sum_congr rfl fun e _ => by rw [b2mK_eq]

end Arrangement

end Cert.Hgnn

end
-- ==== Proof.BlockReads.lean ====
/-
  How the windows of pass B and pass C sit in their arrays, at a generic entry valuation `V`: a row-blocked window's
  block at row block `t` is rows 400·t … 400·t + 399 of its array, a window whose block is its whole array reads the
  array, the first column of a 400×128 block read as a 400×1 column, and which indices of an output array a row block's
  write-back covers. The relations between the printed index maps are decided once over the grid.
-/
import proofs.«142963_g18348100288549_rerun558fix_267_53_alg».proof.Proof.Dats
import Idealize.ShloMosaic.Lib.Pipeline.Value
import Idealize.ShloMosaic.Lib.ValueIdx

set_option maxRecDepth 16384

noncomputable section

namespace Cert.KernelIdeal.PassBC

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-! ## Pass C -/

/-- Pass C's printed index maps, decided once over the grid's 25 points: a row-blocked window is at block (t, 0) at
    point `t`, a window that is its whole array at block (0, 0). -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- Pass C's window 0 at row block `t`: element (x₀, x₁) of the block is element (400·t + x₀, x₁) of `main_arg1`. -/
theorem iblk2_0_apply (c : Dev nD) (t : Fin cfg2.N) (x : S400x5000.Idx) (i : S10000x5000.Idx)
    (h0 : (i 0).val = 400 * t.val + (x 0).val) (h1 : (i 1).val = (x 1).val) :
    (iblk2 V c 0 t : Vec F S400x5000 .f32) x = (V c main_arg1 : S10000x5000.Idx → Elt F .f32) i := by
  have e0 : win2_0.index t (0 : Fin 2) = t.val := (idx2 t).1
  have e1 : win2_0.index t (1 : Fin 2) = 0 := (idx2 t).2.1
  unfold iblk2
  rw [View.read_apply]
  show V c main_arg1 _ = V c main_arg1 _
  congr 1
  funext a
  apply Fin.ext
  match a with
  | ⟨0, _⟩ => show win2_0.index t (0 : Fin 2) * 400 + 1 * (x 0).val = (i 0).val; rw [e0, h0]; omega
  | ⟨1, _⟩ => show win2_0.index t (1 : Fin 2) * 5000 + 1 * (x 1).val = (i 1).val; rw [e1, h1]; omega

/-- Pass C's window 1 at row block `t`: element (x₀, x₁) of the block is element (400·t + x₀, x₁) of `main_v2_2`. -/
theorem iblk2_1_apply (c : Dev nD) (t : Fin cfg2.N) (x : S400x128.Idx) (i : S10000x128.Idx)
    (h0 : (i 0).val = 400 * t.val + (x 0).val) (h1 : (i 1).val = (x 1).val) :
    (iblk2 V c 1 t : Vec F S400x128 .f32) x = (V c main_v2_2 : S10000x128.Idx → Elt F .f32) i := by
  have e0 : win2_1.index t (0 : Fin 2) = t.val := (idx2 t).2.2.1
  have e1 : win2_1.index t (1 : Fin 2) = 0 := (idx2 t).2.2.2.1
  unfold iblk2
  rw [View.read_apply]
  show V c main_v2_2 _ = V c main_v2_2 _
  congr 1
  funext a
  apply Fin.ext
  match a with
  | ⟨0, _⟩ => show win2_1.index t (0 : Fin 2) * 400 + 1 * (x 0).val = (i 0).val; rw [e0, h0]; omega
  | ⟨1, _⟩ => show win2_1.index t (1 : Fin 2) * 128 + 1 * (x 1).val = (i 1).val; rw [e1, h1]; omega

/-- Pass C's window 2 is the whole of `main_v17` at every row block. -/
theorem iblk2_2_eq (c : Dev nD) (t : Fin cfg2.N) :
    (iblk2 V c 2 t : Vec F S5000x64 .bf16) = (V c main_v17 : S5000x64.Idx → Elt F .bf16) := by
  have e0 : win2_2.index t (0 : Fin 2) = 0 := (idx2 t).2.2.2.2.1
  have e1 : win2_2.index t (1 : Fin 2) = 0 := (idx2 t).2.2.2.2.2.1
  funext x
  unfold iblk2
  rw [View.read_apply]
  show V c main_v17 _ = V c main_v17 _
  congr 1
  funext a
  apply Fin.ext
  match a with
  | ⟨0, _⟩ => show win2_2.index t (0 : Fin 2) * 5000 + 1 * (x 0).val = (x 0).val; rw [e0]; omega
  | ⟨1, _⟩ => show win2_2.index t (1 : Fin 2) * 64 + 1 * (x 1).val = (x 1).val; rw [e1]; omega

/-- An index of the result array whose row lies in row block `t` is in the block pass C writes back at `t`. -/
theorem mem_blk2_3 (t : Fin cfg2.N) (i : S10000x64.Idx) (h : 400 * t.val ≤ (i 0).val ∧ (i 0).val < 400 * t.val + 400) :
    i ∈ ((cfg2.win 3).blk t).view.set := by
  have e0 : win2_3.index t (0 : Fin 2) = t.val := (idx2 t).2.2.2.2.2.2.1
  have e1 : win2_3.index t (1 : Fin 2) = 0 := (idx2 t).2.2.2.2.2.2.2
  show i ∈ ((View.whole main_v18).slice (win2_3.rect t)).set
  rw [View.set_slice_whole, Rect.mem_set_unit]
  intro a
  match a with
  | ⟨0, _⟩ =>
    show win2_3.index t (0 : Fin 2) * 400 ≤ (i 0).val ∧ (i 0).val < win2_3.index t (0 : Fin 2) * 400 + 400
    rw [e0]; omega
  | ⟨1, _⟩ =>
    show win2_3.index t (1 : Fin 2) * 64 ≤ (i 1).val ∧ (i 1).val < win2_3.index t (1 : Fin 2) * 64 + 64
    have : (i 1).val < 64 := idx2_lt1 i
    rw [e1]; omega

/-- The element of the result array under element `y` of the block written back at row block `t`. -/
theorem emb_blk2_3 (t : Fin cfg2.N) (y : S400x64.Idx) :
    ((((cfg2.win 3).blk t).view.emb y : S10000x64.Idx) 0).val = 400 * t.val + (y 0).val
    ∧ ((((cfg2.win 3).blk t).view.emb y : S10000x64.Idx) 1).val = (y 1).val := by
  have e0 : win2_3.index t (0 : Fin 2) = t.val := (idx2 t).2.2.2.2.2.2.1
  have e1 : win2_3.index t (1 : Fin 2) = 0 := (idx2 t).2.2.2.2.2.2.2
  constructor
  · show win2_3.index t (0 : Fin 2) * 400 + 1 * (y 0).val = _
    rw [e0]; omega
  · show win2_3.index t (1 : Fin 2) * 64 + 1 * (y 1).val = _
    rw [e1]; omega

/-! ## Pass B -/

/-- Pass B's printed index maps, decided once over the grid's 25 points: a row-blocked window is at block (t, 0) at
    point `t`, a window that is its whole array at block (0, 0). -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0 :=
  (by decide +kernel : ∀ t : Fin grid1.N, _)

/-- Pass B's window 0 at row block `t`: element (x₀, x₁) of the block is element (400·t + x₀, x₁) of `main_arg1`. -/
theorem iblk1_0_apply (c : Dev nD) (t : Fin cfg1.N) (x : S400x5000.Idx) (i : S10000x5000.Idx)
    (h0 : (i 0).val = 400 * t.val + (x 0).val) (h1 : (i 1).val = (x 1).val) :
    (iblk1 V c 0 t : Vec F S400x5000 .f32) x = (V c main_arg1 : S10000x5000.Idx → Elt F .f32) i := by
  have e0 : win1_0.index t (0 : Fin 2) = t.val := (idx1 t).1
  have e1 : win1_0.index t (1 : Fin 2) = 0 := (idx1 t).2.1
  unfold iblk1
  rw [View.read_apply]
  show V c main_arg1 _ = V c main_arg1 _
  congr 1
  funext a
  apply Fin.ext
  match a with
  | ⟨0, _⟩ => show win1_0.index t (0 : Fin 2) * 400 + 1 * (x 0).val = (i 0).val; rw [e0, h0]; omega
  | ⟨1, _⟩ => show win1_0.index t (1 : Fin 2) * 5000 + 1 * (x 1).val = (i 1).val; rw [e1, h1]; omega

/-- Pass B's window 1 at row block `t`: element (x₀, x₁) of the block is element (400·t + x₀, x₁) of `main_v2_2`. -/
theorem iblk1_1_apply (c : Dev nD) (t : Fin cfg1.N) (x : S400x128.Idx) (i : S10000x128.Idx)
    (h0 : (i 0).val = 400 * t.val + (x 0).val) (h1 : (i 1).val = (x 1).val) :
    (iblk1 V c 1 t : Vec F S400x128 .f32) x = (V c main_v2_2 : S10000x128.Idx → Elt F .f32) i := by
  have e0 : win1_1.index t (0 : Fin 2) = t.val := (idx1 t).2.2.1
  have e1 : win1_1.index t (1 : Fin 2) = 0 := (idx1 t).2.2.2.1
  unfold iblk1
  rw [View.read_apply]
  show V c main_v2_2 _ = V c main_v2_2 _
  congr 1
  funext a
  apply Fin.ext
  match a with
  | ⟨0, _⟩ => show win1_1.index t (0 : Fin 2) * 400 + 1 * (x 0).val = (i 0).val; rw [e0, h0]; omega
  | ⟨1, _⟩ => show win1_1.index t (1 : Fin 2) * 128 + 1 * (x 1).val = (i 1).val; rw [e1, h1]; omega

/-- Pass B's window 2 is the whole of `main_v12` at every row block. -/
theorem iblk1_2_eq (c : Dev nD) (t : Fin cfg1.N) :
    (iblk1 V c 2 t : Vec F S5000x128 .bf16) = (V c main_v12 : S5000x128.Idx → Elt F .bf16) := by
  have e0 : win1_2.index t (0 : Fin 2) = 0 := (idx1 t).2.2.2.2.1
  have e1 : win1_2.index t (1 : Fin 2) = 0 := (idx1 t).2.2.2.2.2.1
  funext x
  unfold iblk1
  rw [View.read_apply]
  show V c main_v12 _ = V c main_v12 _
  congr 1
  funext a
  apply Fin.ext
  match a with
  | ⟨0, _⟩ => show win1_2.index t (0 : Fin 2) * 5000 + 1 * (x 0).val = (x 0).val; rw [e0]; omega
  | ⟨1, _⟩ => show win1_2.index t (1 : Fin 2) * 128 + 1 * (x 1).val = (x 1).val; rw [e1]; omega

/-- Pass B's window 3 is the whole of `main_arg4` at every row block. -/
theorem iblk1_3_eq (c : Dev nD) (t : Fin cfg1.N) :
    (iblk1 V c 3 t : Vec F S128x64 .f32) = (V c main_arg4 : S128x64.Idx → Elt F .f32) := by
  have e0 : win1_3.index t (0 : Fin 2) = 0 := (idx1 t).2.2.2.2.2.2.1
  have e1 : win1_3.index t (1 : Fin 2) = 0 := (idx1 t).2.2.2.2.2.2.2.1
  funext x
  unfold iblk1
  rw [View.read_apply]
  show V c main_arg4 _ = V c main_arg4 _
  congr 1
  funext a
  apply Fin.ext
  match a with
  | ⟨0, _⟩ => show win1_3.index t (0 : Fin 2) * 128 + 1 * (x 0).val = (x 0).val; rw [e0]; omega
  | ⟨1, _⟩ => show win1_3.index t (1 : Fin 2) * 64 + 1 * (x 1).val = (x 1).val; rw [e1]; omega

/-- Pass B's window 4 is the whole of `main_v1` at every row block. -/
theorem iblk1_4_eq (c : Dev nD) (t : Fin cfg1.N) :
    (iblk1 V c 4 t : Vec F S1x64 .f32) = (V c main_v1 : S1x64.Idx → Elt F .f32) := by
  have e0 : win1_4.index t (0 : Fin 2) = 0 := (idx1 t).2.2.2.2.2.2.2.2.1
  have e1 : win1_4.index t (1 : Fin 2) = 0 := (idx1 t).2.2.2.2.2.2.2.2.2.1
  funext x
  unfold iblk1
  rw [View.read_apply]
  show V c main_v1 _ = V c main_v1 _
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 64 + 1 * (x 1).val = (x 1).val; rw [e1]; omega

/-- Every index of pass B's result array is in the one block it writes back, at every row block. -/
theorem mem_blk1_5 (t : Fin cfg1.N) (i : S64x5000.Idx) : i ∈ ((cfg1.win 5).blk t).view.set := by
  have e0 : win1_5.index t (0 : Fin 2) = 0 := (idx1 t).2.2.2.2.2.2.2.2.2.2.1
  have e1 : win1_5.index t (1 : Fin 2) = 0 := (idx1 t).2.2.2.2.2.2.2.2.2.2.2
  show i ∈ ((View.whole main_v13).slice (win1_5.rect t)).set
  rw [View.set_slice_whole, Rect.mem_set_unit]
  intro a
  match a with
  | ⟨0, _⟩ =>
    show win1_5.index t (0 : Fin 2) * 64 ≤ (i 0).val ∧ (i 0).val < win1_5.index t (0 : Fin 2) * 64 + 64
    have : (i 0).val < 64 := idx2_lt0 i
    rw [e0]; omega
  | ⟨1, _⟩ =>
    show win1_5.index t (1 : Fin 2) * 5000 ≤ (i 1).val ∧ (i 1).val < win1_5.index t (1 : Fin 2) * 5000 + 5000
    have : (i 1).val < 5000 := idx2_lt1 i
    rw [e1]; omega

/-- The block pass B writes back, read off a whole-array contents, is those contents. -/
theorem read_blk1_5 (t : Fin cfg1.N) (G : S64x5000.Idx → Elt F .f32) :
    (((cfg1.win 5).blk t).view.read (Elt F) G : Vec F S64x5000 .f32) = G := by
  have e0 : win1_5.index t (0 : Fin 2) = 0 := (idx1 t).2.2.2.2.2.2.2.2.2.2.1
  have e1 : win1_5.index t (1 : Fin 2) = 0 := (idx1 t).2.2.2.2.2.2.2.2.2.2.2
  funext x
  rw [View.read_apply]
  show G _ = G _
  congr 1
  funext a
  apply Fin.ext
  match a with
  | ⟨0, _⟩ => show win1_5.index t (0 : Fin 2) * 64 + 1 * (x 0).val = (x 0).val; rw [e0]; omega
  | ⟨1, _⟩ => show win1_5.index t (1 : Fin 2) * 5000 + 1 * (x 1).val = (x 1).val; rw [e1]; omega

/-! ## The first column of a 400×128 block -/

/-- Reading the first column of a 400×128 block as a 400×1 column: row `r` of the column is element (r, 0) of the block. -/
theorem ld_rcol_apply (X : Vec F S400x128 .f32) (r : Fin 400) :
    (View.ld X rcol : Vec F S400x1 .f32) (ix2 r 0) = X (ix2 r 0) := by
  show X (rcol.idx (ix2 r 0)) = X (ix2 r 0)
  congr 1
  funext a
  apply Fin.ext
  match a with
  | ⟨0, _⟩ => show 0 + 1 * r.val = r.val; omega
  | ⟨1, _⟩ => show 0 + 1 * 0 = 0; rfl

end Cert.KernelIdeal.PassBC

end
-- ==== Proof.PassB.lean ====
/-
  What pass B leaves in its result array, at a generic entry valuation `V` whose arrays are known. The result window is
  one block, the whole 64×5000 array, kept in its staging buffer across the 25 row blocks and written back after the
  last. After row block n the buffer holds, at feature d and hyperedge e, the first n + 1 blocks' shares of the second
  gather added up in order (by induction on n); after the last block that is g2K d e.
-/
import proofs.«142963_g18348100288549_rerun558fix_267_53_alg».proof.Proof.BlockReads
import proofs.«142963_g18348100288549_rerun558fix_267_53_alg».proof.Proof.KerSpec

set_option maxRecDepth 16384

noncomputable section

namespace Cert.KernelIdeal.PassBC

open Cert.KernelIdeal Cert.KernelIdeal.Gen
open Idealize.ShloMosaic Idealize.ShloMosaic.TcCoe Idealize.ShloMosaic.ValueIdx Idealize.SL.Sem
open Idealize.ShloMosaic.Pipeline (Dat)
open Cert.KernelIdeal.Hand Cert.Hgnn
open scoped BigOperators

variable (s : Fin 10000 → EReal) (X : ArrX) (H : ArrH) (W1 : ArrW1) (b1 : ArrB1) (W2 : ArrW2) (b2 : ArrB2)
variable (V : (c : Dev nD) → (b : Ref sig .tc) → Buf (Elt Ideal) ((c : Thread nD τ).loc b))

/-- A grid point of pass B as a row block. -/
abbrev rowBlk1 (t : Fin cfg1.N) : Fin 25 := ⟨t.val, lt_of_lt_of_eq t.isLt (N_1 : cfg1.N = 25)⟩

/-- Pass B's result array as one function of its indices. -/
def g2Arr : S64x5000.Idx → EReal := fun i => g2K s X H W1 b1 W2 b2 (i 0) (i 1)

/-- One row block's contribution at an index, over blocks known to be rows of H, the row scale, the scaled first
    gather, the second layer's weights and its bias: the block's share of the second gather. -/
theorem payB_at
    (hpay1 : ∀ (v0 : Vec Ideal S400x5000 .f32) (v2 : Vec Ideal S400x1 .f32) (v4 : Vec Ideal S5000x128 .bf16) (v11 : Vec Ideal S128x64 .f32)
      (v13 : Vec Ideal S1x64 .f32) (d : Fin 64) (e : Fin 5000),
      k1_pay1 (F := Ideal) v0 v2 v4 v11 v13 (ix2 d e)
        = 0 + ∑ r : Fin 400, (((0 + ∑ c : Fin 128, max ((0 + ∑ e' : Fin 5000, v0 (ix2 r e') * v4 (ix2 e' c)) * v2 (ix2 r 0)) 0 * v11 (ix2 c d))
            + v13 (ix2 0 d)) * v2 (ix2 r 0)) * v0 (ix2 r e))
    (v0 : Vec Ideal S400x5000 .f32) (v2 : Vec Ideal S400x1 .f32) (v4 : Vec Ideal S5000x128 .bf16) (v11 : Vec Ideal S128x64 .f32)
    (v13 : Vec Ideal S1x64 .f32) (t : Fin 25)
    (h0 : ∀ (r : Fin 400) (e : Fin 5000), v0 (ix2 r e) = H (ix2 (blk t r) e))
    (h2 : ∀ r : Fin 400, v2 (ix2 r 0) = s (blk t r))
    (h4 : ∀ (e : Fin 5000) (c' : Fin 128), v4 (ix2 e c') = b1mK s X H W1 b1 e c')
    (h11 : ∀ (c' : Fin 128) (d : Fin 64), v11 (ix2 c' d) = W2 (ix2 c' d))
    (h13 : ∀ d : Fin 64, v13 (ix2 0 d) = b2 (ix1 d))
    (d : Fin 64) (e : Fin 5000) :
    k1_pay1 (F := Ideal) v0 v2 v4 v11 v13 (ix2 d e) = g2B s X H W1 b1 W2 b2 t d e := by
  rw [hpay1]
  unfold g2B a2B zB
  simp only [h0, h2, h4, h11, h13]

/-- The contribution of row block `t` of the grid, read off the entry valuation. -/
theorem contribB
    (hpay1 : ∀ (v0 : Vec Ideal S400x5000 .f32) (v2 : Vec Ideal S400x1 .f32) (v4 : Vec Ideal S5000x128 .bf16) (v11 : Vec Ideal S128x64 .f32)
      (v13 : Vec Ideal S1x64 .f32) (d : Fin 64) (e : Fin 5000),
      k1_pay1 (F := Ideal) v0 v2 v4 v11 v13 (ix2 d e)
        = 0 + ∑ r : Fin 400, (((0 + ∑ c : Fin 128, max ((0 + ∑ e' : Fin 5000, v0 (ix2 r e') * v4 (ix2 e' c)) * v2 (ix2 r 0)) 0 * v11 (ix2 c d))
            + v13 (ix2 0 d)) * v2 (ix2 r 0)) * v0 (ix2 r e))
    (c : Dev nD)
    (hH : ∀ (i : Fin 10000) (e : Fin 5000), V c main_arg1 (ix2 i e) = H (ix2 i e))
    (hs : ∀ i : Fin 10000, V c main_v2_2 (ix2 i 0) = s i)
    (hm1 : ∀ (e : Fin 5000) (c' : Fin 128), V c main_v12 (ix2 e c') = b1mK s X H W1 b1 e c')
    (hW2 : ∀ (c' : Fin 128) (d : Fin 64), V c main_arg4 (ix2 c' d) = W2 (ix2 c' d))
    (hb2 : ∀ d : Fin 64, V c main_v1 (ix2 0 d) = b2 (ix1 d))
    (t : Fin cfg1.N) (d : Fin 64) (e : Fin 5000) :
    k1_pay1 (F := Ideal) (iblk1 V c 0 t) (View.ld (iblk1 V c 1 t) rcol) (iblk1 V c 2 t) (iblk1 V c 3 t) (iblk1 V c 4 t) (ix2 d e)
      = g2B s X H W1 b1 W2 b2 (rowBlk1 t) d e := by
  have h4 : ∀ (e : Fin 5000) (c' : Fin 128), (iblk1 V c 2 t : Vec Ideal S5000x128 .bf16) (ix2 e c') = b1mK s X H W1 b1 e c' :=
    fun e c' => by rw [iblk1_2_eq]; exact hm1 e c'
  have h11 : ∀ (c' : Fin 128) (d : Fin 64), (iblk1 V c 3 t : Vec Ideal S128x64 .f32) (ix2 c' d) = W2 (ix2 c' d) :=
    fun c' d => by rw [iblk1_3_eq]; exact hW2 c' d
  have h13 : ∀ d : Fin 64, (iblk1 V c 4 t : Vec Ideal S1x64 .f32) (ix2 0 d) = b2 (ix1 d) :=
    fun d => by rw [iblk1_4_eq]; exact hb2 d
  exact payB_at s X H W1 b1 W2 b2 hpay1 (iblk1 V c 0 t) (View.ld (iblk1 V c 1 t) rcol) (iblk1 V c 2 t) (iblk1 V c 3 t) (iblk1 V c 4 t)
    (rowBlk1 t)
    (fun r e => (iblk1_0_apply V c t (ix2 r e) (ix2 (blk (rowBlk1 t) r) e) rfl rfl).trans (hH _ _))
    (fun r => (ld_rcol_apply _ r).trans ((iblk1_1_apply V c t (ix2 r 0) (ix2 (blk (rowBlk1 t) r) 0) rfl rfl).trans (hs _)))
    h4 h11 h13 d e

/-- After row block n the result window's buffer holds the first n + 1 blocks' shares of the second gather, added in order. -/
theorem accB_eq
    (hpay1 : ∀ (v0 : Vec Ideal S400x5000 .f32) (v2 : Vec Ideal S400x1 .f32) (v4 : Vec Ideal S5000x128 .bf16) (v11 : Vec Ideal S128x64 .f32)
      (v13 : Vec Ideal S1x64 .f32) (d : Fin 64) (e : Fin 5000),
      k1_pay1 (F := Ideal) v0 v2 v4 v11 v13 (ix2 d e)
        = 0 + ∑ r : Fin 400, (((0 + ∑ c : Fin 128, max ((0 + ∑ e' : Fin 5000, v0 (ix2 r e') * v4 (ix2 e' c)) * v2 (ix2 r 0)) 0 * v11 (ix2 c d))
            + v13 (ix2 0 d)) * v2 (ix2 r 0)) * v0 (ix2 r e))
    (hpay2 : ∀ (v0 : Vec Ideal S400x5000 .f32) (v2 : Vec Ideal S400x1 .f32) (v4 : Vec Ideal S5000x128 .bf16) (v11 : Vec Ideal S128x64 .f32)
      (v13 : Vec Ideal S1x64 .f32) (v27 : Vec Ideal S64x5000 .f32) (d : Fin 64) (e : Fin 5000),
      k1_pay2 (F := Ideal) v0 v2 v4 v11 v13 v27 (ix2 d e) = v27 (ix2 d e) + k1_pay1 (F := Ideal) v0 v2 v4 v11 v13 (ix2 d e))
    (c : Dev nD)
    (hH : ∀ (i : Fin 10000) (e : Fin 5000), V c main_arg1 (ix2 i e) = H (ix2 i e))
    (hs : ∀ i : Fin 10000, V c main_v2_2 (ix2 i 0) = s i)
    (hm1 : ∀ (e : Fin 5000) (c' : Fin 128), V c main_v12 (ix2 e c') = b1mK s X H W1 b1 e c')
    (hW2 : ∀ (c' : Fin 128) (d : Fin 64), V c main_arg4 (ix2 c' d) = W2 (ix2 c' d))
    (hb2 : ∀ d : Fin 64, V c main_v1 (ix2 0 d) = b2 (ix1 d))
    (d : Fin 64) (e : Fin 5000) :
    ∀ (n : ℕ) (hn : n < cfg1.N) (hn' : n < 25),
      acc1_5 V c n hn (ix2 d e) = accum (fun t => g2B s X H W1 b1 W2 b2 t d e) n hn'
  | 0, hn, hn' => by
    rw [acc1_5, accum]
    exact contribB s X H W1 b1 W2 b2 V hpay1 c hH hs hm1 hW2 hb2 ⟨0, hn⟩ d e
  | n + 1, hn, hn' => by
    rw [acc1_5, accum, hpay2, accB_eq hpay1 hpay2 c hH hs hm1 hW2 hb2 d e n (Nat.lt_of_succ_lt hn) (by omega)]
    exact congrArg (_ + ·) (contribB s X H W1 b1 W2 b2 V hpay1 c hH hs hm1 hW2 hb2 ⟨n + 1, hn⟩ d e)

/-- What the last row block writes back to the result array is the whole of `g2Arr`. -/
theorem flushedB_eq
    (hpay1 : ∀ (v0 : Vec Ideal S400x5000 .f32) (v2 : Vec Ideal S400x1 .f32) (v4 : Vec Ideal S5000x128 .bf16) (v11 : Vec Ideal S128x64 .f32)
      (v13 : Vec Ideal S1x64 .f32) (d : Fin 64) (e : Fin 5000),
      k1_pay1 (F := Ideal) v0 v2 v4 v11 v13 (ix2 d e)
        = 0 + ∑ r : Fin 400, (((0 + ∑ c : Fin 128, max ((0 + ∑ e' : Fin 5000, v0 (ix2 r e') * v4 (ix2 e' c)) * v2 (ix2 r 0)) 0 * v11 (ix2 c d))
            + v13 (ix2 0 d)) * v2 (ix2 r 0)) * v0 (ix2 r e))
    (hpay2 : ∀ (v0 : Vec Ideal S400x5000 .f32) (v2 : Vec Ideal S400x1 .f32) (v4 : Vec Ideal S5000x128 .bf16) (v11 : Vec Ideal S128x64 .f32)
      (v13 : Vec Ideal S1x64 .f32) (v27 : Vec Ideal S64x5000 .f32) (d : Fin 64) (e : Fin 5000),
      k1_pay2 (F := Ideal) v0 v2 v4 v11 v13 v27 (ix2 d e) = v27 (ix2 d e) + k1_pay1 (F := Ideal) v0 v2 v4 v11 v13 (ix2 d e))
    (c : Dev nD)
    (hH : ∀ (i : Fin 10000) (e : Fin 5000), V c main_arg1 (ix2 i e) = H (ix2 i e))
    (hs : ∀ i : Fin 10000, V c main_v2_2 (ix2 i 0) = s i)
    (hm1 : ∀ (e : Fin 5000) (c' : Fin 128), V c main_v12 (ix2 e c') = b1mK s X H W1 b1 e c')
    (hW2 : ∀ (c' : Fin 128) (d : Fin 64), V c main_arg4 (ix2 c' d) = W2 (ix2 c' d))
    (hb2 : ∀ d : Fin 64, V c main_v1 (ix2 0 d) = b2 (ix1 d))
    (t : Fin cfg1.N) (hf : (cfg1.win 5).flush t = true) :
    (dat1 V c).flushed 5 t = ((cfg1.win 5).blk t).view.read (Elt Ideal) (g2Arr s X H W1 b1 W2 b2) := by
  have ht : t.val = 24 := by
    have h1 := (flush1_5 t).mp hf
    have h2 : t.val < 25 := lt_of_lt_of_eq t.isLt (N_1 : cfg1.N = 25)
    omega
  rw [read_blk1_5]
  show (cfg1.win 5).cut (grid1.coords t) ((dat1 V c).after 5 t) = _
  rw [after1_5]
  funext y
  obtain ⟨d, e, rfl⟩ : ∃ (d : Fin 64) (e : Fin 5000), y = ix2 d e := ⟨y 0, y 1, eq_ix2 y⟩
  show acc1_5 V c t.val t.isLt (ix2 d e) = g2K s X H W1 b1 W2 b2 d e
  unfold g2K
  have same : ∀ (n : ℕ) (hn : n < cfg1.N), n = 24 → acc1_5 V c n hn (ix2 d e)
      = accum (fun t => g2B s X H W1 b1 W2 b2 t d e) 24 (by omega) := fun n hn h => by
    subst h; exact accB_eq s X H W1 b1 W2 b2 V hpay1 hpay2 c hH hs hm1 hW2 hb2 d e 24 hn (by omega)
  exact same t.val t.isLt ht

/-- PASS B's RESULT, given its two payloads read at an index (`hpay1`, `hpay2`): its result array ends at the second gather,
    accumulated over the 25 row blocks. -/
theorem passB_value_of
    (hpay1 : ∀ (v0 : Vec Ideal S400x5000 .f32) (v2 : Vec Ideal S400x1 .f32) (v4 : Vec Ideal S5000x128 .bf16) (v11 : Vec Ideal S128x64 .f32)
      (v13 : Vec Ideal S1x64 .f32) (d : Fin 64) (e : Fin 5000),
      k1_pay1 (F := Ideal) v0 v2 v4 v11 v13 (ix2 d e)
        = 0 + ∑ r : Fin 400, (((0 + ∑ c : Fin 128, max ((0 + ∑ e' : Fin 5000, v0 (ix2 r e') * v4 (ix2 e' c)) * v2 (ix2 r 0)) 0 * v11 (ix2 c d))
            + v13 (ix2 0 d)) * v2 (ix2 r 0)) * v0 (ix2 r e))
    (hpay2 : ∀ (v0 : Vec Ideal S400x5000 .f32) (v2 : Vec Ideal S400x1 .f32) (v4 : Vec Ideal S5000x128 .bf16) (v11 : Vec Ideal S128x64 .f32)
      (v13 : Vec Ideal S1x64 .f32) (v27 : Vec Ideal S64x5000 .f32) (d : Fin 64) (e : Fin 5000),
      k1_pay2 (F := Ideal) v0 v2 v4 v11 v13 v27 (ix2 d e) = v27 (ix2 d e) + k1_pay1 (F := Ideal) v0 v2 v4 v11 v13 (ix2 d e))
    (c : Dev nD)
    (hH : ∀ (i : Fin 10000) (e : Fin 5000), V c main_arg1 (ix2 i e) = H (ix2 i e))
    (hs : ∀ i : Fin 10000, V c main_v2_2 (ix2 i 0) = s i)
    (hm1 : ∀ (e : Fin 5000) (c' : Fin 128), V c main_v12 (ix2 e c') = b1mK s X H W1 b1 e c')
    (hW2 : ∀ (c' : Fin 128) (d : Fin 64), V c main_arg4 (ix2 c' d) = W2 (ix2 c' d))
    (hb2 : ∀ d : Fin 64, V c main_v1 (ix2 0 d) = b2 (ix1 d))
    (d : Fin 64) (e : Fin 5000) :
    (dat1 V c).arrAt 5 cfg1.N (ix2 d e) = g2K s X H W1 b1 W2 b2 d e := by
  have h24 : 24 < cfg1.N := lt_of_lt_of_eq (by norm_num : 24 < 25) (N_1.symm : 25 = cfg1.N)
  exact (dat1 V c).arrAt_apply_of_mem 5 (g2Arr s X H W1 b1 W2 b2)
    (fun t hf => flushedB_eq s X H W1 b1 W2 b2 V hpay1 hpay2 c hH hs hm1 hW2 hb2 t hf) cfg1.N ⟨24, h24⟩ (ix2 d e) h24
    ((flush1_5 _).mpr rfl) (mem_blk1_5 _ _)

end Cert.KernelIdeal.PassBC

end
-- ==== Proof.PassC.lean ====
/-
  What pass C leaves in the result array, at a generic entry valuation `V` whose arrays are known: when the incidence
  matrix's array holds H, the first column of the row-scale array holds s, and the scaled second gather's array holds
  b2mK, row 400·t + r of the result holds outK t r — the scatter back to the rows of block t, scaled. Each row block's
  write-back is its block of one function of the whole array's indices, and the 25 row blocks cover the array.
-/
import proofs.«142963_g18348100288549_rerun558fix_267_53_alg».proof.Proof.BlockReads
import proofs.«142963_g18348100288549_rerun558fix_267_53_alg».proof.Proof.KerSpec

set_option maxRecDepth 16384

noncomputable section

namespace Cert.KernelIdeal.PassBC

open Cert.KernelIdeal Cert.KernelIdeal.Gen
open Idealize.ShloMosaic Idealize.ShloMosaic.TcCoe Idealize.ShloMosaic.ValueIdx Idealize.SL.Sem
open Idealize.ShloMosaic.Pipeline (Dat)
open Cert.KernelIdeal.Hand Cert.Hgnn
open scoped BigOperators

variable (s : Fin 10000 → EReal) (X : ArrX) (H : ArrH) (W1 : ArrW1) (b1 : ArrB1) (W2 : ArrW2) (b2 : ArrB2)
variable (V : (c : Dev nD) → (b : Ref sig .tc) → Buf (Elt Ideal) ((c : Thread nD τ).loc b))

/-- A grid point of pass C as a row block. -/
abbrev rowBlk2 (t : Fin cfg2.N) : Fin 25 := ⟨t.val, lt_of_lt_of_eq t.isLt (N_2 : cfg2.N = 25)⟩
/-- A row block as a grid point of pass C. -/
abbrev pt2 (t : Fin 25) : Fin cfg2.N := ⟨t.val, lt_of_lt_of_eq t.isLt (N_2.symm : 25 = cfg2.N)⟩

/-- The result array as one function of its indices: row i is row `i % 400` of block `i / 400`. -/
def outArr : S10000x64.Idx → EReal := fun i => outK s X H W1 b1 W2 b2 (blkT (i 0)) (blkR (i 0)) (i 1)

/-- Pass C's payload at an index, over blocks known to be rows of H, the row scale, and the scaled gather. -/
theorem payC_at
    (hpay : ∀ (v0 : Vec Ideal S400x5000 .f32) (v2 : Vec Ideal S400x1 .f32) (v4 : Vec Ideal S5000x64 .bf16) (r : Fin 400) (d : Fin 64),
      k2_pay1 (F := Ideal) v0 v2 v4 (ix2 r d) = v2 (ix2 r 0) * (0 + ∑ e : Fin 5000, v0 (ix2 r e) * v4 (ix2 e d)))
    (v0 : Vec Ideal S400x5000 .f32) (v2 : Vec Ideal S400x1 .f32) (v4 : Vec Ideal S5000x64 .bf16) (t : Fin 25)
    (h0 : ∀ (r : Fin 400) (e : Fin 5000), v0 (ix2 r e) = H (ix2 (blk t r) e))
    (h2 : ∀ r : Fin 400, v2 (ix2 r 0) = s (blk t r))
    (h4 : ∀ (e : Fin 5000) (d : Fin 64), v4 (ix2 e d) = b2mK s X H W1 b1 W2 b2 e d)
    (r : Fin 400) (d : Fin 64) :
    k2_pay1 (F := Ideal) v0 v2 v4 (ix2 r d) = outK s X H W1 b1 W2 b2 t r d := by
  rw [hpay, h2]
  unfold outK
  simp only [h0, h4]

/-- What pass C computes at row block `t`, at element `y` of its block: the result function at the array index `i` under it. -/
theorem bodyC_at
    (hpay : ∀ (v0 : Vec Ideal S400x5000 .f32) (v2 : Vec Ideal S400x1 .f32) (v4 : Vec Ideal S5000x64 .bf16) (r : Fin 400) (d : Fin 64),
      k2_pay1 (F := Ideal) v0 v2 v4 (ix2 r d) = v2 (ix2 r 0) * (0 + ∑ e : Fin 5000, v0 (ix2 r e) * v4 (ix2 e d)))
    (c : Dev nD)
    (hH : ∀ (i : Fin 10000) (e : Fin 5000), V c main_arg1 (ix2 i e) = H (ix2 i e))
    (hs : ∀ i : Fin 10000, V c main_v2_2 (ix2 i 0) = s i)
    (hm : ∀ (e : Fin 5000) (d : Fin 64), V c main_v17 (ix2 e d) = b2mK s X H W1 b1 W2 b2 e d)
    (t : Fin cfg2.N) (y : S400x64.Idx) (i : S10000x64.Idx)
    (hi0 : (i 0).val = 400 * t.val + (y 0).val) (hi1 : (i 1).val = (y 1).val) :
    k2_pay1 (F := Ideal) (iblk2 V c 0 t) (View.ld (iblk2 V c 1 t) rcol) (iblk2 V c 2 t) y = outArr s X H W1 b1 W2 b2 i := by
  obtain ⟨r, d, rfl⟩ : ∃ (r : Fin 400) (d : Fin 64), y = ix2 r d := ⟨y 0, y 1, eq_ix2 y⟩
  have h4 : ∀ (e : Fin 5000) (d : Fin 64), (iblk2 V c 2 t : Vec Ideal S5000x64 .bf16) (ix2 e d) = b2mK s X H W1 b1 W2 b2 e d :=
    fun e d => by rw [iblk2_2_eq]; exact hm e d
  rw [payC_at s X H W1 b1 W2 b2 hpay (iblk2 V c 0 t) (View.ld (iblk2 V c 1 t) rcol) (iblk2 V c 2 t) (rowBlk2 t)
    (fun r e => (iblk2_0_apply V c t (ix2 r e) (ix2 (blk (rowBlk2 t) r) e) rfl rfl).trans (hH _ _))
    (fun r => (ld_rcol_apply _ r).trans ((iblk2_1_apply V c t (ix2 r 0) (ix2 (blk (rowBlk2 t) r) 0) rfl rfl).trans (hs _)))
    h4 r d]
  have hi : i = ix2 (blk (rowBlk2 t) r) d := by
    funext a
    apply Fin.ext
    match a with
    | ⟨0, _⟩ => exact hi0
    | ⟨1, _⟩ => exact hi1
  subst hi
  show _ = outK s X H W1 b1 W2 b2 (blkT (blk (rowBlk2 t) r)) (blkR (blk (rowBlk2 t) r)) d
  rw [blkT_blk, blkR_blk]

/-- What row block `t` writes back to the result array is its block of the result function. -/
theorem flushedC_eq
    (hpay : ∀ (v0 : Vec Ideal S400x5000 .f32) (v2 : Vec Ideal S400x1 .f32) (v4 : Vec Ideal S5000x64 .bf16) (r : Fin 400) (d : Fin 64),
      k2_pay1 (F := Ideal) v0 v2 v4 (ix2 r d) = v2 (ix2 r 0) * (0 + ∑ e : Fin 5000, v0 (ix2 r e) * v4 (ix2 e d)))
    (c : Dev nD)
    (hH : ∀ (i : Fin 10000) (e : Fin 5000), V c main_arg1 (ix2 i e) = H (ix2 i e))
    (hs : ∀ i : Fin 10000, V c main_v2_2 (ix2 i 0) = s i)
    (hm : ∀ (e : Fin 5000) (d : Fin 64), V c main_v17 (ix2 e d) = b2mK s X H W1 b1 W2 b2 e d)
    (t : Fin cfg2.N) :
    (dat2 V c).flushed 3 t = ((cfg2.win 3).blk t).view.read (Elt Ideal) (outArr s X H W1 b1 W2 b2) := by
  show (cfg2.win 3).cut (grid2.coords t) ((dat2 V c).after 3 t) = _
  rw [after2_3]
  funext y
  exact bodyC_at s X H W1 b1 W2 b2 V hpay c hH hs hm t y _ (emb_blk2_3 t y).1 (emb_blk2_3 t y).2

/-- PASS C's RESULT, given its payload read at an index (`hpay`): row r of block t of the result array ends at `outK t r`. -/
theorem passC_value_of
    (hpay : ∀ (v0 : Vec Ideal S400x5000 .f32) (v2 : Vec Ideal S400x1 .f32) (v4 : Vec Ideal S5000x64 .bf16) (r : Fin 400) (d : Fin 64),
      k2_pay1 (F := Ideal) v0 v2 v4 (ix2 r d) = v2 (ix2 r 0) * (0 + ∑ e : Fin 5000, v0 (ix2 r e) * v4 (ix2 e d)))
    (c : Dev nD)
    (hH : ∀ (i : Fin 10000) (e : Fin 5000), V c main_arg1 (ix2 i e) = H (ix2 i e))
    (hs : ∀ i : Fin 10000, V c main_v2_2 (ix2 i 0) = s i)
    (hm : ∀ (e : Fin 5000) (d : Fin 64), V c main_v17 (ix2 e d) = b2mK s X H W1 b1 W2 b2 e d)
    (t : Fin 25) (r : Fin 400) (d : Fin 64) :
    (dat2 V c).arrAt 3 cfg2.N (ix2 (blk t r) d) = outK s X H W1 b1 W2 b2 t r d := by
  have h := (dat2 V c).arrAt_apply_of_mem 3 (outArr s X H W1 b1 W2 b2)
    (fun t' _ => flushedC_eq s X H W1 b1 W2 b2 V hpay c hH hs hm t') cfg2.N (pt2 t) (ix2 (blk t r) d) (pt2 t).isLt (flush2_3 _)
    (mem_blk2_3 (pt2 t) (ix2 (blk t r) d) ⟨by show 400 * t.val ≤ 400 * t.val + r.val; omega,
      by show 400 * t.val + r.val < 400 * t.val + 400; have := r.isLt; omega⟩)
  rw [h]
  show outK s X H W1 b1 W2 b2 (blkT (blk t r)) (blkR (blk t r)) d = _
  rw [blkT_blk, blkR_blk]

end Cert.KernelIdeal.PassBC

end
-- ==== Proof.PayIdx.lean ====
/-
  What each block computation of the three sweeps produces, read at one index, on the extended reals.

  A sweep handles one block of 400 rows at a time. Each lemma below takes the block's operands as plain arrays over
  literal shapes and says what one entry of a computed array is: a product of matrices into a zero accumulator is zero
  plus the sum over the contracted coordinate of the products; a sum along a row is the sum of the row's entries; a column
  of 400 values broadcast across a row reads the column; a change of float format is the identity on extended reals.
  The right sides are written with the same order of factors and the same "zero plus" as the blocked arrangement of
  Proof/KerSpec.lean, so that the two meet term for term.
-/
import proofs.«142963_g18348100288549_rerun558fix_267_53_alg».proof.Proof.Gen.KernelIdeal.Skeleton
import proofs.«142963_g18348100288549_rerun558fix_267_53_alg».proof.Proof.KerSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayIdx

open Cert.KernelIdeal Cert.KernelIdeal.Gen Idealize.ShloMosaic Idealize.ShloMosaic.ValueIdx Cert.Hgnn
open scoped BigOperators

/-! ## Indices and layout -/

theorem idx2_ext {n0 n1 : Nat} (u v : (⟨2, ![n0, n1]⟩ : Shape).Idx) (h0 : (u 0).val = (v 0).val) (h1 : (u 1).val = (v 1).val) :
    u = v :=
  funext fun a => Fin.ext (by match a with | ⟨0, _⟩ => exact h0 | ⟨1, _⟩ => exact h1)

/-- A vector of length `a` cast to a column `[a, 1]` reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along row `r` of a 400 × 5000 block. -/
theorem lanesum_apply (x : FVec Ideal S400x5000 .f32) (hφ : FKind.Formats .f32)
    (hacc : (0x00000000#32 : BitVec 32) = 0x00000000#32) (r : Fin 400) :
    multiReduction (F := Ideal) .add [1] S400 x 0x00000000#32 reduces_S400x5000_S400 hφ hacc (ix1 r)
      = ∑ e : Fin 5000, x (ix2 r e) := by
  refine (Ideal.multiReduction_add_single x 0x00000000#32 reduces_S400x5000_S400 hφ hacc (ix1 r)).trans ?_
  exact Finset.sum_congr rfl fun e _ => congrArg x (idx2_ext _ _ rfl rfl)

/-! ## The products of matrices, each at an index -/

theorem mmOnes_lhs0 (i : S1x5000.Idx) (q : dot_S1x400_S400x5000_S1x5000_1_0_0_1_n_n.contr.Idx) :
    (dot_S1x400_S400x5000_S1x5000_1_0_0_1_n_n.lhsIdx i q 0).val = (i 0).val := by
  unfold DotDims.lhsIdx
  rw [dif_neg (show ¬(0 : Fin S1x400.rank) ∈ dot_S1x400_S400x5000_S1x5000_1_0_0_1_n_n.lhsBatch by decide), dif_pos (show (0 : Fin S1x400.rank) ∈ dot_S1x400_S400x5000_S1x5000_1_0_0_1_n_n.lhsNonContracting by decide)]
  rfl
theorem mmOnes_lhs1 (i : S1x5000.Idx) (q : dot_S1x400_S400x5000_S1x5000_1_0_0_1_n_n.contr.Idx) :
    (dot_S1x400_S400x5000_S1x5000_1_0_0_1_n_n.lhsIdx i q 1).val = (q ⟨0, by decide⟩).val :=
  dot_S1x400_S400x5000_S1x5000_1_0_0_1_n_n.lhsIdx_val_of_single rfl i q
theorem mmOnes_rhs0 (i : S1x5000.Idx) (q : dot_S1x400_S400x5000_S1x5000_1_0_0_1_n_n.contr.Idx) :
    (dot_S1x400_S400x5000_S1x5000_1_0_0_1_n_n.rhsIdx i q 0).val = (q ⟨0, by decide⟩).val :=
  dot_S1x400_S400x5000_S1x5000_1_0_0_1_n_n.rhsIdx_val_of_single rfl i q
theorem mmOnes_rhs1 (i : S1x5000.Idx) (q : dot_S1x400_S400x5000_S1x5000_1_0_0_1_n_n.contr.Idx) :
    (dot_S1x400_S400x5000_S1x5000_1_0_0_1_n_n.rhsIdx i q 1).val = (i 1).val := by
  unfold DotDims.rhsIdx
  rw [dif_neg (show ¬(1 : Fin S400x5000.rank) ∈ dot_S1x400_S400x5000_S1x5000_1_0_0_1_n_n.rhsBatch by decide), dif_pos (show (1 : Fin S400x5000.rank) ∈ dot_S1x400_S400x5000_S1x5000_1_0_0_1_n_n.rhsNonContracting by decide)]
  rfl
/-- This product of matrices into a zero accumulator, at `(p, q)`: zero plus the sum over the contracted coordinate. -/
theorem mmOnes_apply (lhs : FVec Ideal S1x400 .bf16) (rhs : FVec Ideal S400x5000 .bf16) (p : Fin 1) (q : Fin 5000) :
    matmul dot_S1x400_S400x5000_S1x5000_1_0_0_1_n_n none lhs rhs (constant (F := Ideal) S1x5000 .f32 0x00000000#32) (ix2 p q)
      = 0 + ∑ k : Fin 400, lhs (ix2 p k) * rhs (ix2 k q) := by
  simp only [matmul]
  rw [Ideal.matmul_apply, ← Equiv.sum_comp (contrEquiv1 dot_S1x400_S400x5000_S1x5000_1_0_0_1_n_n 400 rfl rfl).symm]
  refine congrArg₂ (· + ·) Ideal.ofBits_zero_f32 (Finset.sum_congr rfl fun k _ => ?_)
  have hk := contrEquiv1_symm_val dot_S1x400_S400x5000_S1x5000_1_0_0_1_n_n 400 rfl rfl k
  have el : dot_S1x400_S400x5000_S1x5000_1_0_0_1_n_n.lhsIdx (ix2 p q) ((contrEquiv1 dot_S1x400_S400x5000_S1x5000_1_0_0_1_n_n 400 rfl rfl).symm k) = ix2 p k := funext fun a => Fin.ext (by
    match a with
    | ⟨0, _⟩ => exact mmOnes_lhs0 _ _
    | ⟨1, _⟩ => exact (mmOnes_lhs1 _ _).trans hk)
  have er : dot_S1x400_S400x5000_S1x5000_1_0_0_1_n_n.rhsIdx (ix2 p q) ((contrEquiv1 dot_S1x400_S400x5000_S1x5000_1_0_0_1_n_n 400 rfl rfl).symm k) = ix2 k q := funext fun a => Fin.ext (by
    match a with
    | ⟨0, _⟩ => exact (mmOnes_rhs0 _ _).trans hk
    | ⟨1, _⟩ => exact mmOnes_rhs1 _ _)
  rw [el, er]

theorem mmOut_lhs0 (i : S400x64.Idx) (q : dot_S400x5000_S5000x64_S400x64_1_0_0_1_n_n.contr.Idx) :
    (dot_S400x5000_S5000x64_S400x64_1_0_0_1_n_n.lhsIdx i q 0).val = (i 0).val := by
  unfold DotDims.lhsIdx
  rw [dif_neg (show ¬(0 : Fin S400x5000.rank) ∈ dot_S400x5000_S5000x64_S400x64_1_0_0_1_n_n.lhsBatch by decide), dif_pos (show (0 : Fin S400x5000.rank) ∈ dot_S400x5000_S5000x64_S400x64_1_0_0_1_n_n.lhsNonContracting by decide)]
  rfl
theorem mmOut_lhs1 (i : S400x64.Idx) (q : dot_S400x5000_S5000x64_S400x64_1_0_0_1_n_n.contr.Idx) :
    (dot_S400x5000_S5000x64_S400x64_1_0_0_1_n_n.lhsIdx i q 1).val = (q ⟨0, by decide⟩).val :=
  dot_S400x5000_S5000x64_S400x64_1_0_0_1_n_n.lhsIdx_val_of_single rfl i q
theorem mmOut_rhs0 (i : S400x64.Idx) (q : dot_S400x5000_S5000x64_S400x64_1_0_0_1_n_n.contr.Idx) :
    (dot_S400x5000_S5000x64_S400x64_1_0_0_1_n_n.rhsIdx i q 0).val = (q ⟨0, by decide⟩).val :=
  dot_S400x5000_S5000x64_S400x64_1_0_0_1_n_n.rhsIdx_val_of_single rfl i q
theorem mmOut_rhs1 (i : S400x64.Idx) (q : dot_S400x5000_S5000x64_S400x64_1_0_0_1_n_n.contr.Idx) :
    (dot_S400x5000_S5000x64_S400x64_1_0_0_1_n_n.rhsIdx i q 1).val = (i 1).val := by
  unfold DotDims.rhsIdx
  rw [dif_neg (show ¬(1 : Fin S5000x64.rank) ∈ dot_S400x5000_S5000x64_S400x64_1_0_0_1_n_n.rhsBatch by decide), dif_pos (show (1 : Fin S5000x64.rank) ∈ dot_S400x5000_S5000x64_S400x64_1_0_0_1_n_n.rhsNonContracting by decide)]
  rfl
/-- This product of matrices into a zero accumulator, at `(p, q)`: zero plus the sum over the contracted coordinate. -/
theorem mmOut_apply (lhs : FVec Ideal S400x5000 .bf16) (rhs : FVec Ideal S5000x64 .bf16) (p : Fin 400) (q : Fin 64) :
    matmul dot_S400x5000_S5000x64_S400x64_1_0_0_1_n_n none lhs rhs (constant (F := Ideal) S400x64 .f32 0x00000000#32) (ix2 p q)
      = 0 + ∑ k : Fin 5000, lhs (ix2 p k) * rhs (ix2 k q) := by
  simp only [matmul]
  rw [Ideal.matmul_apply, ← Equiv.sum_comp (contrEquiv1 dot_S400x5000_S5000x64_S400x64_1_0_0_1_n_n 5000 rfl rfl).symm]
  refine congrArg₂ (· + ·) Ideal.ofBits_zero_f32 (Finset.sum_congr rfl fun k _ => ?_)
  have hk := contrEquiv1_symm_val dot_S400x5000_S5000x64_S400x64_1_0_0_1_n_n 5000 rfl rfl k
  have el : dot_S400x5000_S5000x64_S400x64_1_0_0_1_n_n.lhsIdx (ix2 p q) ((contrEquiv1 dot_S400x5000_S5000x64_S400x64_1_0_0_1_n_n 5000 rfl rfl).symm k) = ix2 p k := funext fun a => Fin.ext (by
    match a with
    | ⟨0, _⟩ => exact mmOut_lhs0 _ _
    | ⟨1, _⟩ => exact (mmOut_lhs1 _ _).trans hk)
  have er : dot_S400x5000_S5000x64_S400x64_1_0_0_1_n_n.rhsIdx (ix2 p q) ((contrEquiv1 dot_S400x5000_S5000x64_S400x64_1_0_0_1_n_n 5000 rfl rfl).symm k) = ix2 k q := funext fun a => Fin.ext (by
    match a with
    | ⟨0, _⟩ => exact (mmOut_rhs0 _ _).trans hk
    | ⟨1, _⟩ => exact mmOut_rhs1 _ _)
  rw [el, er]

theorem mmX1_lhs0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem mmX1_lhs1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem mmX1_rhs0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem mmX1_rhs1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl
/-- This product of matrices into a zero accumulator, at `(p, q)`: zero plus the sum over the contracted coordinate. -/
theorem mmX1_apply (lhs : FVec Ideal S400x128 .f32) (rhs : FVec Ideal S128x128 .f32) (p : Fin 400) (q : Fin 128) :
    matmul dot_S400x128_S128x128_S400x128_1_0_0_1_n_n none lhs rhs (constant (F := Ideal) S400x128 .f32 0x00000000#32) (ix2 p q)
      = 0 + ∑ k : Fin 128, lhs (ix2 p k) * rhs (ix2 k q) := by
  simp only [matmul]
  rw [Ideal.matmul_apply, ← Equiv.sum_comp (contrEquiv1 dot_S400x128_S128x128_S400x128_1_0_0_1_n_n 128 rfl rfl).symm]
  refine congrArg₂ (· + ·) Ideal.ofBits_zero_f32 (Finset.sum_congr rfl fun k _ => ?_)
  have hk := contrEquiv1_symm_val dot_S400x128_S128x128_S400x128_1_0_0_1_n_n 128 rfl rfl k
  have el : dot_S400x128_S128x128_S400x128_1_0_0_1_n_n.lhsIdx (ix2 p q) ((contrEquiv1 dot_S400x128_S128x128_S400x128_1_0_0_1_n_n 128 rfl rfl).symm k) = ix2 p k := funext fun a => Fin.ext (by
    match a with
    | ⟨0, _⟩ => exact mmX1_lhs0 _ _
    | ⟨1, _⟩ => exact (mmX1_lhs1 _ _).trans hk)
  have er : dot_S400x128_S128x128_S400x128_1_0_0_1_n_n.rhsIdx (ix2 p q) ((contrEquiv1 dot_S400x128_S128x128_S400x128_1_0_0_1_n_n 128 rfl rfl).symm k) = ix2 k q := funext fun a => Fin.ext (by
    match a with
    | ⟨0, _⟩ => exact (mmX1_rhs0 _ _).trans hk
    | ⟨1, _⟩ => exact mmX1_rhs1 _ _)
  rw [el, er]

theorem mmG1_lhs0 (i : S128x5000.Idx) (q : dot_S400x128_S400x5000_S128x5000_0_0_1_1_n_n.contr.Idx) :
    (dot_S400x128_S400x5000_S128x5000_0_0_1_1_n_n.lhsIdx i q 0).val = (q ⟨0, by decide⟩).val :=
  dot_S400x128_S400x5000_S128x5000_0_0_1_1_n_n.lhsIdx_val_of_single rfl i q
theorem mmG1_lhs1 (i : S128x5000.Idx) (q : dot_S400x128_S400x5000_S128x5000_0_0_1_1_n_n.contr.Idx) :
    (dot_S400x128_S400x5000_S128x5000_0_0_1_1_n_n.lhsIdx i q 1).val = (i 0).val := by
  unfold DotDims.lhsIdx
  rw [dif_neg (show ¬(1 : Fin S400x128.rank) ∈ dot_S400x128_S400x5000_S128x5000_0_0_1_1_n_n.lhsBatch by decide), dif_pos (show (1 : Fin S400x128.rank) ∈ dot_S400x128_S400x5000_S128x5000_0_0_1_1_n_n.lhsNonContracting by decide)]
  rfl
theorem mmG1_rhs0 (i : S128x5000.Idx) (q : dot_S400x128_S400x5000_S128x5000_0_0_1_1_n_n.contr.Idx) :
    (dot_S400x128_S400x5000_S128x5000_0_0_1_1_n_n.rhsIdx i q 0).val = (q ⟨0, by decide⟩).val :=
  dot_S400x128_S400x5000_S128x5000_0_0_1_1_n_n.rhsIdx_val_of_single rfl i q
theorem mmG1_rhs1 (i : S128x5000.Idx) (q : dot_S400x128_S400x5000_S128x5000_0_0_1_1_n_n.contr.Idx) :
    (dot_S400x128_S400x5000_S128x5000_0_0_1_1_n_n.rhsIdx i q 1).val = (i 1).val := by
  unfold DotDims.rhsIdx
  rw [dif_neg (show ¬(1 : Fin S400x5000.rank) ∈ dot_S400x128_S400x5000_S128x5000_0_0_1_1_n_n.rhsBatch by decide), dif_pos (show (1 : Fin S400x5000.rank) ∈ dot_S400x128_S400x5000_S128x5000_0_0_1_1_n_n.rhsNonContracting by decide)]
  rfl
/-- This product of matrices into a zero accumulator, at `(p, q)`: zero plus the sum over the contracted coordinate. -/
theorem mmG1_apply (lhs : FVec Ideal S400x128 .bf16) (rhs : FVec Ideal S400x5000 .bf16) (p : Fin 128) (q : Fin 5000) :
    matmul dot_S400x128_S400x5000_S128x5000_0_0_1_1_n_n none lhs rhs (constant (F := Ideal) S128x5000 .f32 0x00000000#32) (ix2 p q)
      = 0 + ∑ k : Fin 400, lhs (ix2 k p) * rhs (ix2 k q) := by
  simp only [matmul]
  rw [Ideal.matmul_apply, ← Equiv.sum_comp (contrEquiv1 dot_S400x128_S400x5000_S128x5000_0_0_1_1_n_n 400 rfl rfl).symm]
  refine congrArg₂ (· + ·) Ideal.ofBits_zero_f32 (Finset.sum_congr rfl fun k _ => ?_)
  have hk := contrEquiv1_symm_val dot_S400x128_S400x5000_S128x5000_0_0_1_1_n_n 400 rfl rfl k
  have el : dot_S400x128_S400x5000_S128x5000_0_0_1_1_n_n.lhsIdx (ix2 p q) ((contrEquiv1 dot_S400x128_S400x5000_S128x5000_0_0_1_1_n_n 400 rfl rfl).symm k) = ix2 k p := funext fun a => Fin.ext (by
    match a with
    | ⟨0, _⟩ => exact (mmG1_lhs0 _ _).trans hk
    | ⟨1, _⟩ => exact mmG1_lhs1 _ _)
  have er : dot_S400x128_S400x5000_S128x5000_0_0_1_1_n_n.rhsIdx (ix2 p q) ((contrEquiv1 dot_S400x128_S400x5000_S128x5000_0_0_1_1_n_n 400 rfl rfl).symm k) = ix2 k q := funext fun a => Fin.ext (by
    match a with
    | ⟨0, _⟩ => exact (mmG1_rhs0 _ _).trans hk
    | ⟨1, _⟩ => exact mmG1_rhs1 _ _)
  rw [el, er]

theorem mmY1_lhs0 (i : S400x128.Idx) (q : dot_S400x5000_S5000x128_S400x128_1_0_0_1_n_n.contr.Idx) :
    (dot_S400x5000_S5000x128_S400x128_1_0_0_1_n_n.lhsIdx i q 0).val = (i 0).val := by
  unfold DotDims.lhsIdx
  rw [dif_neg (show ¬(0 : Fin S400x5000.rank) ∈ dot_S400x5000_S5000x128_S400x128_1_0_0_1_n_n.lhsBatch by decide), dif_pos (show (0 : Fin S400x5000.rank) ∈ dot_S400x5000_S5000x128_S400x128_1_0_0_1_n_n.lhsNonContracting by decide)]
  rfl
theorem mmY1_lhs1 (i : S400x128.Idx) (q : dot_S400x5000_S5000x128_S400x128_1_0_0_1_n_n.contr.Idx) :
    (dot_S400x5000_S5000x128_S400x128_1_0_0_1_n_n.lhsIdx i q 1).val = (q ⟨0, by decide⟩).val :=
  dot_S400x5000_S5000x128_S400x128_1_0_0_1_n_n.lhsIdx_val_of_single rfl i q
theorem mmY1_rhs0 (i : S400x128.Idx) (q : dot_S400x5000_S5000x128_S400x128_1_0_0_1_n_n.contr.Idx) :
    (dot_S400x5000_S5000x128_S400x128_1_0_0_1_n_n.rhsIdx i q 0).val = (q ⟨0, by decide⟩).val :=
  dot_S400x5000_S5000x128_S400x128_1_0_0_1_n_n.rhsIdx_val_of_single rfl i q
theorem mmY1_rhs1 (i : S400x128.Idx) (q : dot_S400x5000_S5000x128_S400x128_1_0_0_1_n_n.contr.Idx) :
    (dot_S400x5000_S5000x128_S400x128_1_0_0_1_n_n.rhsIdx i q 1).val = (i 1).val := by
  unfold DotDims.rhsIdx
  rw [dif_neg (show ¬(1 : Fin S5000x128.rank) ∈ dot_S400x5000_S5000x128_S400x128_1_0_0_1_n_n.rhsBatch by decide), dif_pos (show (1 : Fin S5000x128.rank) ∈ dot_S400x5000_S5000x128_S400x128_1_0_0_1_n_n.rhsNonContracting by decide)]
  rfl
/-- This product of matrices into a zero accumulator, at `(p, q)`: zero plus the sum over the contracted coordinate. -/
theorem mmY1_apply (lhs : FVec Ideal S400x5000 .bf16) (rhs : FVec Ideal S5000x128 .bf16) (p : Fin 400) (q : Fin 128) :
    matmul dot_S400x5000_S5000x128_S400x128_1_0_0_1_n_n none lhs rhs (constant (F := Ideal) S400x128 .f32 0x00000000#32) (ix2 p q)
      = 0 + ∑ k : Fin 5000, lhs (ix2 p k) * rhs (ix2 k q) := by
  simp only [matmul]
  rw [Ideal.matmul_apply, ← Equiv.sum_comp (contrEquiv1 dot_S400x5000_S5000x128_S400x128_1_0_0_1_n_n 5000 rfl rfl).symm]
  refine congrArg₂ (· + ·) Ideal.ofBits_zero_f32 (Finset.sum_congr rfl fun k _ => ?_)
  have hk := contrEquiv1_symm_val dot_S400x5000_S5000x128_S400x128_1_0_0_1_n_n 5000 rfl rfl k
  have el : dot_S400x5000_S5000x128_S400x128_1_0_0_1_n_n.lhsIdx (ix2 p q) ((contrEquiv1 dot_S400x5000_S5000x128_S400x128_1_0_0_1_n_n 5000 rfl rfl).symm k) = ix2 p k := funext fun a => Fin.ext (by
    match a with
    | ⟨0, _⟩ => exact mmY1_lhs0 _ _
    | ⟨1, _⟩ => exact (mmY1_lhs1 _ _).trans hk)
  have er : dot_S400x5000_S5000x128_S400x128_1_0_0_1_n_n.rhsIdx (ix2 p q) ((contrEquiv1 dot_S400x5000_S5000x128_S400x128_1_0_0_1_n_n 5000 rfl rfl).symm k) = ix2 k q := funext fun a => Fin.ext (by
    match a with
    | ⟨0, _⟩ => exact (mmY1_rhs0 _ _).trans hk
    | ⟨1, _⟩ => exact mmY1_rhs1 _ _)
  rw [el, er]

theorem mmX2_lhs0 (i : S400x64.Idx) (q : dot_S400x128_S128x64_S400x64_1_0_0_1_n_n.contr.Idx) :
    (dot_S400x128_S128x64_S400x64_1_0_0_1_n_n.lhsIdx i q 0).val = (i 0).val := by
  unfold DotDims.lhsIdx
  rw [dif_neg (show ¬(0 : Fin S400x128.rank) ∈ dot_S400x128_S128x64_S400x64_1_0_0_1_n_n.lhsBatch by decide), dif_pos (show (0 : Fin S400x128.rank) ∈ dot_S400x128_S128x64_S400x64_1_0_0_1_n_n.lhsNonContracting by decide)]
  rfl
theorem mmX2_lhs1 (i : S400x64.Idx) (q : dot_S400x128_S128x64_S400x64_1_0_0_1_n_n.contr.Idx) :
    (dot_S400x128_S128x64_S400x64_1_0_0_1_n_n.lhsIdx i q 1).val = (q ⟨0, by decide⟩).val :=
  dot_S400x128_S128x64_S400x64_1_0_0_1_n_n.lhsIdx_val_of_single rfl i q
theorem mmX2_rhs0 (i : S400x64.Idx) (q : dot_S400x128_S128x64_S400x64_1_0_0_1_n_n.contr.Idx) :
    (dot_S400x128_S128x64_S400x64_1_0_0_1_n_n.rhsIdx i q 0).val = (q ⟨0, by decide⟩).val :=
  dot_S400x128_S128x64_S400x64_1_0_0_1_n_n.rhsIdx_val_of_single rfl i q
theorem mmX2_rhs1 (i : S400x64.Idx) (q : dot_S400x128_S128x64_S400x64_1_0_0_1_n_n.contr.Idx) :
    (dot_S400x128_S128x64_S400x64_1_0_0_1_n_n.rhsIdx i q 1).val = (i 1).val := by
  unfold DotDims.rhsIdx
  rw [dif_neg (show ¬(1 : Fin S128x64.rank) ∈ dot_S400x128_S128x64_S400x64_1_0_0_1_n_n.rhsBatch by decide), dif_pos (show (1 : Fin S128x64.rank) ∈ dot_S400x128_S128x64_S400x64_1_0_0_1_n_n.rhsNonContracting by decide)]
  rfl
/-- This product of matrices into a zero accumulator, at `(p, q)`: zero plus the sum over the contracted coordinate. -/
theorem mmX2_apply (lhs : FVec Ideal S400x128 .f32) (rhs : FVec Ideal S128x64 .f32) (p : Fin 400) (q : Fin 64) :
    matmul dot_S400x128_S128x64_S400x64_1_0_0_1_n_n none lhs rhs (constant (F := Ideal) S400x64 .f32 0x00000000#32) (ix2 p q)
      = 0 + ∑ k : Fin 128, lhs (ix2 p k) * rhs (ix2 k q) := by
  simp only [matmul]
  rw [Ideal.matmul_apply, ← Equiv.sum_comp (contrEquiv1 dot_S400x128_S128x64_S400x64_1_0_0_1_n_n 128 rfl rfl).symm]
  refine congrArg₂ (· + ·) Ideal.ofBits_zero_f32 (Finset.sum_congr rfl fun k _ => ?_)
  have hk := contrEquiv1_symm_val dot_S400x128_S128x64_S400x64_1_0_0_1_n_n 128 rfl rfl k
  have el : dot_S400x128_S128x64_S400x64_1_0_0_1_n_n.lhsIdx (ix2 p q) ((contrEquiv1 dot_S400x128_S128x64_S400x64_1_0_0_1_n_n 128 rfl rfl).symm k) = ix2 p k := funext fun a => Fin.ext (by
    match a with
    | ⟨0, _⟩ => exact mmX2_lhs0 _ _
    | ⟨1, _⟩ => exact (mmX2_lhs1 _ _).trans hk)
  have er : dot_S400x128_S128x64_S400x64_1_0_0_1_n_n.rhsIdx (ix2 p q) ((contrEquiv1 dot_S400x128_S128x64_S400x64_1_0_0_1_n_n 128 rfl rfl).symm k) = ix2 k q := funext fun a => Fin.ext (by
    match a with
    | ⟨0, _⟩ => exact (mmX2_rhs0 _ _).trans hk
    | ⟨1, _⟩ => exact mmX2_rhs1 _ _)
  rw [el, er]

theorem mmG2_lhs0 (i : S64x5000.Idx) (q : dot_S400x64_S400x5000_S64x5000_0_0_1_1_n_n.contr.Idx) :
    (dot_S400x64_S400x5000_S64x5000_0_0_1_1_n_n.lhsIdx i q 0).val = (q ⟨0, by decide⟩).val :=
  dot_S400x64_S400x5000_S64x5000_0_0_1_1_n_n.lhsIdx_val_of_single rfl i q
theorem mmG2_lhs1 (i : S64x5000.Idx) (q : dot_S400x64_S400x5000_S64x5000_0_0_1_1_n_n.contr.Idx) :
    (dot_S400x64_S400x5000_S64x5000_0_0_1_1_n_n.lhsIdx i q 1).val = (i 0).val := by
  unfold DotDims.lhsIdx
  rw [dif_neg (show ¬(1 : Fin S400x64.rank) ∈ dot_S400x64_S400x5000_S64x5000_0_0_1_1_n_n.lhsBatch by decide), dif_pos (show (1 : Fin S400x64.rank) ∈ dot_S400x64_S400x5000_S64x5000_0_0_1_1_n_n.lhsNonContracting by decide)]
  rfl
theorem mmG2_rhs0 (i : S64x5000.Idx) (q : dot_S400x64_S400x5000_S64x5000_0_0_1_1_n_n.contr.Idx) :
    (dot_S400x64_S400x5000_S64x5000_0_0_1_1_n_n.rhsIdx i q 0).val = (q ⟨0, by decide⟩).val :=
  dot_S400x64_S400x5000_S64x5000_0_0_1_1_n_n.rhsIdx_val_of_single rfl i q
theorem mmG2_rhs1 (i : S64x5000.Idx) (q : dot_S400x64_S400x5000_S64x5000_0_0_1_1_n_n.contr.Idx) :
    (dot_S400x64_S400x5000_S64x5000_0_0_1_1_n_n.rhsIdx i q 1).val = (i 1).val := by
  unfold DotDims.rhsIdx
  rw [dif_neg (show ¬(1 : Fin S400x5000.rank) ∈ dot_S400x64_S400x5000_S64x5000_0_0_1_1_n_n.rhsBatch by decide), dif_pos (show (1 : Fin S400x5000.rank) ∈ dot_S400x64_S400x5000_S64x5000_0_0_1_1_n_n.rhsNonContracting by decide)]
  rfl
/-- This product of matrices into a zero accumulator, at `(p, q)`: zero plus the sum over the contracted coordinate. -/
theorem mmG2_apply (lhs : FVec Ideal S400x64 .bf16) (rhs : FVec Ideal S400x5000 .bf16) (p : Fin 64) (q : Fin 5000) :
    matmul dot_S400x64_S400x5000_S64x5000_0_0_1_1_n_n none lhs rhs (constant (F := Ideal) S64x5000 .f32 0x00000000#32) (ix2 p q)
      = 0 + ∑ k : Fin 400, lhs (ix2 k p) * rhs (ix2 k q) := by
  simp only [matmul]
  rw [Ideal.matmul_apply, ← Equiv.sum_comp (contrEquiv1 dot_S400x64_S400x5000_S64x5000_0_0_1_1_n_n 400 rfl rfl).symm]
  refine congrArg₂ (· + ·) Ideal.ofBits_zero_f32 (Finset.sum_congr rfl fun k _ => ?_)
  have hk := contrEquiv1_symm_val dot_S400x64_S400x5000_S64x5000_0_0_1_1_n_n 400 rfl rfl k
  have el : dot_S400x64_S400x5000_S64x5000_0_0_1_1_n_n.lhsIdx (ix2 p q) ((contrEquiv1 dot_S400x64_S400x5000_S64x5000_0_0_1_1_n_n 400 rfl rfl).symm k) = ix2 k p := funext fun a => Fin.ext (by
    match a with
    | ⟨0, _⟩ => exact (mmG2_lhs0 _ _).trans hk
    | ⟨1, _⟩ => exact mmG2_lhs1 _ _)
  have er : dot_S400x64_S400x5000_S64x5000_0_0_1_1_n_n.rhsIdx (ix2 p q) ((contrEquiv1 dot_S400x64_S400x5000_S64x5000_0_0_1_1_n_n 400 rfl rfl).symm k) = ix2 k q := funext fun a => Fin.ext (by
    match a with
    | ⟨0, _⟩ => exact (mmG2_rhs0 _ _).trans hk
    | ⟨1, _⟩ => exact mmG2_rhs1 _ _)
  rw [el, er]

/-! ## First sweep -/

/-- The row scaling of row `r` of the block: rsqrt of (zero plus the row's sum, plus ε). -/
theorem pay2_apply (x3 : Vec Ideal S400x5000 .f32) (r : Fin 400) :
    k0_pay2 (F := Ideal) x3 (ix2 r (0 : Fin 1)) = Ideal.rsqrt ((0 + ∑ e : Fin 5000, x3 (ix2 r e)) + eps) := by
  unfold k0_pay2
  show Ideal.rsqrt (shapeCast S400x1 _ shapeCasts_S400_S400x1 (ix2 r (0 : Fin 1)) + Ideal.ofBits .f32 0x2B8CBCCC#32) = _
  rw [shapeCast_a_a1_apply, lanesum_apply, zero_add]
  rfl

/-- The row scaling spread across 128 lanes reads the row's scaling in every lane. -/
theorem pay3_apply (x3 : Vec Ideal S400x5000 .f32) (r : Fin 400) (l : Fin 128) :
    k0_pay3 (F := Ideal) x3 (ix2 r l) = k0_pay2 (F := Ideal) x3 (ix2 r (0 : Fin 1)) := by
  unfold k0_pay3
  show broadcastTo S400x128 _ broadcasts_S400x1_S400x128 (ix2 r l) = _
  rw [broadcastTo_a1_ab_apply, shapeCast_self]

/-- The block's column sums, as a row of ones times the block. -/
theorem pay5_apply (x3 : Vec Ideal S400x5000 .f32) (e : Fin 5000) :
    k0_pay5 (F := Ideal) x3 (ix2 (0 : Fin 1) e) = 0 + ∑ r : Fin 400, oneB * x3 (ix2 r e) := by
  unfold k0_pay5
  show matmul dot_S1x400_S400x5000_S1x5000_1_0_0_1_n_n none _ _ (constant (F := Ideal) S1x5000 .f32 0x00000000#32) (ix2 (0 : Fin 1) e) = _
  rw [mmOnes_apply]
  rfl

/-! ## Third sweep -/

/-- The block's rows of the result: the row scaling times (zero plus the row of H against the scaled gather). -/
theorem k2pay1_apply (v0 : Vec Ideal S400x5000 .f32) (v2 : Vec Ideal S400x1 .f32) (v4 : Vec Ideal S5000x64 .bf16)
    (r : Fin 400) (d : Fin 64) :
    k2_pay1 (F := Ideal) v0 v2 v4 (ix2 r d) = v2 (ix2 r (0 : Fin 1)) * (0 + ∑ e : Fin 5000, v0 (ix2 r e) * v4 (ix2 e d)) := by
  unfold k2_pay1
  show broadcastTo S400x64 (shapeCast S400x1 v2 shapeCasts_S400x1_S400x1) broadcasts_S400x1_S400x64 (ix2 r d)
      * matmul dot_S400x5000_S5000x64_S400x64_1_0_0_1_n_n none _ _ (constant (F := Ideal) S400x64 .f32 0x00000000#32) (ix2 r d) = _
  rw [broadcastTo_a1_ab_apply, shapeCast_self, mmOut_apply, shapeCast_self]
  rfl

/-! ## First sweep: the gather onto hyperedges and its accumulation -/

/-- The block's share of the first gather (transposed layout), at feature `c` and hyperedge `e`. -/
theorem pay4_apply (x3 : Vec Ideal S400x5000 .f32) (x0 : Vec Ideal S400x128 .f32) (x1 : Vec Ideal S128x128 .f32)
    (x2 : Vec Ideal S1x128 .f32) (c : Fin 128) (e : Fin 5000) :
    k0_pay4 (F := Ideal) x3 x0 x1 x2 (ix2 c e)
      = 0 + ∑ r : Fin 400, (((0 + ∑ k : Fin 128, x0 (ix2 r k) * x1 (ix2 k c)) + x2 (ix2 (0 : Fin 1) c))
          * k0_pay2 (F := Ideal) x3 (ix2 r (0 : Fin 1))) * x3 (ix2 r e) := by
  unfold k0_pay4
  show matmul dot_S400x128_S400x5000_S128x5000_0_0_1_1_n_n none _ _ (constant (F := Ideal) S128x5000 .f32 0x00000000#32) (ix2 c e) = _
  rw [mmG1_apply]
  refine congrArg (0 + ·) (Finset.sum_congr rfl fun r _ => ?_)
  show (matmul dot_S400x128_S128x128_S400x128_1_0_0_1_n_n none x0 x1 (constant (F := Ideal) S400x128 .f32 0x00000000#32) (ix2 r c)
      + broadcastTo S400x128 (shapeCast S1x128 x2 shapeCasts_S1x128_S1x128) broadcasts_S1x128_S400x128 (ix2 r c))
      * broadcastTo S400x128 (k0_pay2 (F := Ideal) x3) broadcasts_S400x1_S400x128 (ix2 r c) * x3 (ix2 r e) = _
  rw [mmX1_apply, broadcastTo_1b_ab_apply, shapeCast_self, broadcastTo_a1_ab_apply]

/-- Later blocks add their share to what the earlier blocks left. -/
theorem pay6_apply (x3 : Vec Ideal S400x5000 .f32) (x0 : Vec Ideal S400x128 .f32) (x1 : Vec Ideal S128x128 .f32)
    (x2 : Vec Ideal S1x128 .f32) (xo : Vec Ideal S128x5000 .f32) (c : Fin 128) (e : Fin 5000) :
    k0_pay6 (F := Ideal) x3 x0 x1 x2 xo (ix2 c e) = xo (ix2 c e) + k0_pay4 (F := Ideal) x3 x0 x1 x2 (ix2 c e) := by
  unfold k0_pay6
  show shapeCast S128x5000 xo shapeCasts_S128x5000_S128x5000 (ix2 c e) + _ = _
  rw [shapeCast_self]

/-- Likewise for the column sums. -/
theorem pay7_apply (x3 : Vec Ideal S400x5000 .f32) (xo : Vec Ideal S1x5000 .f32) (e : Fin 5000) :
    k0_pay7 (F := Ideal) x3 xo (ix2 (0 : Fin 1) e) = xo (ix2 (0 : Fin 1) e) + k0_pay5 (F := Ideal) x3 (ix2 (0 : Fin 1) e) := by
  unfold k0_pay7
  show shapeCast S1x5000 xo shapeCasts_S1x5000_S1x5000 (ix2 (0 : Fin 1) e) + _ = _
  rw [shapeCast_self]

/-! ## Second sweep -/

/-- The block's share of the second gather (transposed layout), at output feature `d` and hyperedge `e`. -/
theorem k1pay1_apply (v0 : Vec Ideal S400x5000 .f32) (v2 : Vec Ideal S400x1 .f32) (v4 : Vec Ideal S5000x128 .bf16)
    (v11 : Vec Ideal S128x64 .f32) (v13 : Vec Ideal S1x64 .f32) (d : Fin 64) (e : Fin 5000) :
    k1_pay1 (F := Ideal) v0 v2 v4 v11 v13 (ix2 d e)
      = 0 + ∑ r : Fin 400, (((0 + ∑ c : Fin 128,
            max ((0 + ∑ e' : Fin 5000, v0 (ix2 r e') * v4 (ix2 e' c)) * v2 (ix2 r (0 : Fin 1))) 0 * v11 (ix2 c d))
          + v13 (ix2 (0 : Fin 1) d)) * v2 (ix2 r (0 : Fin 1))) * v0 (ix2 r e) := by
  unfold k1_pay1
  show matmul dot_S400x64_S400x5000_S64x5000_0_0_1_1_n_n none _ _ (constant (F := Ideal) S64x5000 .f32 0x00000000#32) (ix2 d e) = _
  rw [mmG2_apply]
  refine congrArg (0 + ·) (Finset.sum_congr rfl fun r _ => ?_)
  show (matmul dot_S400x128_S128x64_S400x64_1_0_0_1_n_n none _ v11 (constant (F := Ideal) S400x64 .f32 0x00000000#32) (ix2 r d)
      + broadcastTo S400x64 (shapeCast S1x64 v13 shapeCasts_S1x64_S1x64) broadcasts_S1x64_S400x64 (ix2 r d))
      * broadcastTo S400x64 (shapeCast S400x1 v2 shapeCasts_S400x1_S400x1) broadcasts_S400x1_S400x64 (ix2 r d) * v0 (ix2 r e) = _
  rw [mmX2_apply, broadcastTo_1b_ab_apply, broadcastTo_a1_ab_apply]
  simp only [shapeCast_self]
  refine congrArg (fun t => (0 + t + v13 (ix2 (0 : Fin 1) d)) * v2 (ix2 r (0 : Fin 1)) * v0 (ix2 r e))
    (Finset.sum_congr rfl fun c _ => ?_)
  show max (matmul dot_S400x5000_S5000x128_S400x128_1_0_0_1_n_n none _ _ (constant (F := Ideal) S400x128 .f32 0x00000000#32) (ix2 r c)
      * broadcastTo S400x128 v2 broadcasts_S400x1_S400x128 (ix2 r c))
      (Ideal.ofBits .f32 0x00000000#32) * v11 (ix2 c d) = _
  rw [mmY1_apply, broadcastTo_a1_ab_apply, Ideal.ofBits_zero_f32]
  rfl

/-- Later blocks add their share to what the earlier blocks left. -/
theorem k1pay2_apply (v0 : Vec Ideal S400x5000 .f32) (v2 : Vec Ideal S400x1 .f32) (v4 : Vec Ideal S5000x128 .bf16)
    (v11 : Vec Ideal S128x64 .f32) (v13 : Vec Ideal S1x64 .f32) (v27 : Vec Ideal S64x5000 .f32) (d : Fin 64) (e : Fin 5000) :
    k1_pay2 (F := Ideal) v0 v2 v4 v11 v13 v27 (ix2 d e) = v27 (ix2 d e) + k1_pay1 (F := Ideal) v0 v2 v4 v11 v13 (ix2 d e) := by
  unfold k1_pay2
  show shapeCast S64x5000 v27 shapeCasts_S64x5000_S64x5000 (ix2 d e) + _ = _
  rw [shapeCast_self]

end Cert.KernelIdeal.PayIdx

end
-- ==== Proof.PassBC.lean ====
/-
  The array side of pass B and pass C with the payloads' values at an index supplied: what each of the two regions
  leaves in its result array, at a generic entry valuation whose arrays are known.
-/
import proofs.«142963_g18348100288549_rerun558fix_267_53_alg».proof.Proof.PassB
import proofs.«142963_g18348100288549_rerun558fix_267_53_alg».proof.Proof.PassC
import proofs.«142963_g18348100288549_rerun558fix_267_53_alg».proof.Proof.PayIdx

set_option maxRecDepth 16384

noncomputable section

namespace Cert.KernelIdeal.PassBC

open Cert.KernelIdeal Cert.KernelIdeal.Gen
open Idealize.ShloMosaic Idealize.ShloMosaic.TcCoe Idealize.ShloMosaic.ValueIdx Idealize.SL.Sem
open Idealize.ShloMosaic.Pipeline (Dat)
open Cert.KernelIdeal.Hand Cert.Hgnn
open scoped BigOperators

variable (s : Fin 10000 → EReal) (X : ArrX) (H : ArrH) (W1 : ArrW1) (b1 : ArrB1) (W2 : ArrW2) (b2 : ArrB2)
variable (V : (c : Dev nD) → (b : Ref sig .tc) → Buf (Elt Ideal) ((c : Thread nD τ).loc b))

/-- PASS C: when the incidence matrix's array holds H, the first column of the row-scale array holds s and the scaled
    second gather's array holds b2mK, row r of block t of the result array ends at `outK t r`. -/
theorem passC_value (c : Dev nD)
    (hH : ∀ (i : Fin 10000) (e : Fin 5000), V c main_arg1 (ix2 i e) = H (ix2 i e))
    (hs : ∀ i : Fin 10000, V c main_v2_2 (ix2 i 0) = s i)
    (hm : ∀ (e : Fin 5000) (d : Fin 64), V c main_v17 (ix2 e d) = b2mK s X H W1 b1 W2 b2 e d)
    (t : Fin 25) (r : Fin 400) (d : Fin 64) :
    (dat2 V c).arrAt 3 cfg2.N (ix2 (blk t r) d) = outK s X H W1 b1 W2 b2 t r d :=
  passC_value_of s X H W1 b1 W2 b2 V PayIdx.k2pay1_apply c hH hs hm t r d

/-- PASS B: when moreover the scaled first gather's array holds b1mK, and the second layer's weights and bias are in
    their arrays, the result array ends at the second gather accumulated over the 25 row blocks. -/
theorem passB_value (c : Dev nD)
    (hH : ∀ (i : Fin 10000) (e : Fin 5000), V c main_arg1 (ix2 i e) = H (ix2 i e))
    (hs : ∀ i : Fin 10000, V c main_v2_2 (ix2 i 0) = s i)
    (hm1 : ∀ (e : Fin 5000) (c' : Fin 128), V c main_v12 (ix2 e c') = b1mK s X H W1 b1 e c')
    (hW2 : ∀ (c' : Fin 128) (d : Fin 64), V c main_arg4 (ix2 c' d) = W2 (ix2 c' d))
    (hb2 : ∀ d : Fin 64, V c main_v1 (ix2 0 d) = b2 (ix1 d))
    (d : Fin 64) (e : Fin 5000) :
    (dat1 V c).arrAt 5 cfg1.N (ix2 d e) = g2K s X H W1 b1 W2 b2 d e :=
  passB_value_of s X H W1 b1 W2 b2 V PayIdx.k1pay1_apply PayIdx.k1pay2_apply c hH hs hm1 hW2 hb2 d e

end Cert.KernelIdeal.PassBC

end
-- ==== Proof.PassABlocks.lean ====
/-
  How the windows of pass A sit in their arrays, at a generic entry valuation `V`: a row-blocked window's block at
  row block `t` is rows 400·t … 400·t + 399 of its array; a window whose block is its whole array reads the array;
  and which indices of an output array a row block's write-back covers. The relations between the printed index maps
  are decided once over the grid's 25 points.
-/
import proofs.«142963_g18348100288549_rerun558fix_267_53_alg».proof.Proof.Dats
import Idealize.ShloMosaic.Lib.Pipeline.Value
import Idealize.ShloMosaic.Lib.ValueIdx

set_option maxRecDepth 16384

noncomputable section

namespace Cert.KernelIdeal.PassA

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-- Pass A's printed index maps, decided once over the grid's 25 points: a row-blocked window is at block (t, 0) at
    point `t`, a window that is its whole array at block (0, 0). -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = t.val
    ∧ win0_6.index t (1 : Fin 2) = 0 :=
  (by decide +kernel : ∀ t : Fin grid0.N, _)

/-! ## The input windows -/

/-- Window 0 at row block `t`: element (x₀, x₁) of the block is element (400·t + x₀, x₁) of its array. -/
theorem iblk0_0_apply (c : Dev nD) (t : Fin cfg0.N) (x : S400x128.Idx) (i : S10000x128.Idx)
    (h0 : (i 0).val = 400 * t.val + (x 0).val) (h1 : (i 1).val = (x 1).val) :
    (iblk0 V c 0 t : Vec F S400x128 .f32) x = (V c main_arg0 : S10000x128.Idx → Elt F .f32) i := by
  have e0 : win0_0.index t (0 : Fin 2) = t.val := (idx0 t).1
  have e1 : win0_0.index t (1 : Fin 2) = 0 := (idx0 t).2.1
  unfold iblk0
  rw [View.read_apply]
  show V c main_arg0 _ = V c main_arg0 _
  congr 1
  funext a
  apply Fin.ext
  match a with
  | ⟨0, _⟩ => show win0_0.index t (0 : Fin 2) * 400 + 1 * (x 0).val = (i 0).val; rw [e0, h0]; omega
  | ⟨1, _⟩ => show win0_0.index t (1 : Fin 2) * 128 + 1 * (x 1).val = (i 1).val; rw [e1, h1]; omega

/-- Window 1 is the whole of its array at every row block. -/
theorem iblk0_1_eq (c : Dev nD) (t : Fin cfg0.N) :
    (iblk0 V c 1 t : Vec F S128x128 .f32) = (V c main_arg2 : S128x128.Idx → Elt F .f32) := by
  have e0 : win0_1.index t (0 : Fin 2) = 0 := (idx0 t).2.2.1
  have e1 : win0_1.index t (1 : Fin 2) = 0 := (idx0 t).2.2.2.1
  funext x
  unfold iblk0
  rw [View.read_apply]
  show V c main_arg2 _ = V c main_arg2 _
  congr 1
  funext a
  apply Fin.ext
  match a with
  | ⟨0, _⟩ => show win0_1.index t (0 : Fin 2) * 128 + 1 * (x 0).val = (x 0).val; rw [e0]; omega
  | ⟨1, _⟩ => show win0_1.index t (1 : Fin 2) * 128 + 1 * (x 1).val = (x 1).val; rw [e1]; omega

/-- Window 2 is the whole of its array at every row block. -/
theorem iblk0_2_eq (c : Dev nD) (t : Fin cfg0.N) :
    (iblk0 V c 2 t : Vec F S1x128 .f32) = (V c main_v0 : S1x128.Idx → Elt F .f32) := by
  have e0 : win0_2.index t (0 : Fin 2) = 0 := (idx0 t).2.2.2.2.1
  have e1 : win0_2.index t (1 : Fin 2) = 0 := (idx0 t).2.2.2.2.2.1
  funext x
  unfold iblk0
  rw [View.read_apply]
  show V c main_v0 _ = V c main_v0 _
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 128 + 1 * (x 1).val = (x 1).val; rw [e1]; omega

/-- Window 3 at row block `t`: element (x₀, x₁) of the block is element (400·t + x₀, x₁) of its array. -/
theorem iblk0_3_apply (c : Dev nD) (t : Fin cfg0.N) (x : S400x5000.Idx) (i : S10000x5000.Idx)
    (h0 : (i 0).val = 400 * t.val + (x 0).val) (h1 : (i 1).val = (x 1).val) :
    (iblk0 V c 3 t : Vec F S400x5000 .f32) x = (V c main_arg1 : S10000x5000.Idx → Elt F .f32) i := by
  have e0 : win0_3.index t (0 : Fin 2) = t.val := (idx0 t).2.2.2.2.2.2.1
  have e1 : win0_3.index t (1 : Fin 2) = 0 := (idx0 t).2.2.2.2.2.2.2.1
  unfold iblk0
  rw [View.read_apply]
  show V c main_arg1 _ = V c main_arg1 _
  congr 1
  funext a
  apply Fin.ext
  match a with
  | ⟨0, _⟩ => show win0_3.index t (0 : Fin 2) * 400 + 1 * (x 0).val = (i 0).val; rw [e0, h0]; omega
  | ⟨1, _⟩ => show win0_3.index t (1 : Fin 2) * 5000 + 1 * (x 1).val = (i 1).val; rw [e1, h1]; omega

/-! ## The output windows -/

/-- Every index of window 4's array is in the one block written back, at every row block. -/
theorem mem_blk0_4 (t : Fin cfg0.N) (i : S128x5000.Idx) : i ∈ ((cfg0.win 4).blk t).view.set := by
  have e0 : win0_4.index t (0 : Fin 2) = 0 := (idx0 t).2.2.2.2.2.2.2.2.1
  have e1 : win0_4.index t (1 : Fin 2) = 0 := (idx0 t).2.2.2.2.2.2.2.2.2.1
  show i ∈ ((View.whole main_v2_0).slice (win0_4.rect t)).set
  rw [View.set_slice_whole, Rect.mem_set_unit]
  intro a
  match a with
  | ⟨0, _⟩ =>
    show win0_4.index t (0 : Fin 2) * 128 ≤ (i 0).val ∧ (i 0).val < win0_4.index t (0 : Fin 2) * 128 + 128
    have : (i 0).val < 128 := idx2_lt0 i
    rw [e0]; omega
  | ⟨1, _⟩ =>
    show win0_4.index t (1 : Fin 2) * 5000 ≤ (i 1).val ∧ (i 1).val < win0_4.index t (1 : Fin 2) * 5000 + 5000
    have : (i 1).val < 5000 := idx2_lt1 i
    rw [e1]; omega

/-- The block window 4 writes back, read off a whole-array contents, is those contents. -/
theorem read_blk0_4 (t : Fin cfg0.N) (G : S128x5000.Idx → Elt F .f32) :
    (((cfg0.win 4).blk t).view.read (Elt F) G : Vec F S128x5000 .f32) = G := by
  have e0 : win0_4.index t (0 : Fin 2) = 0 := (idx0 t).2.2.2.2.2.2.2.2.1
  have e1 : win0_4.index t (1 : Fin 2) = 0 := (idx0 t).2.2.2.2.2.2.2.2.2.1
  funext x
  rw [View.read_apply]
  show G _ = G _
  congr 1
  funext a
  apply Fin.ext
  match a with
  | ⟨0, _⟩ => show win0_4.index t (0 : Fin 2) * 128 + 1 * (x 0).val = (x 0).val; rw [e0]; omega
  | ⟨1, _⟩ => show win0_4.index t (1 : Fin 2) * 5000 + 1 * (x 1).val = (x 1).val; rw [e1]; omega

/-- Every index of window 5's array is in the one block written back, at every row block. -/
theorem mem_blk0_5 (t : Fin cfg0.N) (i : S1x5000.Idx) : i ∈ ((cfg0.win 5).blk t).view.set := by
  have e0 : win0_5.index t (0 : Fin 2) = 0 := (idx0 t).2.2.2.2.2.2.2.2.2.2.1
  have e1 : win0_5.index t (1 : Fin 2) = 0 := (idx0 t).2.2.2.2.2.2.2.2.2.2.2.1
  show i ∈ ((View.whole main_v2_1).slice (win0_5.rect t)).set
  rw [View.set_slice_whole, Rect.mem_set_unit]
  intro a
  match a with
  | ⟨0, _⟩ =>
    show win0_5.index t (0 : Fin 2) * 1 ≤ (i 0).val ∧ (i 0).val < win0_5.index t (0 : Fin 2) * 1 + 1
    have : (i 0).val < 1 := idx2_lt0 i
    rw [e0]; omega
  | ⟨1, _⟩ =>
    show win0_5.index t (1 : Fin 2) * 5000 ≤ (i 1).val ∧ (i 1).val < win0_5.index t (1 : Fin 2) * 5000 + 5000
    have : (i 1).val < 5000 := idx2_lt1 i
    rw [e1]; omega

/-- The block window 5 writes back, read off a whole-array contents, is those contents. -/
theorem read_blk0_5 (t : Fin cfg0.N) (G : S1x5000.Idx → Elt F .f32) :
    (((cfg0.win 5).blk t).view.read (Elt F) G : Vec F S1x5000 .f32) = G := by
  have e0 : win0_5.index t (0 : Fin 2) = 0 := (idx0 t).2.2.2.2.2.2.2.2.2.2.1
  have e1 : win0_5.index t (1 : Fin 2) = 0 := (idx0 t).2.2.2.2.2.2.2.2.2.2.2.1
  funext x
  rw [View.read_apply]
  show G _ = G _
  congr 1
  funext a
  apply Fin.ext
  match a with
  | ⟨0, _⟩ => show win0_5.index t (0 : Fin 2) * 1 + 1 * (x 0).val = (x 0).val; rw [e0]; omega
  | ⟨1, _⟩ => show win0_5.index t (1 : Fin 2) * 5000 + 1 * (x 1).val = (x 1).val; rw [e1]; omega

/-- An index of the row-scale array whose row lies in row block `t` is in the block written back at `t`. -/
theorem mem_blk0_6 (t : Fin cfg0.N) (i : S10000x128.Idx) (h : 400 * t.val ≤ (i 0).val ∧ (i 0).val < 400 * t.val + 400) :
    i ∈ ((cfg0.win 6).blk t).view.set := by
  have e0 : win0_6.index t (0 : Fin 2) = t.val := (idx0 t).2.2.2.2.2.2.2.2.2.2.2.2.1
  have e1 : win0_6.index t (1 : Fin 2) = 0 := (idx0 t).2.2.2.2.2.2.2.2.2.2.2.2.2
  show i ∈ ((View.whole main_v2_2).slice (win0_6.rect t)).set
  rw [View.set_slice_whole, Rect.mem_set_unit]
  intro a
  match a with
  | ⟨0, _⟩ =>
    show win0_6.index t (0 : Fin 2) * 400 ≤ (i 0).val ∧ (i 0).val < win0_6.index t (0 : Fin 2) * 400 + 400
    rw [e0]; omega
  | ⟨1, _⟩ =>
    show win0_6.index t (1 : Fin 2) * 128 ≤ (i 1).val ∧ (i 1).val < win0_6.index t (1 : Fin 2) * 128 + 128
    have : (i 1).val < 128 := idx2_lt1 i
    rw [e1]; omega

/-- The element of the row-scale array under element `y` of the block written back at row block `t`. -/
theorem emb_blk0_6 (t : Fin cfg0.N) (y : S400x128.Idx) :
    ((((cfg0.win 6).blk t).view.emb y : S10000x128.Idx) 0).val = 400 * t.val + (y 0).val
    ∧ ((((cfg0.win 6).blk t).view.emb y : S10000x128.Idx) 1).val = (y 1).val := by
  have e0 : win0_6.index t (0 : Fin 2) = t.val := (idx0 t).2.2.2.2.2.2.2.2.2.2.2.2.1
  have e1 : win0_6.index t (1 : Fin 2) = 0 := (idx0 t).2.2.2.2.2.2.2.2.2.2.2.2.2
  constructor
  · show win0_6.index t (0 : Fin 2) * 400 + 1 * (y 0).val = _
    rw [e0]; omega
  · show win0_6.index t (1 : Fin 2) * 128 + 1 * (y 1).val = _
    rw [e1]; omega

end Cert.KernelIdeal.PassA

end
-- ==== Proof.PassA.lean ====
/-
  What pass A's three result arrays hold after the region, at a generic entry valuation `V` whose argument arrays are
  the node features X, the incidence matrix H, the first layer's weights W1 and its bias b1.

  The row-scale array holds, in every lane of row 400·t + r, the scale of that row as row block t forms it: each row
  block writes its own 400 rows back, and the 25 row blocks cover the array. The transposed gather and the edge degrees
  are accumulators: one block that is the whole array, written back after the last row block only, holding the first
  row block's share and then each later row block's share added to the running value — the accumulation of the blocked
  arrangement, share by share.
-/
import proofs.«142963_g18348100288549_rerun558fix_267_53_alg».proof.Proof.PassABlocks
import proofs.«142963_g18348100288549_rerun558fix_267_53_alg».proof.Proof.KerSpec
import proofs.«142963_g18348100288549_rerun558fix_267_53_alg».proof.Proof.PayIdx

set_option maxRecDepth 16384

noncomputable section

namespace Cert.KernelIdeal.PassA

open Cert.KernelIdeal Cert.KernelIdeal.Gen Cert.KernelIdeal.Hand Cert.KernelIdeal.PayIdx Cert.Hgnn
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))
variable (c : Dev nD) (X : ArrX) (H : ArrH) (W1 : ArrW1) (b1 : ArrB1)

/-! ## Row blocks and grid points -/

/-- The grid point that handles row block `t`. -/
def pt (t : Fin 25) : Fin cfg0.N := ⟨t.val, lt_of_lt_of_eq t.isLt N_0.symm⟩
/-- The row block a grid point handles. -/
def rb (t : Fin cfg0.N) : Fin 25 := ⟨t.val, lt_of_lt_of_eq t.isLt N_0⟩

theorem rb_pt (t : Fin 25) : rb (pt t) = t := rfl

/-! ## The input blocks, in terms of X, H, W1, b1 -/

theorem xblk (hX : ∀ (i : Fin 10000) (k : Fin 128), (V c main_arg0 : S10000x128.Idx → EReal) (ix2 i k) = X (ix2 i k)) (t : Fin cfg0.N) (r : Fin 400) (k : Fin 128) :
    (iblk0 V c 0 t : Vec Ideal S400x128 .f32) (ix2 r k) = X (ix2 (blk (rb t) r) k) :=
  (iblk0_0_apply V c t (ix2 r k) (ix2 (blk (rb t) r) k) rfl rfl).trans (hX _ _)

theorem hblk (hH : ∀ (i : Fin 10000) (e : Fin 5000), (V c main_arg1 : S10000x5000.Idx → EReal) (ix2 i e) = H (ix2 i e)) (t : Fin cfg0.N) (r : Fin 400) (e : Fin 5000) :
    (iblk0 V c 3 t : Vec Ideal S400x5000 .f32) (ix2 r e) = H (ix2 (blk (rb t) r) e) :=
  (iblk0_3_apply V c t (ix2 r e) (ix2 (blk (rb t) r) e) rfl rfl).trans (hH _ _)

theorem w1blk (hW1 : ∀ (k : Fin 128) (c' : Fin 128), (V c main_arg2 : S128x128.Idx → EReal) (ix2 k c') = W1 (ix2 k c')) (t : Fin cfg0.N) (k : Fin 128) (c' : Fin 128) :
    (iblk0 V c 1 t : Vec Ideal S128x128 .f32) (ix2 k c') = W1 (ix2 k c') :=
  (congrFun (iblk0_1_eq V c t) (ix2 k c')).trans (hW1 _ _)

theorem b1blk (hb1 : ∀ c' : Fin 128, (V c main_v0 : S1x128.Idx → EReal) (ix2 (0 : Fin 1) c') = b1 (ix1 c')) (t : Fin cfg0.N) (c' : Fin 128) :
    (iblk0 V c 2 t : Vec Ideal S1x128 .f32) (ix2 (0 : Fin 1) c') = b1 (ix1 c') :=
  (congrFun (iblk0_2_eq V c t) (ix2 (0 : Fin 1) c')).trans (hb1 _)

/-- The block's own row scale is the row scale of the blocked arrangement. -/
theorem scale_blk (hH : ∀ (i : Fin 10000) (e : Fin 5000), (V c main_arg1 : S10000x5000.Idx → EReal) (ix2 i e) = H (ix2 i e)) (t : Fin cfg0.N) (r : Fin 400) :
    k0_pay2 (F := Ideal) (iblk0 V c 3 t) (ix2 r (0 : Fin 1)) = rowScale H (rb t) r := by
  rw [pay2_apply]
  unfold rowScale
  refine congrArg (fun z => Ideal.rsqrt ((0 + z) + eps)) (Finset.sum_congr rfl fun e _ => ?_)
  exact hblk V c H hH t r e

/-! ## (a) The row-scale array -/

/-- The row-scale array: every lane of row `i` holds the scale of row `i`, as its row block forms it. -/
def scaleArr : S10000x128.Idx → EReal := fun i => rowScale H (blkT (i 0)) (blkR (i 0))

/-- What row block `t` writes back is block `t` of the row-scale array. -/
theorem flushed0_6_eq (hH : ∀ (i : Fin 10000) (e : Fin 5000), (V c main_arg1 : S10000x5000.Idx → EReal) (ix2 i e) = H (ix2 i e)) (t : Fin cfg0.N) :
    (dat0 V c).flushed 6 t = ((cfg0.win 6).blk t).view.read (Elt Ideal) (scaleArr H) := by
  show (cfg0.win 6).cut (grid0.coords t) ((dat0 V c).after 6 t) = _
  rw [after0_6]
  funext y
  rw [View.read_apply]
  show k0_pay3 (F := Ideal) (iblk0 V c 3 t) y = scaleArr H (((cfg0.win 6).blk t).view.emb y)
  obtain ⟨r, l, rfl⟩ : ∃ (r : Fin 400) (l : Fin 128), y = ix2 r l := ⟨y 0, y 1, eq_ix2 y⟩
  have hemb := (emb_blk0_6 t (ix2 r l)).1
  have hi0 : ((((cfg0.win 6).blk t).view.emb (ix2 r l) : S10000x128.Idx) 0) = blk (rb t) r := Fin.ext hemb
  rw [pay3_apply, scale_blk V c H hH t r]
  show _ = rowScale H (blkT ((((cfg0.win 6).blk t).view.emb (ix2 r l) : S10000x128.Idx) 0))
    (blkR ((((cfg0.win 6).blk t).view.emb (ix2 r l) : S10000x128.Idx) 0))
  rw [hi0, blkT_blk, blkR_blk]

/-- (a) After the region the row-scale array holds, in every lane of row 400·t + r, that row's scale. -/
theorem passA_scale (hH : ∀ (i : Fin 10000) (e : Fin 5000), (V c main_arg1 : S10000x5000.Idx → EReal) (ix2 i e) = H (ix2 i e)) (t : Fin 25) (r : Fin 400) (l : Fin 128) :
    ((dat0 V c).arrAt 6 cfg0.N : S10000x128.Idx → EReal) (ix2 (blk t r) l) = rowScale H t r := by
  have h := (dat0 V c).arrAt_apply_of_mem 6 (scaleArr H) (fun t' _ => flushed0_6_eq V c H hH t') cfg0.N (pt t)
    (ix2 (blk t r) l) (pt t).isLt (flush0_6 _)
    (mem_blk0_6 (pt t) (ix2 (blk t r) l)
      ⟨by show 400 * t.val ≤ 400 * t.val + r.val; omega,
       by show 400 * t.val + r.val < 400 * t.val + 400; have := r.isLt; omega⟩)
  refine h.trans ?_
  show rowScale H (blkT (blk t r)) (blkR (blk t r)) = _
  rw [blkT_blk, blkR_blk]

/-! ## The accumulators: each row block's share -/

/-- Row block `t`'s share of the transposed gather is the blocked arrangement's. -/
theorem blk_g1 (hX : ∀ (i : Fin 10000) (k : Fin 128), (V c main_arg0 : S10000x128.Idx → EReal) (ix2 i k) = X (ix2 i k))
    (hH : ∀ (i : Fin 10000) (e : Fin 5000), (V c main_arg1 : S10000x5000.Idx → EReal) (ix2 i e) = H (ix2 i e))
    (hW1 : ∀ (k : Fin 128) (c' : Fin 128), (V c main_arg2 : S128x128.Idx → EReal) (ix2 k c') = W1 (ix2 k c'))
    (hb1 : ∀ c' : Fin 128, (V c main_v0 : S1x128.Idx → EReal) (ix2 (0 : Fin 1) c') = b1 (ix1 c'))
    (t : Fin cfg0.N) (c' : Fin 128) (e : Fin 5000) :
    k0_pay4 (F := Ideal) (iblk0 V c 3 t) (iblk0 V c 0 t) (iblk0 V c 1 t) (iblk0 V c 2 t) (ix2 c' e)
      = g1B (sKer H) X H W1 b1 (rb t) c' e := by
  rw [pay4_apply]
  unfold g1B a1B
  refine congrArg (0 + ·) (Finset.sum_congr rfl fun r _ => ?_)
  rw [scale_blk V c H hH t r, rowScale_eq, hblk V c H hH t r e, b1blk V c b1 hb1 t c']
  refine congrArg (fun z => ((0 + z) + b1 (ix1 c')) * sKer H (blk (rb t) r) * H (ix2 (blk (rb t) r) e))
    (Finset.sum_congr rfl fun k _ => ?_)
  rw [xblk V c X hX t r k, w1blk V c W1 hW1 t k c']

/-- Row block `t`'s share of the edge degrees is the blocked arrangement's. -/
theorem blk_de (hH : ∀ (i : Fin 10000) (e : Fin 5000), (V c main_arg1 : S10000x5000.Idx → EReal) (ix2 i e) = H (ix2 i e)) (t : Fin cfg0.N) (e : Fin 5000) :
    k0_pay5 (F := Ideal) (iblk0 V c 3 t) (ix2 (0 : Fin 1) e) = deB H (rb t) e := by
  rw [pay5_apply]
  unfold deB
  refine congrArg (0 + ·) (Finset.sum_congr rfl fun r _ => ?_)
  rw [hblk V c H hH t r e]

/-! ## The accumulators, row block by row block -/

/-- The transposed-gather accumulator after row block `n` is the blocked arrangement's running value. -/
theorem acc0_4_apply (hX : ∀ (i : Fin 10000) (k : Fin 128), (V c main_arg0 : S10000x128.Idx → EReal) (ix2 i k) = X (ix2 i k))
    (hH : ∀ (i : Fin 10000) (e : Fin 5000), (V c main_arg1 : S10000x5000.Idx → EReal) (ix2 i e) = H (ix2 i e))
    (hW1 : ∀ (k : Fin 128) (c' : Fin 128), (V c main_arg2 : S128x128.Idx → EReal) (ix2 k c') = W1 (ix2 k c'))
    (hb1 : ∀ c' : Fin 128, (V c main_v0 : S1x128.Idx → EReal) (ix2 (0 : Fin 1) c') = b1 (ix1 c'))
    (c' : Fin 128) (e : Fin 5000) : ∀ (n : ℕ) (hn : n < cfg0.N) (hn' : n < 25),
      (acc0_4 V c n hn : Vec Ideal S128x5000 .f32) (ix2 c' e) = accum (fun t => g1B (sKer H) X H W1 b1 t c' e) n hn'
  | 0, hn, hn' => by
    show k0_pay4 (F := Ideal) (iblk0 V c 3 ⟨0, hn⟩) (iblk0 V c 0 ⟨0, hn⟩) (iblk0 V c 1 ⟨0, hn⟩) (iblk0 V c 2 ⟨0, hn⟩) (ix2 c' e)
      = g1B (sKer H) X H W1 b1 (0 : Fin 25) c' e
    exact blk_g1 V c X H W1 b1 hX hH hW1 hb1 ⟨0, hn⟩ c' e
  | n + 1, hn, hn' => by
    show k0_pay6 (F := Ideal) (iblk0 V c 3 ⟨n + 1, hn⟩) (iblk0 V c 0 ⟨n + 1, hn⟩) (iblk0 V c 1 ⟨n + 1, hn⟩) (iblk0 V c 2 ⟨n + 1, hn⟩)
        (acc0_4 V c n (Nat.lt_of_succ_lt hn)) (ix2 c' e)
      = accum (fun t => g1B (sKer H) X H W1 b1 t c' e) n (by omega) + g1B (sKer H) X H W1 b1 ⟨n + 1, hn'⟩ c' e
    rw [pay6_apply, acc0_4_apply hX hH hW1 hb1 c' e n (Nat.lt_of_succ_lt hn) (by omega),
      blk_g1 V c X H W1 b1 hX hH hW1 hb1 ⟨n + 1, hn⟩ c' e]
    rfl

/-- The edge-degree accumulator after row block `n` is the blocked arrangement's running value. -/
theorem acc0_5_apply (hH : ∀ (i : Fin 10000) (e : Fin 5000), (V c main_arg1 : S10000x5000.Idx → EReal) (ix2 i e) = H (ix2 i e)) (e : Fin 5000) : ∀ (n : ℕ) (hn : n < cfg0.N) (hn' : n < 25),
      (acc0_5 V c n hn : Vec Ideal S1x5000 .f32) (ix2 (0 : Fin 1) e) = accum (fun t => deB H t e) n hn'
  | 0, hn, hn' => by
    show k0_pay5 (F := Ideal) (iblk0 V c 3 ⟨0, hn⟩) (ix2 (0 : Fin 1) e) = deB H (0 : Fin 25) e
    exact blk_de V c H hH ⟨0, hn⟩ e
  | n + 1, hn, hn' => by
    show k0_pay7 (F := Ideal) (iblk0 V c 3 ⟨n + 1, hn⟩) (acc0_5 V c n (Nat.lt_of_succ_lt hn)) (ix2 (0 : Fin 1) e)
      = accum (fun t => deB H t e) n (by omega) + deB H ⟨n + 1, hn'⟩ e
    rw [pay7_apply, acc0_5_apply hH e n (Nat.lt_of_succ_lt hn) (by omega), blk_de V c H hH ⟨n + 1, hn⟩ e]
    rfl

/-! ## (b), (c) The accumulated arrays: written back once, after the last row block -/

theorem last_lt : (24 : ℕ) < cfg0.N := lt_of_lt_of_eq (by norm_num) N_0.symm

/-- The one row block that writes an accumulator back is the last. -/
theorem eq_last_of_mod (t : Fin cfg0.N) (h : t.val % 25 = 24) : t = ⟨24, last_lt⟩ := by
  have hN : t.val < 25 := lt_of_lt_of_eq t.isLt N_0
  exact Fin.ext (by show t.val = 24; omega)

/-- (b) After the region the transposed-gather array holds the accumulated gather of the blocked arrangement. -/
theorem passA_g1 (hX : ∀ (i : Fin 10000) (k : Fin 128), (V c main_arg0 : S10000x128.Idx → EReal) (ix2 i k) = X (ix2 i k))
    (hH : ∀ (i : Fin 10000) (e : Fin 5000), (V c main_arg1 : S10000x5000.Idx → EReal) (ix2 i e) = H (ix2 i e))
    (hW1 : ∀ (k : Fin 128) (c' : Fin 128), (V c main_arg2 : S128x128.Idx → EReal) (ix2 k c') = W1 (ix2 k c'))
    (hb1 : ∀ c' : Fin 128, (V c main_v0 : S1x128.Idx → EReal) (ix2 (0 : Fin 1) c') = b1 (ix1 c'))
    (c' : Fin 128) (e : Fin 5000) :
    ((dat0 V c).arrAt 4 cfg0.N : S128x5000.Idx → EReal) (ix2 c' e) = g1K (sKer H) X H W1 b1 c' e := by
  have h := (dat0 V c).arrAt_apply_of_mem 4 (acc0_4 V c 24 last_lt)
    (fun t hf => by
      obtain rfl := eq_last_of_mod t ((flush0_4 t).mp hf)
      rw [read_blk0_4]
      show (cfg0.win 4).cut (grid0.coords ⟨24, last_lt⟩) ((dat0 V c).after 4 ⟨24, last_lt⟩) = _
      rw [after0_4]
      rfl)
    cfg0.N ⟨24, last_lt⟩ (ix2 c' e) last_lt ((flush0_4 _).mpr rfl) (mem_blk0_4 _ _)
  refine h.trans ?_
  exact acc0_4_apply V c X H W1 b1 hX hH hW1 hb1 c' e 24 last_lt (by norm_num)

/-- (c) After the region the edge-degree array holds the accumulated edge degrees of the blocked arrangement. -/
theorem passA_de (hH : ∀ (i : Fin 10000) (e : Fin 5000), (V c main_arg1 : S10000x5000.Idx → EReal) (ix2 i e) = H (ix2 i e)) (e : Fin 5000) :
    ((dat0 V c).arrAt 5 cfg0.N : S1x5000.Idx → EReal) (ix2 (0 : Fin 1) e) = deK H e := by
  have h := (dat0 V c).arrAt_apply_of_mem 5 (acc0_5 V c 24 last_lt)
    (fun t hf => by
      obtain rfl := eq_last_of_mod t ((flush0_5 t).mp hf)
      rw [read_blk0_5]
      show (cfg0.win 5).cut (grid0.coords ⟨24, last_lt⟩) ((dat0 V c).after 5 ⟨24, last_lt⟩) = _
      rw [after0_5]
      rfl)
    cfg0.N ⟨24, last_lt⟩ (ix2 (0 : Fin 1) e) last_lt ((flush0_5 _).mpr rfl) (mem_blk0_5 _ _)
  refine h.trans ?_
  exact acc0_5_apply V c H hH e 24 last_lt (by norm_num)

end Cert.KernelIdeal.PassA

end
-- ==== Proof.RefIsG.lean ====
/-
  The reference program computes the network of Proof/Spec.lean with the row scaling spelt 1 / sqrt (dv + ε).

  The reference is read one stage at a time (the generated reading of each operation at an index), from the degrees up:
  each lemma below says that one of the reference's intermediate arrays, at the index with given coordinates, is the
  corresponding stage of the specification. A `dot_general` is the sum over its contracted coordinate of the products,
  a float sum from the initial value 0 is the plain sum, a broadcast reads its operand at the kept coordinates, the
  transpose of H reads H at the swapped coordinates. The reference forms the row scaling and the edge scaling twice,
  once per layer, by the same operations; both copies are the same functions of H.
-/
import proofs.«142963_g18348100288549_rerun558fix_267_53_alg».proof.Proof.Gen.ReferenceIdeal.Read
import proofs.«142963_g18348100288549_rerun558fix_267_53_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Hgnn
open scoped BigOperators

/-! ## Two indices with the same coordinates are one index -/

theorem idx2_ext {n0 n1 : Nat} (u v : (⟨2, ![n0, n1]⟩ : Shape).Idx) (h0 : (u 0).val = (v 0).val) (h1 : (u 1).val = (v 1).val) :
    u = v :=
  funext fun a => Fin.ext (by match a with | ⟨0, _⟩ => exact h0 | ⟨1, _⟩ => exact h1)

theorem idx1_ext {n : Nat} (u v : (⟨1, ![n]⟩ : Shape).Idx) (h0 : (u 0).val = (v 0).val) : u = v :=
  funext fun a => Fin.ext (by match a with | ⟨0, _⟩ => exact h0)

variable (X : ArrX) (H : ArrH) (W1 : ArrW1) (b1 : ArrB1) (W2 : ArrW2) (b2 : ArrB2)

/-! ## Degrees and scalings (first copy: the first layer's) -/

theorem ref_dv (i : Fin 10000) : val_main_v4 (F := Ideal) H (ix1 i) = dv H i := by
  rw [val_main_v4_apply, val_main_cst_apply, Ideal.ofBits_def, Ideal.ofBits_zero_f32, zero_add]
  exact Finset.sum_congr rfl fun k _ => congrArg H (idx2_ext _ _ rfl rfl)

theorem ref_de (e : Fin 5000) : val_main_v5 (F := Ideal) H (ix1 e) = de H e := by
  rw [val_main_v5_apply, val_main_cst_0_apply, Ideal.ofBits_def, Ideal.ofBits_zero_f32, zero_add]
  exact Finset.sum_congr rfl fun k _ => congrArg H (idx2_ext _ _ rfl rfl)

theorem ref_sRef (i : Fin 10000) : val_main_v10 (F := Ideal) H (ix1 i) = sRef H i := by
  rw [val_main_v10_apply, val_main_v9_apply, val_main_cst_2_apply, val_main_v8_apply, val_main_v7_apply, val_main_v6_apply,
    val_main_cst_1_apply, ref_dv]
  rfl

theorem ref_dei (e : Fin 5000) : val_main_v14 (F := Ideal) H (ix1 e) = dei H e := by
  rw [val_main_v14_apply, val_main_v13_apply, val_main_cst_4_apply, val_main_v12_apply, val_main_v11_apply,
    val_main_cst_3_apply, ref_de]
  rfl

/-! ## Degrees and scalings (second copy: the second layer's) -/

theorem ref_dv' (i : Fin 10000) : val_main_v32 (F := Ideal) H (ix1 i) = dv H i := by
  rw [val_main_v32_apply, val_main_cst_5_apply, Ideal.ofBits_def, Ideal.ofBits_zero_f32, zero_add]
  exact Finset.sum_congr rfl fun k _ => congrArg H (idx2_ext _ _ rfl rfl)

theorem ref_de' (e : Fin 5000) : val_main_v33 (F := Ideal) H (ix1 e) = de H e := by
  rw [val_main_v33_apply, val_main_cst_6_apply, Ideal.ofBits_def, Ideal.ofBits_zero_f32, zero_add]
  exact Finset.sum_congr rfl fun k _ => congrArg H (idx2_ext _ _ rfl rfl)

theorem ref_sRef' (i : Fin 10000) : val_main_v38 (F := Ideal) H (ix1 i) = sRef H i := by
  rw [val_main_v38_apply, val_main_v37_apply, val_main_cst_8_apply, val_main_v36_apply, val_main_v35_apply, val_main_v34_apply,
    val_main_cst_7_apply, ref_dv']
  rfl

theorem ref_dei' (e : Fin 5000) : val_main_v42 (F := Ideal) H (ix1 e) = dei H e := by
  rw [val_main_v42_apply, val_main_v41_apply, val_main_cst_10_apply, val_main_v40_apply, val_main_v39_apply,
    val_main_cst_9_apply, ref_de']
  rfl

/-! ## The first layer -/

theorem ref_x1 (i : Fin 10000) (c : Fin 128) : val_main_v3 (F := Ideal) X W1 b1 (ix2 i c) = x1 X W1 b1 i c := by
  rw [val_main_v3_apply, val_main_v0_apply, val_main_v2_apply, val_main_v1_apply, Ideal.addf_def]
  unfold x1
  refine congrArg₂ (· + ·) (Finset.sum_congr rfl fun k _ => ?_) (congrArg b1 (idx1_ext _ _ rfl))
  rw [show lidx_main_v0 (ix2 i c) k = ix2 i k from idx2_ext _ _ rfl rfl,
    show ridx_main_v0 (ix2 i c) k = ix2 k c from idx2_ext _ _ rfl rfl]

theorem ref_a1 (i : Fin 10000) (c : Fin 128) :
    val_main_v17 (F := Ideal) X H W1 b1 (ix2 i c) = sRef H i * x1 X W1 b1 i c := by
  rw [val_main_v17_apply, val_main_v16_apply, val_main_v15_apply, ref_x1,
    show idx_main_v15 (idx_main_v16 (ix2 i c)) = ix1 i from idx1_ext _ _ rfl, ref_sRef]
  rfl

theorem ref_g1 (e : Fin 5000) (c : Fin 128) :
    val_main_v19 (F := Ideal) X H W1 b1 (ix2 e c) = g1 (sRef H) X H W1 b1 e c := by
  rw [val_main_v19_apply]
  unfold g1
  refine Finset.sum_congr rfl fun k _ => ?_
  rw [val_main_v18_apply, show idx_main_v18 (lidx_main_v19 (ix2 e c) k) = ix2 k e from idx2_ext _ _ rfl rfl,
    show ridx_main_v19 (ix2 e c) k = ix2 k c from idx2_ext _ _ rfl rfl, ref_a1]

theorem ref_m1 (e : Fin 5000) (c : Fin 128) :
    val_main_v22 (F := Ideal) X H W1 b1 (ix2 e c) = m1 (sRef H) X H W1 b1 e c := by
  rw [val_main_v22_apply, val_main_v21_apply, val_main_v20_apply, ref_g1,
    show idx_main_v20 (idx_main_v21 (ix2 e c)) = ix1 e from idx1_ext _ _ rfl, ref_dei]
  rfl

theorem ref_y1 (i : Fin 10000) (c : Fin 128) :
    val_main_v23 (F := Ideal) X H W1 b1 (ix2 i c) = y1 (sRef H) X H W1 b1 i c := by
  rw [val_main_v23_apply]
  unfold y1
  refine Finset.sum_congr rfl fun k _ => ?_
  rw [show lidx_main_v23 (ix2 i c) k = ix2 i k from idx2_ext _ _ rfl rfl,
    show ridx_main_v23 (ix2 i c) k = ix2 k c from idx2_ext _ _ rfl rfl, ref_m1]

theorem ref_z (i : Fin 10000) (c : Fin 128) :
    val_main_v27 (F := Ideal) X H W1 b1 (ix2 i c) = z (sRef H) X H W1 b1 i c := by
  rw [val_main_v27_apply, val_main_v26_apply, val_main_v25_apply, val_main_v24_apply, ref_y1,
    show idx_main_v24 (idx_main_v25 (ix2 i c)) = ix1 i from idx1_ext _ _ rfl, ref_sRef,
    val_main_call0_v0_apply, val_main_call0_cst_apply, Ideal.ofBits_def, Ideal.ofBits_zero_f32]
  rfl

/-! ## The second layer -/

theorem ref_x2 (i : Fin 10000) (d : Fin 64) :
    val_main_v31 (F := Ideal) X H W1 b1 W2 b2 (ix2 i d) = x2 (sRef H) X H W1 b1 W2 b2 i d := by
  rw [val_main_v31_apply, val_main_v28_apply, val_main_v30_apply, val_main_v29_apply, Ideal.addf_def]
  unfold x2
  refine congrArg₂ (· + ·) (Finset.sum_congr rfl fun k _ => ?_) (congrArg b2 (idx1_ext _ _ rfl))
  rw [show lidx_main_v28 (ix2 i d) k = ix2 i k from idx2_ext _ _ rfl rfl,
    show ridx_main_v28 (ix2 i d) k = ix2 k d from idx2_ext _ _ rfl rfl, ref_z]

theorem ref_a2 (i : Fin 10000) (d : Fin 64) :
    val_main_v45 (F := Ideal) X H W1 b1 W2 b2 (ix2 i d) = sRef H i * x2 (sRef H) X H W1 b1 W2 b2 i d := by
  rw [val_main_v45_apply, val_main_v44_apply, val_main_v43_apply, ref_x2,
    show idx_main_v43 (idx_main_v44 (ix2 i d)) = ix1 i from idx1_ext _ _ rfl, ref_sRef']
  rfl

theorem ref_g2 (e : Fin 5000) (d : Fin 64) :
    val_main_v47 (F := Ideal) X H W1 b1 W2 b2 (ix2 e d) = g2 (sRef H) X H W1 b1 W2 b2 e d := by
  rw [val_main_v47_apply]
  unfold g2
  refine Finset.sum_congr rfl fun k _ => ?_
  rw [val_main_v46_apply, show idx_main_v46 (lidx_main_v47 (ix2 e d) k) = ix2 k e from idx2_ext _ _ rfl rfl,
    show ridx_main_v47 (ix2 e d) k = ix2 k d from idx2_ext _ _ rfl rfl, ref_a2]

theorem ref_m2 (e : Fin 5000) (d : Fin 64) :
    val_main_v50 (F := Ideal) X H W1 b1 W2 b2 (ix2 e d) = m2 (sRef H) X H W1 b1 W2 b2 e d := by
  rw [val_main_v50_apply, val_main_v49_apply, val_main_v48_apply, ref_g2,
    show idx_main_v48 (idx_main_v49 (ix2 e d)) = ix1 e from idx1_ext _ _ rfl, ref_dei']
  rfl

theorem ref_y2 (i : Fin 10000) (d : Fin 64) :
    val_main_v51 (F := Ideal) X H W1 b1 W2 b2 (ix2 i d) = y2 (sRef H) X H W1 b1 W2 b2 i d := by
  rw [val_main_v51_apply]
  unfold y2
  refine Finset.sum_congr rfl fun k _ => ?_
  rw [show lidx_main_v51 (ix2 i d) k = ix2 i k from idx2_ext _ _ rfl rfl,
    show ridx_main_v51 (ix2 i d) k = ix2 k d from idx2_ext _ _ rfl rfl, ref_m2]

/-! ## The result -/

/-- The reference's last stage, as a function of the six argument arrays, is the specification with the row scaling
    1 / sqrt (dv + ε). -/
theorem ref_is_G : val_main_v54 (F := Ideal) X H W1 b1 W2 b2 = G (sRef H) X H W1 b1 W2 b2 := by
  funext j
  obtain ⟨i, d, rfl⟩ : ∃ (i : Fin 10000) (d : Fin 64), j = ix2 i d := ⟨j 0, j 1, eq_ix2 j⟩
  rw [G_apply, val_main_v54_apply, val_main_v53_apply, val_main_v52_apply, ref_y2,
    show idx_main_v52 (idx_main_v53 (ix2 i d)) = ix1 i from idx1_ext _ _ rfl, ref_sRef']
  rfl

end Cert.ReferenceIdeal.RefValue

end
-- ==== Proof.PreRows.lean ====
/-
  What the precondition says about the incidence matrix H: every row sum of H is at least zero.

  The precondition is a conjunction of "every entry is finite" facts and, last, "every row sum of H compares ≥ 0".
  Only this last conjunct is read here. The row sum the precondition forms is the host's float sum from the initial
  value 0, which on the extended reals is the plain sum over the row (`rowsum_apply`); the comparison ≥ at the
  extended reals is the order's (`Ideal.cmp`), and the conjunction over all rows is a reduction by `and` that came out 1,
  so each row's comparison came out 1.
-/
import proofs.«142963_g18348100288549_rerun558fix_267_53_alg».proof.Pre_finite_inputs
import proofs.«142963_g18348100288549_rerun558fix_267_53_alg».proof.Proof.Spec
import Idealize.ShloMosaic.Lib.ReduceAll

noncomputable section

namespace Cert.Hgnn.PreRows

open Idealize.ShloMosaic Idealize.ShloMosaic.ValueIdx Cert.Pre_finite_inputs
open scoped BigOperators

variable [Cert.Pre_finite_inputs.Facts]
open Cert.Pre_finite_inputs.Facts

/-- The shape with no axes has one index. -/
instance : Subsingleton Cert.Pre_finite_inputs.S_.Idx := ⟨fun a b => funext fun d => d.elim0⟩

/-- The host's sum of H over its second axis from the initial value 0, at row `i`, is the sum of row `i`. -/
theorem rowsum_apply (H : FVec Ideal S10000x5000 .f32) (i : Fin 10000) :
    Host.reduceAdd (F := Ideal) H (constant (F := Ideal) S_ .f32 0x00000000#32) reducesTo_S10000x5000_S10000_d1 h_S_ (ix1 i)
      = dv H i := by
  simp only [Host.reduceAdd, Ideal.hostReduceAdd_def]
  rw [Ideal.hostReduceAdd_single reducesTo_S10000x5000_S10000_d1 (by decide)]
  show Ideal.ofBits .f32 0x00000000#32 + _ = _
  rw [Ideal.ofBits_zero_f32, zero_add]
  unfold dv
  refine Finset.sum_congr rfl fun k _ => ?_
  exact congrArg H (funext fun a => Fin.ext (by match a with | ⟨0, _⟩ => rfl | ⟨1, _⟩ => rfl))

/-- Under the precondition every row sum of H is at least zero. -/
theorem rows_nonneg (a0 : FVec Ideal S10000x128 .f32) (a1 : FVec Ideal S10000x5000 .f32) (a2 : FVec Ideal S128x128 .f32)
    (a3 : FVec Ideal S128 .f32) (a4 : FVec Ideal S128x64 .f32) (a5 : FVec Ideal S64 .f32)
    (h : Cert.Pre_finite_inputs.fn (F := Ideal) a0 a1 a2 a3 a4 a5 = (fun _ => 1#1)) (i : Fin 10000) :
    0 ≤ dv a1 i := by
  have h0 := congrFun h ix0
  dsimp only [Cert.Pre_finite_inputs.fn, Cert.Pre_finite_inputs.fn_part1, Cert.Pre_finite_inputs.fn_part2] at h0
  have h1 := (IntOp.andi_eq_one.1 h0).2
  have h2 := Host.reduce_andi_all _ _ _ _ _ h1 (ix1 i)
  rw [cmpf_apply, rowsum_apply, broadcastInDim_scalar_apply] at h2
  have h3 : BitVec.ofBool (decide (Ideal.ofBits .f32 0x00000000#32 ≤ dv a1 i)) = 1#1 := h2
  rw [Ideal.ofBits_zero_f32] at h3
  by_contra hneg
  rw [decide_eq_false hneg] at h3
  exact absurd h3 (by decide)

end Cert.Hgnn.PreRows

end
-- ==== Proof.Algebraic.lean ====
/-
  The two idealized programs compute one function. The kernel's result, read off its run: pass C's output array at row
  400 t + r is the row scale times the sum over edges of H times the matrix that pass B's accumulator and the inverse edge
  degrees give; unfolding pass B and pass A the same way and regrouping the block-by-block sums over rows into whole sums
  (the extended reals' sums and products are commutative and associative; no distributivity is used) this is the
  reference's function with rsqrt(x) for the row scale, which agrees with the reference's 1 / sqrt(x) wherever
  0 ≤ x — and the row sums of H are nonnegative by the precondition.
-/
import proofs.«142963_g18348100288549_rerun558fix_267_53_alg».proof.Defs
import proofs.«142963_g18348100288549_rerun558fix_267_53_alg».proof.Proof.Claims
import proofs.«142963_g18348100288549_rerun558fix_267_53_alg».proof.Proof.Glue
import proofs.«142963_g18348100288549_rerun558fix_267_53_alg».proof.Proof.Walk
import proofs.«142963_g18348100288549_rerun558fix_267_53_alg».proof.Proof.KerSpec
import proofs.«142963_g18348100288549_rerun558fix_267_53_alg».proof.Proof.PassBC
import proofs.«142963_g18348100288549_rerun558fix_267_53_alg».proof.Proof.PassA
import proofs.«142963_g18348100288549_rerun558fix_267_53_alg».proof.Proof.RefIsG
import proofs.«142963_g18348100288549_rerun558fix_267_53_alg».proof.Proof.PreRows
import proofs.«142963_g18348100288549_rerun558fix_267_53_alg».proof.Proof.Gen.ReferenceIdeal.Read

set_option maxRecDepth 16384

noncomputable section

namespace Cert.Proof.Alg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Hand Cert.KernelIdeal.Glue Cert.KernelIdeal.Walk Cert.Hgnn Idealize.ShloMosaic.ValueIdx

section
variable (m : (ℓ : Loc nD τ sig) → Buf (Elt Ideal) ℓ) (ρ : Dev nD → PrngReg) (c : Dev nD)

/-- The six argument arrays as the specification takes them. -/
abbrev aX : ArrX := m ((c : Thread nD τ).loc main_arg0)
abbrev aH : ArrH := m ((c : Thread nD τ).loc main_arg1)
abbrev aW1 : ArrW1 := m ((c : Thread nD τ).loc main_arg2)
abbrev ab1 : ArrB1 := m ((c : Thread nD τ).loc main_arg3)
abbrev aW2 : ArrW2 := m ((c : Thread nD τ).loc main_arg4)
abbrev ab2 : ArrB2 := m ((c : Thread nD τ).loc main_arg5)

/-! ## Pass A's three result arrays, from the launch memory -/

theorem passA_scale (t : Fin 25) (r : Fin 400) (l : Fin 128) :
    rd2 (n := 10000) (k := 128) ((dat0 (V1 m ρ) c).arrAt 6 cfg0.N) (ix2 (blk t r) l) = rowScale (aH m c) t r :=
  Cert.KernelIdeal.PassA.passA_scale (V1 m ρ) c (aH m c)
    (fun i e => by show W1 m ρ c (Proc.devRef .tc main_arg1) (ix2 i e) = _; rw [W1_arg1 m ρ c]) t r l

theorem passA_g1 (c' : Fin 128) (e : Fin 5000) :
    rd2 (n := 128) (k := 5000) ((dat0 (V1 m ρ) c).arrAt 4 cfg0.N) (ix2 c' e)
      = g1K (sKer (aH m c)) (aX m c) (aH m c) (aW1 m c) (ab1 m c) c' e :=
  Cert.KernelIdeal.PassA.passA_g1 (V1 m ρ) c (aX m c) (aH m c) (aW1 m c) (ab1 m c)
    (fun i k => by show W1 m ρ c (Proc.devRef .tc main_arg0) (ix2 i k) = _; rw [W1_arg0 m ρ c])
    (fun i e => by show W1 m ρ c (Proc.devRef .tc main_arg1) (ix2 i e) = _; rw [W1_arg1 m ρ c])
    (fun k c' => by show W1 m ρ c (Proc.devRef .tc main_arg2) (ix2 k c') = _; rw [W1_arg2 m ρ c])
    (fun c' => glue_b1 m ρ c c') c' e

theorem passA_de (e : Fin 5000) :
    rd2 (n := 1) (k := 5000) ((dat0 (V1 m ρ) c).arrAt 5 cfg0.N) (ix2 (0 : Fin 1) e) = deK (aH m c) e :=
  Cert.KernelIdeal.PassA.passA_de (V1 m ρ) c (aH m c)
    (fun i e => by show W1 m ρ c (Proc.devRef .tc main_arg1) (ix2 i e) = _; rw [W1_arg1 m ρ c]) e

/-! ## What pass A leaves, as every later segment reads it -/

theorem scale_at (i : Fin 10000) (l : Fin 128) :
    rd2 (n := 10000) (k := 128) ((dat0 (V1 m ρ) c).arrAt 6 cfg0.N) (ix2 i l) = sKer (aH m c) i := by
  obtain ⟨t, r, rfl⟩ := blk_surj i
  exact (passA_scale m ρ c t r l).trans (rowScale_eq _ t r)

theorem dei_at (e : Fin 5000) :
    rd2 (n := 5000) (k := 1) (W3 m ρ c (Proc.devRef .tc main_v8)) (ix2 e (0 : Fin 1)) = deiK (aH m c) e := by
  unfold rd2
  rw [glue_dei m ρ c e, W2_v2_1 m ρ c]
  unfold deiK
  rw [← passA_de m ρ c e]

theorem b1m_at (e : Fin 5000) (c' : Fin 128) :
    rd2 (n := 5000) (k := 128) (W3 m ρ c (Proc.devRef .tc main_v12)) (ix2 e c')
      = b1mK (sKer (aH m c)) (aX m c) (aH m c) (aW1 m c) (ab1 m c) e c' := by
  rw [glue_b1m m ρ c e c', W2_v2_0 m ρ c, W2_v2_1 m ρ c]
  unfold b1mK deiK
  rw [← passA_g1 m ρ c c' e, ← passA_de m ρ c e]

/-! ## What pass B leaves -/

theorem g2_at (d : Fin 64) (e : Fin 5000) :
    rd2 (n := 64) (k := 5000) ((dat1 (V3 m ρ) c).arrAt 5 cfg1.N) (ix2 d e)
      = g2K (sKer (aH m c)) (aX m c) (aH m c) (aW1 m c) (ab1 m c) (aW2 m c) (ab2 m c) d e := by
  refine Cert.KernelIdeal.PassBC.passB_value (sKer (aH m c)) (aX m c) (aH m c) (aW1 m c) (ab1 m c) (aW2 m c) (ab2 m c) (V3 m ρ) c
    ?_ ?_ ?_ ?_ ?_ d e
  · intro i e; show W3 m ρ c (Proc.devRef .tc main_arg1) (ix2 i e) = _; rw [W3_arg1 m ρ c]
  · intro i; show W3 m ρ c (Proc.devRef .tc main_v2_2) (ix2 i 0) = _; rw [W3_v2_2 m ρ c]; exact scale_at m ρ c i 0
  · intro e c'; exact b1m_at m ρ c e c'
  · intro c' d; show W3 m ρ c (Proc.devRef .tc main_arg4) (ix2 c' d) = _; rw [W3_arg4 m ρ c]
  · intro d; show W3 m ρ c (Proc.devRef .tc main_v1) (ix2 0 d) = _; rw [W3_v1 m ρ c]; exact glue_b2 m ρ c d

theorem b2m_at (e : Fin 5000) (d : Fin 64) :
    rd2 (n := 5000) (k := 64) (W5 m ρ c (Proc.devRef .tc main_v17)) (ix2 e d)
      = b2mK (sKer (aH m c)) (aX m c) (aH m c) (aW1 m c) (ab1 m c) (aW2 m c) (ab2 m c) e d := by
  rw [glue_b2m m ρ c e d, W4_v13 m ρ c, W4_v8 m ρ c, g2_at m ρ c d e, dei_at m ρ c e]
  rfl

/-! ## The kernel's result -/

theorem kernel_value :
    (W6 m ρ c (Proc.devRef .tc main_v18) : ArrOut)
      = G (sKer (aH m c)) (aX m c) (aH m c) (aW1 m c) (ab1 m c) (aW2 m c) (ab2 m c) := by
  funext j
  obtain ⟨i, d, rfl⟩ : ∃ (i : Fin 10000) (d : Fin 64), j = ix2 i d := ⟨j 0, j 1, eq_ix2 j⟩
  obtain ⟨t, r, rfl⟩ := blk_surj i
  rw [W6_main_v18 m ρ c]
  refine (Cert.KernelIdeal.PassBC.passC_value (sKer (aH m c)) (aX m c) (aH m c) (aW1 m c) (ab1 m c) (aW2 m c) (ab2 m c) (V5 m ρ) c
    ?_ ?_ ?_ t r d).trans (outK_eq_G _ _ _ _ _ _ _ t r d)
  · intro i e; show W5 m ρ c (Proc.devRef .tc main_arg1) (ix2 i e) = _; rw [W5_arg1 m ρ c]
  · intro i; show W5 m ρ c (Proc.devRef .tc main_v2_2) (ix2 i 0) = _; rw [W5_v2_2 m ρ c]; exact scale_at m ρ c i 0
  · intro e d; exact b2m_at m ρ c e d

end

/-! ## The claim -/

theorem algebraic : Cert.algebraic_KernelIdeal_ReferenceIdeal := by
  intro m ρ m' ρ' hpre hagree
  refine ⟨fun c => G (sKer (aH m c)) (aX m c) (aH m c) (aW1 m c) (ab1 m c) (aW2 m c) (ab2 m c), ?_, ?_⟩
  · exact (θ_run Cert.KernelIdeal.defs _ _).mono (fun r h c =>
      ⟨(h c _ (mem_uc main_v18 (by decide))).trans (kernel_value m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)
      (Cert.KernelIdeal.Hand.run m ρ body_obligation0 body_obligation1 body_obligation2)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v54_eq, Cert.ReferenceIdeal.RefValue.ref_is_G,
      (hagree c).1, (hagree c).2.1, (hagree c).2.2.1, (hagree c).2.2.2.1, (hagree c).2.2.2.2.1, (hagree c).2.2.2.2.2]
    exact (congrArg (fun s => G s (aX m c) (aH m c) (aW1 m c) (ab1 m c) (aW2 m c) (ab2 m c))
      (sKer_eq_sRef (aH m c) (Cert.Hgnn.PreRows.rows_nonneg _ _ _ _ _ _ (hpre c)))).symm

end Cert.Proof.Alg

end
-- ==== Proof.lean ====
/- Two stacked hypergraph convolutions, X2 = L (relu (L (X W1 + b1)) W2 + b2) with L = Dv^(-1/2) H De^(-1) Hᵀ Dv^(-1/2):
   a kernel that sweeps the incidence matrix H three times in row blocks of 400 — accumulating the vertex-side products
   Hᵀ(·) block by block and rescaling by the inverse edge degrees between sweeps — against the plain formula.
   Over the extended reals the two agree wherever every row sum of H is nonnegative (there rsqrt(x) = 1 / sqrt(x));
   the regrouping of the block-by-block sums uses only commutativity and associativity.
   Proof/Claims.lean: the three frames and the (empty) idealization claim. Proof/Algebraic.lean: the value claim, over
   Proof/Spec.lean and Proof/KerSpec.lean (the function both programs compute and the kernel's arrangement of it),
   Proof/RefIsG.lean (the reference), Proof/PayIdx.lean, Proof/PassA.lean, Proof/PassBC.lean, Proof/Glue.lean (the kernel). -/
import proofs.«142963_g18348100288549_rerun558fix_267_53_alg».proof.Defs
import proofs.«142963_g18348100288549_rerun558fix_267_53_alg».proof.Proof.Claims
import proofs.«142963_g18348100288549_rerun558fix_267_53_alg».proof.Proof.Algebraic
import proofs.«142963_g18348100288549_rerun558fix_267_53_alg».proof.Proof.Gen.Kernel
import proofs.«142963_g18348100288549_rerun558fix_267_53_alg».proof.Proof.Gen.Kernel.Skeleton
import proofs.«142963_g18348100288549_rerun558fix_267_53_alg».proof.Proof.Gen.Kernel.Launch
import proofs.«142963_g18348100288549_rerun558fix_267_53_alg».proof.Proof.Gen.Kernel.Regions
import proofs.«142963_g18348100288549_rerun558fix_267_53_alg».proof.Proof.Gen.Kernel.Points
import proofs.«142963_g18348100288549_rerun558fix_267_53_alg».proof.Proof.Gen.KernelIdeal
import proofs.«142963_g18348100288549_rerun558fix_267_53_alg».proof.Proof.Gen.KernelIdeal.Skeleton
import proofs.«142963_g18348100288549_rerun558fix_267_53_alg».proof.Proof.Gen.KernelIdeal.Launch
import proofs.«142963_g18348100288549_rerun558fix_267_53_alg».proof.Proof.Gen.KernelIdeal.Regions
import proofs.«142963_g18348100288549_rerun558fix_267_53_alg».proof.Proof.Gen.KernelIdeal.Points
import proofs.«142963_g18348100288549_rerun558fix_267_53_alg».proof.Proof.Gen.ReferenceIdeal
import proofs.«142963_g18348100288549_rerun558fix_267_53_alg».proof.Proof.Gen.Pre_finite_inputs
import proofs.«142963_g18348100288549_rerun558fix_267_53_alg».proof.Proof.Gen.ReferenceIdeal.Read
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Alg.algebraic⟩

end Cert.Proof

end
